-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1x192x192x192 : Shape := ⟨5, ![2, 1, 192, 192, 192]⟩
abbrev S_ : Shape := ⟨0, ![]⟩

class Facts : Prop where
  bcast_S_S2x1x192x192x192 : S_.BroadcastsInDim S2x1x192x192x192 (![] : Fin 0 → Fin S2x1x192x192x192.rank)
  reducesTo_S2x1x192x192x192_S_d0_1_2_3_4 : S2x1x192x192x192.ReducesTo [0, 1, 2, 3, 4] S_
  h_S_ : 0 < S_.numel

variable [Facts]

def fn_part1 {F : FTy → Type} [FloatOps F] (main_arg4 : FVec F S2x1x192x192x192 .f32) (main_arg5 : FVec F S2x1x192x192x192 .f32) (main_v13 : IVec S_ 1) (main_v16 : IVec S2x1x192x192x192 1) : IVec S_ 1 :=
  let main_c_5 : IVec S_ 1 := constantI S_ 1 1#1
  let main_v17 : IVec S_ 1 := (fun x v => Host.reduce IntOp.andi x v reducesTo_S2x1x192x192x192_S_d0_1_2_3_4 h_S_) main_v16 main_c_5
  let main_v18 : IVec S_ 1 := andi main_v13 main_v17
  let main_v19 : FVec F S2x1x192x192x192 .f32 := Host.absf main_arg4
  let main_cst_6 : FVec F S_ .f32 := constant S_ .f32 0x7F800000#32
  let main_v20 : FVec F S2x1x192x192x192 .f32 := broadcastInDim S2x1x192x192x192 ![] bcast_S_S2x1x192x192x192 main_cst_6
  let main_v21 : IVec S2x1x192x192x192 1 := cmpf .olt main_v19 main_v20
  let main_c_7 : IVec S_ 1 := constantI S_ 1 1#1
  let main_v22 : IVec S_ 1 := (fun x v => Host.reduce IntOp.andi x v reducesTo_S2x1x192x192x192_S_d0_1_2_3_4 h_S_) main_v21 main_c_7
  let main_v23 : IVec S_ 1 := andi main_v18 main_v22
  let main_v24 : FVec F S2x1x192x192x192 .f32 := Host.absf main_arg5
  let main_cst_8 : FVec F S_ .f32 := constant S_ .f32 0x7F800000#32
  let main_v25 : FVec F S2x1x192x192x192 .f32 := broadcastInDim S2x1x192x192x192 ![] bcast_S_S2x1x192x192x192 main_cst_8
  let main_v26 : IVec S2x1x192x192x192 1 := cmpf .olt main_v24 main_v25
  let main_c_9 : IVec S_ 1 := constantI S_ 1 1#1
  let main_v27 : IVec S_ 1 := (fun x v => Host.reduce IntOp.andi x v reducesTo_S2x1x192x192x192_S_d0_1_2_3_4 h_S_) main_v26 main_c_9
  let main_v28 : IVec S_ 1 := andi main_v23 main_v27
  main_v28

def fn {F : FTy → Type} [FloatOps F] (main_arg0 : FVec F S2x1x192x192x192 .f32) (main_arg1 : FVec F S2x1x192x192x192 .f32) (main_arg2 : FVec F S2x1x192x192x192 .f32) (main_arg3 : FVec F S2x1x192x192x192 .f32) (main_arg4 : FVec F S2x1x192x192x192 .f32) (main_arg5 : FVec F S2x1x192x192x192 .f32) : IVec S_ 1 :=
  let main_v0 : FVec F S2x1x192x192x192 .f32 := Host.absf main_arg0
  let main_cst : FVec F S_ .f32 := constant S_ .f32 0x7F800000#32
  let main_v1 : FVec F S2x1x192x192x192 .f32 := broadcastInDim S2x1x192x192x192 ![] bcast_S_S2x1x192x192x192 main_cst
  let main_v2 : IVec S2x1x192x192x192 1 := cmpf .olt main_v0 main_v1
  let main_c : IVec S_ 1 := constantI S_ 1 1#1
  let main_v3 : IVec S_ 1 := (fun x v => Host.reduce IntOp.andi x v reducesTo_S2x1x192x192x192_S_d0_1_2_3_4 h_S_) main_v2 main_c
  let main_v4 : FVec F S2x1x192x192x192 .f32 := Host.absf main_arg1
  let main_cst_0 : FVec F S_ .f32 := constant S_ .f32 0x7F800000#32
  let main_v5 : FVec F S2x1x192x192x192 .f32 := broadcastInDim S2x1x192x192x192 ![] bcast_S_S2x1x192x192x192 main_cst_0
  let main_v6 : IVec S2x1x192x192x192 1 := cmpf .olt main_v4 main_v5
  let main_c_1 : IVec S_ 1 := constantI S_ 1 1#1
  let main_v7 : IVec S_ 1 := (fun x v => Host.reduce IntOp.andi x v reducesTo_S2x1x192x192x192_S_d0_1_2_3_4 h_S_) main_v6 main_c_1
  let main_v8 : IVec S_ 1 := andi main_v3 main_v7
  let main_v9 : FVec F S2x1x192x192x192 .f32 := Host.absf main_arg2
  let main_cst_2 : FVec F S_ .f32 := constant S_ .f32 0x7F800000#32
  let main_v10 : FVec F S2x1x192x192x192 .f32 := broadcastInDim S2x1x192x192x192 ![] bcast_S_S2x1x192x192x192 main_cst_2
  let main_v11 : IVec S2x1x192x192x192 1 := cmpf .olt main_v9 main_v10
  let main_c_3 : IVec S_ 1 := constantI S_ 1 1#1
  let main_v12 : IVec S_ 1 := (fun x v => Host.reduce IntOp.andi x v reducesTo_S2x1x192x192x192_S_d0_1_2_3_4 h_S_) main_v11 main_c_3
  let main_v13 : IVec S_ 1 := andi main_v8 main_v12
  let main_v14 : FVec F S2x1x192x192x192 .f32 := Host.absf main_arg3
  let main_cst_4 : FVec F S_ .f32 := constant S_ .f32 0x7F800000#32
  let main_v15 : FVec F S2x1x192x192x192 .f32 := broadcastInDim S2x1x192x192x192 ![] bcast_S_S2x1x192x192x192 main_cst_4
  let main_v16 : IVec S2x1x192x192x192 1 := cmpf .olt main_v14 main_v15
  fn_part1 (F := F) main_arg4 main_arg5 main_v13 main_v16
-- ==== Kernel.lean ====
abbrev S2x1x192x192x192 : Shape := ⟨5, ![2, 1, 192, 192, 192]⟩
abbrev S1x1 : Shape := ⟨2, ![1, 1]⟩
abbrev S1x1x8x192x192 : Shape := ⟨5, ![1, 1, 8, 192, 192]⟩
abbrev S1x1x1x192x192 : Shape := ⟨5, ![1, 1, 1, 192, 192]⟩
abbrev S8x192x192 : Shape := ⟨3, ![8, 192, 192]⟩
abbrev S192x192 : Shape := ⟨2, ![192, 192]⟩
abbrev S8x1x192 : Shape := ⟨3, ![8, 1, 192]⟩
abbrev S8x192x1 : Shape := ⟨3, ![8, 192, 1]⟩
abbrev S1x192x192 : Shape := ⟨3, ![1, 192, 192]⟩
abbrev S7x192x192 : Shape := ⟨3, ![7, 192, 192]⟩
abbrev S8x191x192 : Shape := ⟨3, ![8, 191, 192]⟩
abbrev S8x192x191 : Shape := ⟨3, ![8, 192, 191]⟩
abbrev S8x192 : Shape := ⟨2, ![8, 192]⟩
abbrev S8x1 : Shape := ⟨2, ![8, 1]⟩
abbrev S8x1x1 : Shape := ⟨3, ![8, 1, 1]⟩
abbrev S1x1x1 : Shape := ⟨3, ![1, 1, 1]⟩
abbrev S_ : Shape := ⟨0, ![]⟩

abbrev nBuf : Space → Nat
  | .hbm => 19
  | .vmem => 18
  | .smem => 0
  | _ => 0

abbrev bufTy : (tb : Table) → Fin (tcTables nBuf tb) → BufTy
  | .hbm, ⟨0, _⟩ => ⟨S2x1x192x192x192, .f32⟩
  | .hbm, ⟨1, _⟩ => ⟨S2x1x192x192x192, .f32⟩
  | .hbm, ⟨2, _⟩ => ⟨S2x1x192x192x192, .f32⟩
  | .hbm, ⟨3, _⟩ => ⟨S2x1x192x192x192, .f32⟩
  | .hbm, ⟨4, _⟩ => ⟨S2x1x192x192x192, .f32⟩
  | .hbm, ⟨5, _⟩ => ⟨S2x1x192x192x192, .f32⟩
  | .hbm, ⟨6, _⟩ => ⟨S1x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x1x8x192x192, .f32⟩
  | .local _ .vmem, ⟨1, _⟩ => ⟨S1x1x8x192x192, .f32⟩
  | .local _ .vmem, ⟨2, _⟩ => ⟨S1x1x1x192x192, .f32⟩
  | .local _ .vmem, ⟨3, _⟩ => ⟨S1x1x1x192x192, .f32⟩
  | .local _ .vmem, ⟨4, _⟩ => ⟨S1x1x1x192x192, .f32⟩
  | .local _ .vmem, ⟨5, _⟩ => ⟨S1x1x1x192x192, .f32⟩
  | .local _ .vmem, ⟨6, _⟩ => ⟨S1x1x8x192x192, .f32⟩
  | .local _ .vmem, ⟨7, _⟩ => ⟨S1x1x8x192x192, .f32⟩
  | .local _ .vmem, ⟨8, _⟩ => ⟨S1x1x8x192x192, .f32⟩
  | .local _ .vmem, ⟨9, _⟩ => ⟨S1x1x8x192x192, .f32⟩
  | .local _ .vmem, ⟨10, _⟩ => ⟨S1x1x8x192x192, .f32⟩
  | .local _ .vmem, ⟨11, _⟩ => ⟨S1x1x8x192x192, .f32⟩
  | .local _ .vmem, ⟨12, _⟩ => ⟨S1x1x8x192x192, .f32⟩
  | .local _ .vmem, ⟨13, _⟩ => ⟨S1x1x8x192x192, .f32⟩
  | .local _ .vmem, ⟨14, _⟩ => ⟨S1x1x8x192x192, .f32⟩
  | .local _ .vmem, ⟨15, _⟩ => ⟨S1x1x8x192x192, .f32⟩
  | .local _ .vmem, ⟨16, _⟩ => ⟨S1x1, .f32⟩
  | .local _ .vmem, ⟨17, _⟩ => ⟨S1x1, .f32⟩
  | _, _ => ⟨S2x1x192x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17

abbrev nD : Nat := 1
abbrev τ : Topo := Topo.v7x

variable {F : FTy → Type} [FloatOps F]

abbrev grid0 : Pipeline.Grid := ⟨2, ![2, 24], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c191_i32 : BitVec 32 := 191#32
  let v3 : BitVec 32 := Scalar.minsi v2 c191_i32
  let c0_i32_0 : BitVec 32 := 0#32
  let c0_i32_1 : BitVec 32 := 0#32
  let c0_i32_2 : BitVec 32 := 0#32
  let c0_i32_3 : BitVec 32 := 0#32
  ![arg0.toNat, c0_i32_0.toNat, v3.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let c191_i32 : BitVec 32 := 191#32
  let v2 : BitVec 32 := Scalar.minsi v1 c191_i32
  let c0_i32 : BitVec 32 := 0#32
  let c0_i32_1 : BitVec 32 := 0#32
  let c0_i32_2 : BitVec 32 := 0#32
  let c0_i32_3 : BitVec 32 := 0#32
  ![arg0.toNat, c0_i32.toNat, v2.toNat, c0_i32_1.toNat, c0_i32_2.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x8x192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x192x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x192x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x192x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x192x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8x192x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x8x192x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

class Facts₀ : Prop where
  inb_S1x1_S1x1_0_0 : ∀ a, (![0, 0] : Fin 2 → Nat) a + S1x1.size a ≤ S1x1.size a
  h_S1x1 : 0 < S1x1.numel
  inb_S1x1x8x192x192_S1x1x8x192x192_0_0_0_0_0 : ∀ a, (![0, 0, 0, 0, 0] : Fin 5 → Nat) a + S1x1x8x192x192.size a ≤ S1x1x8x192x192.size a
  h_S1x1x8x192x192 : 0 < S1x1x8x192x192.numel
  shapeCasts_S1x1x8x192x192_S8x192x192 : S1x1x8x192x192.ShapeCasts S8x192x192
  inb_S1x1x1x192x192_S1x1x1x192x192_0_0_0_0_0 : ∀ a, (![0, 0, 0, 0, 0] : Fin 5 → Nat) a + S1x1x1x192x192.size a ≤ S1x1x1x192x192.size a
  h_S1x1x1x192x192 : 0 < S1x1x1x192x192.numel
  shapeCasts_S1x1x1x192x192_S192x192 : S1x1x1x192x192.ShapeCasts S192x192
  shapeCasts_S192x192_S1x192x192 : S192x192.ShapeCasts S1x192x192
  slices_S8x192x192_o0_0_0_S7x192x192 : S8x192x192.Slices ![0, 0, 0] S7x192x192
  concatenates_S1x192x192_S7x192x192_S8x192x192_d0 : Shape.Concatenates [S1x192x192, S7x192x192] S8x192x192 0
  slices_S8x192x192_o1_0_0_S7x192x192 : S8x192x192.Slices ![1, 0, 0] S7x192x192
  concatenates_S7x192x192_S1x192x192_S8x192x192_d0 : Shape.Concatenates [S7x192x192, S1x192x192] S8x192x192 0
  slices_S8x192x192_o0_1_0_S8x191x192 : S8x192x192.Slices ![0, 1, 0] S8x191x192
  concatenates_S8x191x192_S8x1x192_S8x192x192_d1 : Shape.Concatenates [S8x191x192, S8x1x192] S8x192x192 1
  slices_S8x192x192_o0_0_0_S8x191x192 : S8x192x192.Slices ![0, 0, 0] S8x191x192
  concatenates_S8x1x192_S8x191x192_S8x192x192_d1 : Shape.Concatenates [S8x1x192, S8x191x192] S8x192x192 1
  slices_S8x192x192_o0_0_1_S8x192x191 : S8x192x192.Slices ![0, 0, 1] S8x192x191
  concatenates_S8x192x191_S8x192x1_S8x192x192_d2 : Shape.Concatenates [S8x192x191, S8x192x1] S8x192x192 2
  slices_S8x192x192_o0_0_0_S8x192x191 : S8x192x192.Slices ![0, 0, 0] S8x192x191
  concatenates_S8x192x1_S8x192x191_S8x192x192_d2 : Shape.Concatenates [S8x192x1, S8x192x191] S8x192x192 2
  reduces_S8x192x192_S8x192 : S8x192x192.Reduces [2] S8x192
  shapeCasts_S8x192_S8x192x1 : S8x192.ShapeCasts S8x192x1
  reduces_S8x192x1_S8x1 : S8x192x1.Reduces [1] S8x1
  shapeCasts_S8x1_S8x1x1 : S8x1.ShapeCasts S8x1x1
  reduces_S8x1x1_S1x1 : S8x1x1.Reduces [0] S1x1
  shapeCasts_S1x1_S1x1x1 : S1x1.ShapeCasts S1x1x1
  shapeCasts_S1x1_S1x1 : S1x1.ShapeCasts S1x1
  shapeCasts_S1x1x1_S1x1 : S1x1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x8x192x192.size a ≤ S2x1x192x192x192.size a
  hwx0_0 : ∀ i : grid0.Coords, EltTy.bits .f32 = 32 ∨ (Rect.block (s := S2x1x192x192x192) S1x1x8x192x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x192x192.size a ≤ S2x1x192x192x192.size a
  hwx0_1 : ∀ i : grid0.Coords, EltTy.bits .f32 = 32 ∨ (Rect.block (s := S2x1x192x192x192) S1x1x1x192x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x192x192.size a ≤ S2x1x192x192x192.size a
  hwx0_2 : ∀ i : grid0.Coords, EltTy.bits .f32 = 32 ∨ (Rect.block (s := S2x1x192x192x192) S1x1x1x192x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8x192x192.size a ≤ S2x1x192x192x192.size a
  hwx0_3 : ∀ i : grid0.Coords, EltTy.bits .f32 = 32 ∨ (Rect.block (s := S2x1x192x192x192) S1x1x8x192x192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x8x192x192.size a ≤ S2x1x192x192x192.size a
  hwx0_4 : ∀ i : grid0.Coords, EltTy.bits .f32 = 32 ∨ (Rect.block (s := S2x1x192x192x192) S1x1x8x192x192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x8x192x192.size a ≤ S2x1x192x192x192.size a
  hwx0_5 : ∀ i : grid0.Coords, EltTy.bits .f32 = 32 ∨ (Rect.block (s := S2x1x192x192x192) S1x1x8x192x192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x8x192x192.size a ≤ S2x1x192x192x192.size a
  hwx0_6 : ∀ i : grid0.Coords, EltTy.bits .f32 = 32 ∨ (Rect.block (s := S2x1x192x192x192) S1x1x8x192x192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x8x192x192.size a ≤ S2x1x192x192x192.size a
  hwx0_7 : ∀ i : grid0.Coords, EltTy.bits .f32 = 32 ∨ (Rect.block (s := S2x1x192x192x192) S1x1x8x192x192.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)

variable [Facts₀]

abbrev win0_0 : Pipeline.Window sig grid0 :=
  Pipeline.Window.ofSpec (Memref.whole main_arg0) S1x1x8x192x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1x1x192x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1x1x192x192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1x8x192x192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x1x8x192x192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1x1x8x192x192.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1x1x8x192x192.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S1x1x8x192x192.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S1x1.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S1x1.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S2x1x192x192x192 : Shape := ⟨5, ![2, 1, 192, 192, 192]⟩
abbrev S_ : Shape := ⟨0, ![]⟩
abbrev S2x1x194x194x194 : Shape := ⟨5, ![2, 1, 194, 194, 194]⟩

abbrev nBuf : Space → Nat
  | .hbm => 76
  | .vmem => 0
  | .smem => 0
  | _ => 0

abbrev bufTy : (tb : Table) → Fin (tcTables nBuf tb) → BufTy
  | .hbm, ⟨0, _⟩ => ⟨S2x1x192x192x192, .f32⟩
  | .hbm, ⟨1, _⟩ => ⟨S2x1x192x192x192, .f32⟩
  | .hbm, ⟨2, _⟩ => ⟨S2x1x192x192x192, .f32⟩
  | .hbm, ⟨3, _⟩ => ⟨S2x1x192x192x192, .f32⟩
  | .hbm, ⟨4, _⟩ => ⟨S2x1x192x192x192, .f32⟩
  | .hbm, ⟨5, _⟩ => ⟨S2x1x192x192x192, .f32⟩
  | .hbm, ⟨6, _⟩ => ⟨S2x1x192x192x192, .f32⟩
  | .hbm, ⟨7, _⟩ => ⟨S2x1x192x192x192, .f32⟩
  | .hbm, ⟨8, _⟩ => ⟨S_, .f32⟩
  | .hbm, ⟨9, _⟩ => ⟨S2x1x192x192x192, .f32⟩
  | .hbm, ⟨10, _⟩ => ⟨S2x1x192x192x192, .f32⟩
  | .hbm, ⟨11, _⟩ => ⟨S_, .f32⟩
  | .hbm, ⟨12, _⟩ => ⟨S2x1x192x192x192, .f32⟩
  | .hbm, ⟨13, _⟩ => ⟨S2x1x192x192x192, .f32⟩
  | .hbm, ⟨14, _⟩ => ⟨S_, .f32⟩
  | .hbm, ⟨15, _⟩ => ⟨S2x1x192x192x192, .f32⟩
  | .hbm, ⟨16, _⟩ => ⟨S2x1x192x192x192, .f32⟩
  | .hbm, ⟨17, _⟩ => ⟨S_, .f32⟩
  | .hbm, ⟨18, _⟩ => ⟨S2x1x192x192x192, .f32⟩
  | .hbm, ⟨19, _⟩ => ⟨S2x1x192x192x192, .f32⟩
  | .hbm, ⟨20, _⟩ => ⟨S2x1x192x192x192, .f32⟩
  | .hbm, ⟨21, _⟩ => ⟨S2x1x192x192x192, .f32⟩
  | .hbm, ⟨22, _⟩ => ⟨S_, .f32⟩
  | .hbm, ⟨23, _⟩ => ⟨S2x1x192x192x192, .f32⟩
  | .hbm, ⟨24, _⟩ => ⟨S2x1x192x192x192, .f32⟩
  | .hbm, ⟨25, _⟩ => ⟨S_, .f32⟩
  | .hbm, ⟨26, _⟩ => ⟨S2x1x192x192x192, .f32⟩
  | .hbm, ⟨27, _⟩ => ⟨S2x1x192x192x192, .f32⟩
  | .hbm, ⟨28, _⟩ => ⟨S_, .f32⟩
  | .hbm, ⟨29, _⟩ => ⟨S2x1x192x192x192, .f32⟩
  | .hbm, ⟨30, _⟩ => ⟨S2x1x192x192x192, .f32⟩
  | .hbm, ⟨31, _⟩ => ⟨S_, .f32⟩
  | .hbm, ⟨32, _⟩ => ⟨S2x1x192x192x192, .f32⟩
  | .hbm, ⟨33, _⟩ => ⟨S2x1x192x192x192, .f32⟩
  | .hbm, ⟨34, _⟩ => ⟨S2x1x192x192x192, .f32⟩
  | .hbm, ⟨35, _⟩ => ⟨S2x1x192x192x192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .i32⟩
  | .hbm, ⟨41, _⟩ => ⟨S_, .f32⟩
  | .hbm, ⟨42, _⟩ => ⟨S2x1x194x194x194, .f32⟩
  | .hbm, ⟨43, _⟩ => ⟨S2x1x192x192x192, .f32⟩
  | .hbm, ⟨44, _⟩ => ⟨S2x1x192x192x192, .f32⟩
  | .hbm, ⟨45, _⟩ => ⟨S2x1x192x192x192, .f32⟩
  | .hbm, ⟨46, _⟩ => ⟨S2x1x192x192x192, .f32⟩
  | .hbm, ⟨47, _⟩ => ⟨S2x1x192x192x192, .f32⟩
  | .hbm, ⟨48, _⟩ => ⟨S2x1x192x192x192, .f32⟩
  | .hbm, ⟨49, _⟩ => ⟨S2x1x192x192x192, .f32⟩
  | .hbm, ⟨50, _⟩ => ⟨S2x1x192x192x192, .f32⟩
  | .hbm, ⟨51, _⟩ => ⟨S2x1x192x192x192, .f32⟩
  | .hbm, ⟨52, _⟩ => ⟨S2x1x192x192x192, .f32⟩
  | .hbm, ⟨53, _⟩ => ⟨S2x1x192x192x192, .f32⟩
  | .hbm, ⟨54, _⟩ => ⟨S_, .f32⟩
  | .hbm, ⟨55, _⟩ => ⟨S2x1x192x192x192, .f32⟩
  | .hbm, ⟨56, _⟩ => ⟨S2x1x192x192x192, .f32⟩
  | .hbm, ⟨57, _⟩ => ⟨S2x1x192x192x192, .f32⟩
  | .hbm, ⟨58, _⟩ => ⟨S2x1x192x192x192, .f32⟩
  | .hbm, ⟨59, _⟩ => ⟨S2x1x192x192x192, .f32⟩
  | .hbm, ⟨60, _⟩ => ⟨S2x1x192x192x192, .f32⟩
  | .hbm, ⟨61, _⟩ => ⟨S_, .f32⟩
  | .hbm, ⟨62, _⟩ => ⟨S2x1x192x192x192, .f32⟩
  | .hbm, ⟨63, _⟩ => ⟨S2x1x192x192x192, .f32⟩
  | .hbm, ⟨64, _⟩ => ⟨S2x1x192x192x192, .f32⟩
  | .hbm, ⟨65, _⟩ => ⟨S2x1x192x192x192, .f32⟩
  | .hbm, ⟨66, _⟩ => ⟨S2x1x192x192x192, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S2x1x192x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_c : Ref sig .tc := ⟨.hbm, 40, rfl⟩
abbrev main_call0_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_cst_14 : Ref sig .tc := ⟨.hbm, 73, rfl⟩
abbrev main_v50 : Ref sig .tc := ⟨.hbm, 74, rfl⟩
abbrev main_v51 : Ref sig .tc := ⟨.hbm, 75, rfl⟩

abbrev nD : Nat := 1
abbrev τ : Topo := Topo.v7x

variable {F : FTy → Type} [FloatOps F]

class Facts₀ : Prop where
  bcast_S_S2x1x192x192x192 : S_.BroadcastsInDim S2x1x192x192x192 (![] : Fin 0 → Fin S2x1x192x192x192.rank)
  reducesTo_S2x1x192x192x192_S_d0_1_2_3_4 : S2x1x192x192x192.ReducesTo [0, 1, 2, 3, 4] S_
  h_S_ : 0 < S_.numel
  pads_S2x1x192x192x192_S2x1x194x194x194_000_000_110_110_110 : S2x1x192x192x192.Pads (![0, 0, 1, 1, 1] : Fin 5 → Nat) ![0, 0, 1, 1, 1] ![0, 0, 0, 0, 0] S2x1x194x194x194
  slices_S2x1x194x194x194_S2x1x192x192x192_0_0_2_1_1 : S2x1x194x194x194.Slices ![0, 0, 2, 1, 1] S2x1x192x192x192
  slices_S2x1x194x194x194_S2x1x192x192x192_0_0_0_1_1 : S2x1x194x194x194.Slices ![0, 0, 0, 1, 1] S2x1x192x192x192
  slices_S2x1x194x194x194_S2x1x192x192x192_0_0_1_2_1 : S2x1x194x194x194.Slices ![0, 0, 1, 2, 1] S2x1x192x192x192
  slices_S2x1x194x194x194_S2x1x192x192x192_0_0_1_0_1 : S2x1x194x194x194.Slices ![0, 0, 1, 0, 1] S2x1x192x192x192
  slices_S2x1x194x194x194_S2x1x192x192x192_0_0_1_1_2 : S2x1x194x194x194.Slices ![0, 0, 1, 1, 2] S2x1x192x192x192
  slices_S2x1x194x194x194_S2x1x192x192x192_0_0_1_1_0 : S2x1x194x194x194.Slices ![0, 0, 1, 1, 0] S2x1x192x192x192

variable [Facts₀]

class Facts : Prop extends Facts₀ where

variable [Facts]
-- ==== Proof.Kernel.Shared.lean ====
/-
  What the two runs of the kernel body share: the arrays as the region finds them, each window's block at a
  grid point, the condition of the body's one branch decided over the grid, and the staging buffers the
  pipeline hands the body at a point.

  The grid is 2 x 24 = 48 points; point t is batch t / 24, depth tile t % 24. The branch (reset both running
  sums) is taken at point 0 only.
-/
import proofs.«151788_j37855841747580_1_alg».proof.Proof.Gen.Kernel.Launch
import proofs.«151788_j37855841747580_1_alg».proof.Proof.Gen.Kernel.Skeleton
import proofs.«151788_j37855841747580_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (the region is the first thing the program runs). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The condition of the body's branch, from the grid coordinates: batch 0 and depth tile 0. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 48 = 0 :=
  (by decide +kernel : ∀ t : Fin grid0.N, cond0_0 (grid0.coords t) ↔ t.val % 48 = 0)

/-- One staging buffer of each output window, through which its contents are stated. -/
abbrev VO0_8 : View sig .tc .vmem S1x1 .f32 := (Memref.whole cc0_stg8_0 : Memref sig .tc .vmem S1x1 .f32).view
abbrev VO0_9 : View sig .tc .vmem S1x1 .f32 := (Memref.whole cc0_stg9_0 : Memref sig .tc .vmem S1x1 .f32).view
/-- Each window's current staging memref at point `t`, as the pipeline passes it, and its wholeness. -/
abbrev ms0_0 (t : Fin cfg0.N) : Memref sig .tc .vmem S1x1x8x192x192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1x192x192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1x192x192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8x192x192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x8x192x192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x8x192x192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x8x192x192 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x8x192x192 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1 .f32 := win0_9.stage (cfg0.slots t 9)
abbrev hs0_9 (t : Fin cfg0.N) : (ms0_9 t).IsWhole := hstage0_9 ((cfg0.slots t 9).cast nbuf0_9)

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.Kernel.RunA.lean ====
/-
  The kernel body run once, symbolically, at the first grid point (the branch taken: both running sums are reset, then added to):
  from the ten staging buffers at their contents to the same buffers, the eight inputs unchanged and each of the
  two one-cell outputs overwritten by the stores the body makes, kept as a list of pieces (last store first).
-/
import proofs.«151788_j37855841747580_1_alg».proof.Proof.Kernel.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the two output buffers, with the proof that the body runs to a continuation
    holding the inputs as they were and each output with those stores written. -/
noncomputable def kernelRun0_A (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : cond0_0 i)
    (x0 : Vec F S1x1x8x192x192 .f32) (x1 x2 : Vec F S1x1x1x192x192 .f32) (x3 x4 x5 x6 x7 : Vec F S1x1x8x192x192 .f32) :
    Σ' (L8 : List (View.Piece (Elt F) S1x1 .f32)) (L9 : List (View.Piece (Elt F) S1x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__pinn_kernel i arg2 harg2 arg3 harg3 arg4 harg4 arg5 harg5 arg6 harg6 arg7 harg7 arg8 harg8 arg9 harg9 arg10 harg10 arg11 harg11) K := by
  refine ⟨?_, ?_, fun E K => ?run⟩
  case run =>
    simp only [cc0__pinn_kernel_eq_skeleton]; unfold cc0__pinn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact H9

end Cert.Kernel.Hand

end
-- ==== Proof.Kernel.RunB.lean ====
/-
  The kernel body run once, symbolically, at a later grid point (the branch not taken: both running sums are read and added to):
  from the ten staging buffers at their contents to the same buffers, the eight inputs unchanged and each of the
  two one-cell outputs overwritten by the stores the body makes, kept as a list of pieces (last store first).
-/
import proofs.«151788_j37855841747580_1_alg».proof.Proof.Kernel.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the two output buffers, with the proof that the body runs to a continuation
    holding the inputs as they were and each output with those stores written. -/
noncomputable def kernelRun0_B (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : ¬cond0_0 i)
    (x0 : Vec F S1x1x8x192x192 .f32) (x1 x2 : Vec F S1x1x1x192x192 .f32) (x3 x4 x5 x6 x7 : Vec F S1x1x8x192x192 .f32) (xo8 xo9 : Vec F S1x1 .f32) :
    Σ' (L8 : List (View.Piece (Elt F) S1x1 .f32)) (L9 : List (View.Piece (Elt F) S1x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xo9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__pinn_kernel i arg2 harg2 arg3 harg3 arg4 harg4 arg5 harg5 arg6 harg6 arg7 harg7 arg8 harg8 arg9 harg9 arg10 harg10 arg11 harg11) K := by
  refine ⟨?_, ?_, fun E K => ?run⟩
  case run =>
    simp only [cc0__pinn_kernel_eq_skeleton]; unfold cc0__pinn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact H9

end Cert.Kernel.Hand

end
-- ==== Proof.Kernel.Data.lean ====
/-
  The proof data of the one pipelined region and the body obligation at every grid point.

  The two outputs are one-cell running sums whose staging buffers are written back only after the last point:
  what each holds after point n is defined by recursion on n (point 0 resets and adds, every later point adds to
  what the point before left). Three of the input windows name one array; each holds a share of it.
-/
import proofs.«151788_j37855841747580_1_alg».proof.Proof.Kernel.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves in the two outputs -/
/-- The stores of run A into output 8 cover its one cell. -/
theorem cover0_A_8 (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : cond0_0 i)
    (x0 : Vec F S1x1x8x192x192 .f32) (x1 x2 : Vec F S1x1x1x192x192 .f32) (x3 x4 x5 x6 x7 : Vec F S1x1x8x192x192 .f32) (y : S1x1.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6 x7).1 S1x1.size (by sl_kernel_rfl) y

/-- What run A leaves in output 8's staging buffer: its stores read back. -/
def out0_A_8 (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : cond0_0 i)
    (x0 : Vec F S1x1x8x192x192 .f32) (x1 x2 : Vec F S1x1x1x192x192 .f32) (x3 x4 x5 x6 x7 : Vec F S1x1x8x192x192 .f32) : Vec F S1x1 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3 x4 x5 x6 x7).1)

/-- The stores of run A into output 9 cover its one cell. -/
theorem cover0_A_9 (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : cond0_0 i)
    (x0 : Vec F S1x1x8x192x192 .f32) (x1 x2 : Vec F S1x1x1x192x192 .f32) (x3 x4 x5 x6 x7 : Vec F S1x1x8x192x192 .f32) (y : S1x1.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6 x7).2.1 S1x1.size (by sl_kernel_rfl) y

/-- What run A leaves in output 9's staging buffer: its stores read back. -/
def out0_A_9 (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : cond0_0 i)
    (x0 : Vec F S1x1x8x192x192 .f32) (x1 x2 : Vec F S1x1x1x192x192 .f32) (x3 x4 x5 x6 x7 : Vec F S1x1x8x192x192 .f32) : Vec F S1x1 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 hc0 x0 x1 x2 x3 x4 x5 x6 x7).2.1)

/-- The stores of run B into output 8 cover its one cell. -/
theorem cover0_B_8 (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : ¬cond0_0 i)
    (x0 : Vec F S1x1x8x192x192 .f32) (x1 x2 : Vec F S1x1x1x192x192 .f32) (x3 x4 x5 x6 x7 : Vec F S1x1x8x192x192 .f32) (xo8 xo9 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).1 S1x1.size (by sl_kernel_rfl) y

/-- What run B leaves in output 8's staging buffer: its stores read back. -/
def out0_B_8 (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : ¬cond0_0 i)
    (x0 : Vec F S1x1x8x192x192 .f32) (x1 x2 : Vec F S1x1x1x192x192 .f32) (x3 x4 x5 x6 x7 : Vec F S1x1x8x192x192 .f32) (xo8 xo9 : Vec F S1x1 .f32) : Vec F S1x1 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).1)

/-- The stores of run B into output 9 cover its one cell. -/
theorem cover0_B_9 (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : ¬cond0_0 i)
    (x0 : Vec F S1x1x8x192x192 .f32) (x1 x2 : Vec F S1x1x1x192x192 .f32) (x3 x4 x5 x6 x7 : Vec F S1x1x8x192x192 .f32) (xo8 xo9 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).2.1 S1x1.size (by sl_kernel_rfl) y

/-- What run B leaves in output 9's staging buffer: its stores read back. -/
def out0_B_9 (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : ¬cond0_0 i)
    (x0 : Vec F S1x1x8x192x192 .f32) (x1 x2 : Vec F S1x1x1x192x192 .f32) (x3 x4 x5 x6 x7 : Vec F S1x1x8x192x192 .f32) (xo8 xo9 : Vec F S1x1 .f32) : Vec F S1x1 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).2.1)

/-! ## The running sums, point by point -/

theorem N48 : cfg0.N = 48 := N_0

/-- The branch is not taken after the first point. -/
theorem not_cond_of_ne (t : Fin cfg0.N) (h : t.val ≠ 0) : ¬ cond0_0 (grid0.coords t) := fun hc => by
  have h1 := (hcond0_0 t).mp hc
  have h2 : t.val < 48 := lt_of_lt_of_eq t.isLt N48
  omega

/-- What the two outputs' staging buffers hold after the body at position `n`. -/
def outsAt0 (c : Dev nD) : (n : ℕ) → n < cfg0.N → Vec F S1x1 .f32 × Vec F S1x1 .f32
  | 0, hn =>
    (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
     out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (not_cond_of_ne ⟨n + 1, hn⟩ (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2,
     out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (not_cond_of_ne ⟨n + 1, hn⟩ (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2)

theorem outsAt0_zero (c : Dev nD) (t : Fin cfg0.N) (h0 : t.val = 0) :
    outsAt0 m c t.val t.isLt =
      (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr (by rw [h0])) (iblk m c 0 t) (iblk m c 1 t) (iblk m c 2 t) (iblk m c 3 t) (iblk m c 4 t) (iblk m c 5 t) (iblk m c 6 t) (iblk m c 7 t),
       out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr (by rw [h0])) (iblk m c 0 t) (iblk m c 1 t) (iblk m c 2 t) (iblk m c 3 t) (iblk m c 4 t) (iblk m c 5 t) (iblk m c 6 t) (iblk m c 7 t)) := by
  obtain ⟨n, hn⟩ := t
  cases n with
  | zero => rfl
  | succ n => exact absurd h0 (Nat.succ_ne_zero n)

theorem outsAt0_succ (c : Dev nD) (t : Fin cfg0.N) (h0 : t.val ≠ 0) :
    outsAt0 m c t.val t.isLt =
      (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (not_cond_of_ne t h0) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2,
       out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (not_cond_of_ne t h0) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact absurd rfl h0
  | succ n => rfl

/-! ## The pipeline's proof data -/

/-- The proof data on core `c`: the arrays as the region finds them; after the body at point `t` each input's
    buffer at its block and the outputs' at the running sums; the invariant the scoped buffers no window stages;
    nothing owed; the first array's share cut into three for the three windows that name it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- After the first point output 8's staging buffer holds what the body left at the point before: it is not
    written back in between. -/
theorem before0_8_B (c : Dev nD) (t : Fin cfg0.N) (h0 : t.val ≠ 0) (d) :
    (dats m 0 c).before 8 t d = (outsAt0 m c (t.val - 1) (Nat.lt_of_le_of_lt (Nat.sub_le _ _) t.isLt)).1 := by
  have hN : t.val < 48 := lt_of_lt_of_eq t.isLt N48
  rw [Dat.before_out_kept _ 8 rfl t h0 (Bool.eq_false_iff.mpr fun h => by have := (flush0_8 _).mp h; dsimp only at this; omega)
    (fun _ => rfl) (fun _ _ => rfl)]
  dsimp only [dats]
/-- After the first point output 9's staging buffer holds what the body left at the point before: it is not
    written back in between. -/
theorem before0_9_B (c : Dev nD) (t : Fin cfg0.N) (h0 : t.val ≠ 0) (d) :
    (dats m 0 c).before 9 t d = (outsAt0 m c (t.val - 1) (Nat.lt_of_le_of_lt (Nat.sub_le _ _) t.isLt)).2 := by
  have hN : t.val < 48 := lt_of_lt_of_eq t.isLt N48
  rw [Dat.before_out_kept _ 9 rfl t h0 (Bool.eq_false_iff.mpr fun h => by have := (flush0_9 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  by_cases h0 : t.val = 0
  · rw [outsAt0_zero m c t h0]
    dsimp only
    unfold out0_A_8 out0_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ ((hcond0_0 t).mpr (by rw [h0])) (iblk m c 0 t) (iblk m c 1 t) (iblk m c 2 t) (iblk m c 3 t) (iblk m c 4 t) (iblk m c 5 t) (iblk m c 6 t) (iblk m c 7 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _)
  · rw [outsAt0_succ m c t h0]
    dsimp only
    simp only [before0_8_B m c t h0, before0_9_B m c t h0]
    unfold out0_B_8 out0_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ (not_cond_of_ne t h0) (iblk m c 0 t) (iblk m c 1 t) (iblk m c 2 t) (iblk m c 3 t) (iblk m c 4 t) (iblk m c 5 t) (iblk m c 6 t) (iblk m c 7 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _)
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.Kernel.Launch.lean ====
/-
  The launch: the program is one pipelined region followed by eleven scalar host operations.

  Three input windows name the first argument array, so at the region's entry its buffer, held whole, is cut
  into three shares, one per window; every other window's array is held whole. After the region the two
  one-cell results are held whole again and the host operations run over them and over the buffers that bypass
  the region. Every weakly fair execution terminates; at the end every window's array holds what the
  proof data determine, and every other unscoped buffer what the host operations leave.
-/
import proofs.«151788_j37855841747580_1_alg».proof.Proof.Kernel.Data
import Idealize.ShloMosaic.Lib.Pipeline.Launch
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 1) → (pcfgs (F := F) p).Adm := fun p => (cfgs p).toPCfg_adm

/-- The program after the region: the eleven host operations. -/
abbrev tailK : PUnit.{1} → Prog (TpuEff nD τ sig (Elt F) (Pipeline.Sig Λ₀ (Fin 1) fun p => (pcfgs (F := F) p).Adm) .tc) PUnit :=
  fun _ => Pipeline.chain [StableHlo.seq hostOps1]

theorem main_eq (c : Dev nD) : main (F := F) c = .op (.customCall (Pipeline.entry 0) ()) tailK := (main_chain c).trans rfl

/-! ## The shares -/

theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl
theorem share_8 (c : Dev nD) : (dats m 0 c).share 8 = fullShare := rfl
theorem share_9 (c : Dev nD) : (dats m 0 c).share 9 = fullShare := rfl

/-- The windows' arrays, each a whole buffer, as plain points-tos at the windows' shares. -/
theorem arrays_pts (c : Dev nD) (Fv : (w : Fin cfg0.W) → Buf (Elt F) ((cfg0.win w).arr.view.loc (c.tc : Thread nD τ))) :
    ((dats m 0 c).arrays Fv : sProp 𝕄)
      = bigSep Finset.univ fun w : Fin 10 => (((c.tc : Thread nD τ).loc (Pipeline.arrRef spec0 w)) ↦{(dats m 0 c).share w} Fv w : sProp 𝕄) := by
  unfold Dat.arrays
  exact bigSep_congr fun w _ => by rw [(arr_whole0 w).set_eq_univ]

/-- The distinct buffers behind the windows. -/
theorem arrRefs_eq : Finset.univ.image (Pipeline.arrRef spec0)
    = ([main_arg0, main_arg1, main_arg2, main_arg3, main_arg4, main_arg5, main_v0_0, main_v0_1] : List (Ref sig .tc)).toFinset := by decide

/-- Over them an iterated conjunction is a chain. -/
theorem arrBufs_chain (Ψ : Ref sig .tc → sProp 𝕄) :
    bigSep (Finset.univ.image (Pipeline.arrRef spec0)) Ψ
      = iprop(Ψ main_arg0 ∗ Ψ main_arg1 ∗ Ψ main_arg2 ∗ Ψ main_arg3 ∗ Ψ main_arg4 ∗ Ψ main_arg5 ∗ Ψ main_v0_0 ∗ Ψ main_v0_1) :=
  bigSep_eq_bigSepL_of_eq [main_arg0, main_arg1, main_arg2, main_arg3, main_arg4, main_arg5, main_v0_0, main_v0_1] arrRefs_eq (by decide) Ψ

/-- ENTRY: the buffers behind the windows, each whole at the full share, make the windows' arrays at their shares:
    the first argument's buffer is cut into three. -/
theorem hsplit (c : Dev nD) :
    (Pipeline.arrBufs spec0 c (V m c) : sProp 𝕄) ⊢ (dats m 0 c).arrays ((dats m 0 c).arrAt · 0) := by
  rw [arrays_pts]
  unfold Pipeline.arrBufs
  rw [arrBufs_chain, bigSep_W0]
  rw [share_0, share_1, share_2, share_3, share_4, share_5, share_6, share_7, share_8, share_9]
  iintro ⟨H0, H1, H2, H3, H4, H5, H6, H7⟩
  ihave H0 := (pointsTo_share (PosShare.mem_left_op_right fullShare)).1 $$ H0
  icases H0 with ⟨H0a, H0r⟩
  ihave H0r := (pointsTo_share (PosShare.mem_left_op_right fullShare.right)).1 $$ H0r
  icases H0r with ⟨H0b, H0c⟩
  isplitl [H0a]; · iexact H0a
  isplitl [H0b]; · iexact H0b
  isplitl [H0c]; · iexact H0c
  isplitl [H1]; · iexact H1
  isplitl [H2]; · iexact H2
  isplitl [H3]; · iexact H3
  isplitl [H4]; · iexact H4
  isplitl [H5]; · iexact H5
  isplitl [H6]; · iexact H6
  iexact H7

/-! ## After the region -/

/-- The buffers the host operations after the region touch: the two results of the region and the eleven scalars. -/
def tailList : List (Ref sig .tc) := [main_v0_0, main_v0_1, main_v1, main_cst, main_v2, main_v3, main_cst_0, main_v4, main_cst_1, main_v5, main_cst_2, main_v6, main_v7]
def tailRefs : Finset (DevRef τ sig) := (tailList.map (Proc.devRef (τ := τ) .tc)).toFinset

/-- Core `c`'s buffer contents when the region is left: the two results at what the pipeline wrote back, every
    other buffer as launched. -/
def Vexit (c : Dev nD) : Valuation τ sig (Elt F) :=
  Function.update (Function.update (fun b => m (c, b)) (Proc.devRef .tc main_v0_0) ((dats m 0 c).arrAt 8 cfg0.N))
    (Proc.devRef .tc main_v0_1) ((dats m 0 c).arrAt 9 cfg0.N)

/-- and at the program's end: the host operations have run. -/
def Vend (c : Dev nD) : Valuation τ sig (Elt F) := StableHlo.after hostOps1 (Vexit m c)

theorem Vexit_v00 (c : Dev nD) : Vexit m c (Proc.devRef .tc main_v0_0) = (dats m 0 c).arrAt 8 cfg0.N := by
  unfold Vexit
  rw [Function.update_of_ne (StableHlo.devRef_ne_of_ne (by decide)), Function.update_self]
theorem Vexit_v01 (c : Dev nD) : Vexit m c (Proc.devRef .tc main_v0_1) = (dats m 0 c).arrAt 9 cfg0.N := by
  unfold Vexit
  rw [Function.update_self]
theorem Vexit_rest (c : Dev nD) (b : Ref sig .tc) (h0 : b ≠ main_v0_0) (h1 : b ≠ main_v0_1) :
    Vexit m c (Proc.devRef .tc b) = V m c b := by
  unfold Vexit
  rw [Function.update_of_ne (StableHlo.devRef_ne_of_ne h1), Function.update_of_ne (StableHlo.devRef_ne_of_ne h0)]

/-- No host operation writes a buffer other than the eleven scalars. -/
theorem not_written (b : Ref sig .tc) (hb : b ≠ main_v1 ∧ b ≠ main_cst ∧ b ≠ main_v2 ∧ b ≠ main_v3 ∧ b ≠ main_cst_0 ∧ b ≠ main_v4 ∧ b ≠ main_cst_1 ∧ b ≠ main_v5 ∧ b ≠ main_cst_2 ∧ b ≠ main_v6 ∧ b ≠ main_v7) :
    ∀ op ∈ (hostOps1 (F := F)), Proc.devRef .tc b ∉ op.writes := by
  obtain ⟨h0, h1, h2, h3, h4, h5, h6, h7, h8, h9, h10⟩ := hb
  intro op hop
  simp only [List.mem_cons, List.mem_nil_iff, or_false] at hop
  rcases hop with rfl | rfl | rfl | rfl | rfl | rfl | rfl | rfl | rfl | rfl | rfl <;>
    simp only [StableHlo.reshape_writes, StableHlo.binary_writes, StableHlo.nullary_writes, Finset.mem_singleton] <;>
    exact StableHlo.devRef_ne_of_ne ‹_›

theorem Vend_v00 (c : Dev nD) : StableHlo.after hostOps1 (Vexit m c) (Proc.devRef .tc main_v0_0) = (dats m 0 c).arrAt 8 cfg0.N := by
  rw [StableHlo.after_of_forall_not_mem (b := Proc.devRef .tc main_v0_0) hostOps1 (Vexit m c) (not_written main_v0_0 (by decide)), Vexit_v00]
theorem Vend_v01 (c : Dev nD) : StableHlo.after hostOps1 (Vexit m c) (Proc.devRef .tc main_v0_1) = (dats m 0 c).arrAt 9 cfg0.N := by
  rw [StableHlo.after_of_forall_not_mem (b := Proc.devRef .tc main_v0_1) hostOps1 (Vexit m c) (not_written main_v0_1 (by decide)), Vexit_v01]

theorem hsub : ∀ op ∈ (hostOps1 (F := F)), op.bufs ⊆ tailRefs := by
  intro op hop
  simp only [List.mem_cons, List.mem_nil_iff, or_false] at hop
  rcases hop with rfl | rfl | rfl | rfl | rfl | rfl | rfl | rfl | rfl | rfl | rfl <;>
    (first | rw [StableHlo.reshape_bufs] | rw [StableHlo.nullary_bufs] | rw [StableHlo.binary_bufs]) <;> decide

theorem hfresh : ∀ op ∈ (hostOps1 (F := F)), op.fresh = ∅ := by
  intro _ h; (repeat (cases h with | head => rfl | tail _ h => ?_)); exact nomatch h

/-- Those buffers held at a valuation, one by one. -/
theorem held_chain (c : Dev nD) (W : Valuation τ sig (Elt F)) :
    (StableHlo.held (c.tc : Thread nD τ) tailRefs W : sProp 𝕄)
      = iprop((((c.tc : Thread nD τ).loc main_v0_0) ↦{fullShare} W (Proc.devRef .tc main_v0_0))
        ∗ (((c.tc : Thread nD τ).loc main_v0_1) ↦{fullShare} W (Proc.devRef .tc main_v0_1))
        ∗ (((c.tc : Thread nD τ).loc main_v1) ↦{fullShare} W (Proc.devRef .tc main_v1))
        ∗ (((c.tc : Thread nD τ).loc main_cst) ↦{fullShare} W (Proc.devRef .tc main_cst))
        ∗ (((c.tc : Thread nD τ).loc main_v2) ↦{fullShare} W (Proc.devRef .tc main_v2))
        ∗ (((c.tc : Thread nD τ).loc main_v3) ↦{fullShare} W (Proc.devRef .tc main_v3))
        ∗ (((c.tc : Thread nD τ).loc main_cst_0) ↦{fullShare} W (Proc.devRef .tc main_cst_0))
        ∗ (((c.tc : Thread nD τ).loc main_v4) ↦{fullShare} W (Proc.devRef .tc main_v4))
        ∗ (((c.tc : Thread nD τ).loc main_cst_1) ↦{fullShare} W (Proc.devRef .tc main_cst_1))
        ∗ (((c.tc : Thread nD τ).loc main_v5) ↦{fullShare} W (Proc.devRef .tc main_v5))
        ∗ (((c.tc : Thread nD τ).loc main_cst_2) ↦{fullShare} W (Proc.devRef .tc main_cst_2))
        ∗ (((c.tc : Thread nD τ).loc main_v6) ↦{fullShare} W (Proc.devRef .tc main_v6))
        ∗ (((c.tc : Thread nD τ).loc main_v7) ↦{fullShare} W (Proc.devRef .tc main_v7))) := by
  unfold StableHlo.held tailRefs
  exact bigSep_eq_bigSepL_of_eq (tailList.map (Proc.devRef (τ := τ) .tc)) rfl (by decide) _

set_option maxHeartbeats 1600000 in
/-- The host operations run from the exit contents of the buffers they touch to their values. -/
theorem tail_run (c : Dev nD) (Q' : PUnit → sProp 𝕄) :
    iprop(boundary (c.tc : Thread nD τ) ∗ (iprop((((c.tc : Thread nD τ).loc main_v0_0) ↦{fullShare} (dats m 0 c).arrAt 8 cfg0.N)
        ∗ (((c.tc : Thread nD τ).loc main_v0_1) ↦{fullShare} (dats m 0 c).arrAt 9 cfg0.N)
        ∗ (((c.tc : Thread nD τ).loc main_v1) ↦{fullShare} V m c main_v1)
        ∗ (((c.tc : Thread nD τ).loc main_cst) ↦{fullShare} V m c main_cst)
        ∗ (((c.tc : Thread nD τ).loc main_v2) ↦{fullShare} V m c main_v2)
        ∗ (((c.tc : Thread nD τ).loc main_v3) ↦{fullShare} V m c main_v3)
        ∗ (((c.tc : Thread nD τ).loc main_cst_0) ↦{fullShare} V m c main_cst_0)
        ∗ (((c.tc : Thread nD τ).loc main_v4) ↦{fullShare} V m c main_v4)
        ∗ (((c.tc : Thread nD τ).loc main_cst_1) ↦{fullShare} V m c main_cst_1)
        ∗ (((c.tc : Thread nD τ).loc main_v5) ↦{fullShare} V m c main_v5)
        ∗ (((c.tc : Thread nD τ).loc main_cst_2) ↦{fullShare} V m c main_cst_2)
        ∗ (((c.tc : Thread nD τ).loc main_v6) ↦{fullShare} V m c main_v6)
        ∗ (((c.tc : Thread nD τ).loc main_v7) ↦{fullShare} V m c main_v7)) : sProp 𝕄))
      ⊢ iprop(((boundary (c.tc : Thread nD τ) ∗ (iprop((((c.tc : Thread nD τ).loc main_v0_0) ↦{fullShare} (dats m 0 c).arrAt 8 cfg0.N)
        ∗ (((c.tc : Thread nD τ).loc main_v0_1) ↦{fullShare} (dats m 0 c).arrAt 9 cfg0.N)
        ∗ (((c.tc : Thread nD τ).loc main_v1) ↦{fullShare} StableHlo.after hostOps1 (Vexit m c) (Proc.devRef .tc main_v1))
        ∗ (((c.tc : Thread nD τ).loc main_cst) ↦{fullShare} StableHlo.after hostOps1 (Vexit m c) (Proc.devRef .tc main_cst))
        ∗ (((c.tc : Thread nD τ).loc main_v2) ↦{fullShare} StableHlo.after hostOps1 (Vexit m c) (Proc.devRef .tc main_v2))
        ∗ (((c.tc : Thread nD τ).loc main_v3) ↦{fullShare} StableHlo.after hostOps1 (Vexit m c) (Proc.devRef .tc main_v3))
        ∗ (((c.tc : Thread nD τ).loc main_cst_0) ↦{fullShare} StableHlo.after hostOps1 (Vexit m c) (Proc.devRef .tc main_cst_0))
        ∗ (((c.tc : Thread nD τ).loc main_v4) ↦{fullShare} StableHlo.after hostOps1 (Vexit m c) (Proc.devRef .tc main_v4))
        ∗ (((c.tc : Thread nD τ).loc main_cst_1) ↦{fullShare} StableHlo.after hostOps1 (Vexit m c) (Proc.devRef .tc main_cst_1))
        ∗ (((c.tc : Thread nD τ).loc main_v5) ↦{fullShare} StableHlo.after hostOps1 (Vexit m c) (Proc.devRef .tc main_v5))
        ∗ (((c.tc : Thread nD τ).loc main_cst_2) ↦{fullShare} StableHlo.after hostOps1 (Vexit m c) (Proc.devRef .tc main_cst_2))
        ∗ (((c.tc : Thread nD τ).loc main_v6) ↦{fullShare} StableHlo.after hostOps1 (Vexit m c) (Proc.devRef .tc main_v6))
        ∗ (((c.tc : Thread nD τ).loc main_v7) ↦{fullShare} StableHlo.after hostOps1 (Vexit m c) (Proc.devRef .tc main_v7))) : sProp 𝕄))
                -∗ |={Set.univ}=> Q' ⟨⟩)
        -∗ wp frame (wpE (Pipeline.defs (pcfgs (F := F)) defs₀) (Variants.lift Variants.none) (c.tc : Thread nD τ) none) Set.univ (StableHlo.seq hostOps1 >>= fun _ => Pipeline.chain []) Q') := by
  have h := StableHlo.wp_seq (defs := Pipeline.defs (pcfgs (F := F)) defs₀) (Variants.lift Variants.none) none Set.univ c tailRefs (fun _ => Pipeline.chain []) (K := Q') hostOps1 hsub hfresh (Vexit m c)
  rw [Pipeline.chain_nil, wp_pure, held_chain, held_chain, Vexit_v00, Vexit_v01, Vexit_rest m c main_v1 (by decide) (by decide), Vexit_rest m c main_cst (by decide) (by decide), Vexit_rest m c main_v2 (by decide) (by decide), Vexit_rest m c main_v3 (by decide) (by decide), Vexit_rest m c main_cst_0 (by decide) (by decide), Vexit_rest m c main_v4 (by decide) (by decide), Vexit_rest m c main_cst_1 (by decide) (by decide), Vexit_rest m c main_v5 (by decide) (by decide), Vexit_rest m c main_cst_2 (by decide) (by decide), Vexit_rest m c main_v6 (by decide) (by decide), Vexit_rest m c main_v7 (by decide) (by decide), Vend_v00, Vend_v01] at h
  exact h

set_option maxHeartbeats 1600000 in
/-- EXIT: from the region's exit — the windows' arrays at their final contents, the bypassing buffers as launched — the
    host operations run, writing none of the arrays, and leave the bypassing buffers at their values. -/
theorem htail (c : Dev nD) (Q' : PUnit → sProp 𝕄) :
    iprop((iprop((dats m 0 c).arrays ((dats m 0 c).arrAt · cfg0.N)
            ∗ Pipeline.unscopedRest (Ix := Unit) (Name := ℕ) (U := UR sig nD τ) (Lvl := ℕ) spec0 c (fun b => Vend m c (Proc.devRef .tc b))) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (pcfgs (F := F)) defs₀) (Variants.lift Variants.none) (c.tc : Thread nD τ) none) Set.univ (tailK (F := F) ⟨⟩) Q' := by
  rw [arrays_pts, bigSep_W0, unscopedRest0_eq, unscopedRest0_eq, share_8, share_9]
  rw [show tailK (F := F) ⟨⟩ = (StableHlo.seq hostOps1 >>= fun _ => Pipeline.chain []) from rfl]
  iintro ⟨Hk, Hb, ⟨A0, A1, A2, A3, A4, A5, A6, A7, A8, A9⟩, R0, R1, R2, R3, R4, R5, R6, R7, R8, R9, R10⟩
  ihave Hw := (tail_run m c Q') $$ [Hb A8 A9 R0 R1 R2 R3 R4 R5 R6 R7 R8 R9 R10]
  · isplitl [Hb]; · iexact Hb
    isplitl [A8]; · iexact A8
    isplitl [A9]; · iexact A9
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  iapply Hw
  iintro ⟨Hb, A8, A9, R0, R1, R2, R3, R4, R5, R6, R7, R8, R9, R10⟩
  imodintro
  iapply Hk
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact R10

/-! ## The run -/

/-- The unscoped buffers that are no window's array. -/
abbrev restSet : Finset (Ref sig .tc) := (Finset.univ.filter fun b : Ref sig .tc => ¬ b.isScoped) \ Finset.univ.image (Pipeline.arrRef spec0)

set_option backward.isDefEq.respectTransparency.types false in
set_option maxHeartbeats 1600000 in
/-- At the compiled mesh, from any memory with zero counters: every weakly fair execution terminates, nothing faulting;
    at the end every window's array holds what the proof data determine and every other
    unscoped buffer what the host operations leave. -/
theorem run_main : θ_run defs (onTc (τ := τ) (main (F := F))) ⟨m, fun _ => 0, ρ⟩ (fun r => ∀ c : Dev nD,
      (∀ w : Fin cfg0.W, r.2.mem ((cfg0.win w).arr.view.loc (c.tc : Thread nD τ)) = (dats m 0 c).arrAt w cfg0.N)
      ∧ ∀ b ∈ restSet, r.2.mem ((c.tc : Thread nD τ).loc b) = Vend m c (Proc.devRef .tc b)) :=
  Pipeline.θ_run_region_noSem_pf_tail (pcfgs (F := F)) adm (dats m) () cellOf_inj (0 : Fin 1) winFacts₀0 (Pipeline.PreFacts.none _) emb₁ defs₀ Variants.none
    m ρ main tailK
    (hbody := fun c => (body_obligation m c).loose) (hne := block_pos0) (harr := arr_whole0) (hstage := stage_whole0)
    (howed := fun _ _ => rfl)
    (u₀ := initOf (Pipeline.cells (Pipeline.pin (pcfgs (F := F)) adm) cellOf_inj) (Pipeline.launchToks (Pipeline.pin (pcfgs (F := F)) adm) cellOf_inj))
    (hu₀ := .rfl)
    (V := V m)
    (hmain := fun c Q => by
      rw [main_eq]
      iintro ⟨Hk, Hb, Hu⟩
      iapply Hk
      isplitl [Hb] <;> iassumption)
    (hsplit := hsplit m)
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => Vend m c (Proc.devRef .tc b)))
    (hX := fun c => by
      rw [Pipeline.unscopedRestP_none]
      iintro H; isplitr; · iempintro
      iexact H)
    (hin := fun c => (show iprop((BI.emp : sProp 𝕄) ∗ Pipeline.prefHeld (pcfgs (F := F) 0).pre c (fun _ => fullShare.right) (adm (F := F) 0).1
          ∗ Pipeline.scopedRest (Ix := Unit) (Name := ℕ) (U := UR sig nD τ) (Lvl := ℕ) (Val := Elt F) spec0 c)
        ⊢ Pipeline.scopedRest (Ix := Unit) (Name := ℕ) (U := UR sig nD τ) (Lvl := ℕ) (Val := Elt F) spec0 c from by
      iintro ⟨-, -, Hr⟩; iexact Hr))
    (hout := fun c => (show Pipeline.scopedRest (Ix := Unit) (Name := ℕ) (U := UR sig nD τ) (Lvl := ℕ) (Val := Elt F) spec0 c
        ⊢ iprop((BI.emp : sProp 𝕄) ∗ Pipeline.scopedRest (Ix := Unit) (Name := ℕ) (U := UR sig nD τ) (Lvl := ℕ) (Val := Elt F) spec0 c) from by
      iintro Hr; isplitr; · iempintro
      iexact Hr))
    (htail := htail m)
    (QY := fun c s => ∀ b ∈ restSet, s.mem ((c.tc : Thread nD τ).loc b) = Vend m c (Proc.devRef .tc b))
    (hY := fun c s' => by
      iintro ⟨-, HU, HSI⟩
      unfold Pipeline.unscopedRest
      imodintro
      iapply (pointsTo_read_all restSet (fun b => (c.tc : Thread nD τ).loc b) (fun b => Vend m c (Proc.devRef .tc b)) s')
      isplitl [HU] <;> iassumption)
    (hQ := fun s h c => ⟨(h c).1, (h c).2.2⟩)

/-- THE FRAME: the six argument arrays end as launched (each is read through input windows only). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans ((dats m 0 c).arrAt_in 0 rfl _), ((h c).1 3).trans ((dats m 0 c).arrAt_in 3 rfl _),
     ((h c).1 4).trans ((dats m 0 c).arrAt_in 4 rfl _), ((h c).1 5).trans ((dats m 0 c).arrAt_in 5 rfl _),
     ((h c).1 6).trans ((dats m 0 c).arrAt_in 6 rfl _), ((h c).1 7).trans ((dats m 0 c).arrAt_in 7 rfl _)⟩) (run_main m ρ)

end Cert.Kernel.Hand

end
-- ==== Proof.KernelIdeal.Shared.lean ====
/-
  What the two runs of the kernel body share: the arrays as the region finds them, each window's block at a
  grid point, the condition of the body's one branch decided over the grid, and the staging buffers the
  pipeline hands the body at a point.

  The grid is 2 x 24 = 48 points; point t is batch t / 24, depth tile t % 24. The branch (reset both running
  sums) is taken at point 0 only.
-/
import proofs.«151788_j37855841747580_1_alg».proof.Proof.Gen.KernelIdeal.Launch
import proofs.«151788_j37855841747580_1_alg».proof.Proof.Gen.KernelIdeal.Skeleton
import proofs.«151788_j37855841747580_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (the region is the first thing the program runs). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The condition of the body's branch, from the grid coordinates: batch 0 and depth tile 0. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond0_0 : ∀ t : Fin cfg0.N, cond0_0 (grid0.coords t) ↔ t.val % 48 = 0 :=
  (by decide +kernel : ∀ t : Fin grid0.N, cond0_0 (grid0.coords t) ↔ t.val % 48 = 0)

/-- One staging buffer of each output window, through which its contents are stated. -/
abbrev VO0_8 : View sig .tc .vmem S1x1 .f32 := (Memref.whole cc0_stg8_0 : Memref sig .tc .vmem S1x1 .f32).view
abbrev VO0_9 : View sig .tc .vmem S1x1 .f32 := (Memref.whole cc0_stg9_0 : Memref sig .tc .vmem S1x1 .f32).view
/-- Each window's current staging memref at point `t`, as the pipeline passes it, and its wholeness. -/
abbrev ms0_0 (t : Fin cfg0.N) : Memref sig .tc .vmem S1x1x8x192x192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1x192x192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1x192x192 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8x192x192 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x8x192x192 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x8x192x192 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x8x192x192 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x8x192x192 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1 .f32 := win0_9.stage (cfg0.slots t 9)
abbrev hs0_9 (t : Fin cfg0.N) : (ms0_9 t).IsWhole := hstage0_9 ((cfg0.slots t 9).cast nbuf0_9)

/-- An input window's current staging buffer holds its block at every point, for any proof data whose array is
    `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KernelIdeal.RunA.lean ====
/-
  The kernel body run once, symbolically, at the first grid point (the branch taken: both running sums are reset, then added to):
  from the ten staging buffers at their contents to the same buffers, the eight inputs unchanged and each of the
  two one-cell outputs overwritten by the stores the body makes, kept as a list of pieces (last store first).
-/
import proofs.«151788_j37855841747580_1_alg».proof.Proof.KernelIdeal.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the two output buffers, with the proof that the body runs to a continuation
    holding the inputs as they were and each output with those stores written. -/
noncomputable def kernelRun0_A (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : cond0_0 i)
    (x0 : Vec F S1x1x8x192x192 .f32) (x1 x2 : Vec F S1x1x1x192x192 .f32) (x3 x4 x5 x6 x7 : Vec F S1x1x8x192x192 .f32) :
    Σ' (L8 : List (View.Piece (Elt F) S1x1 .f32)) (L9 : List (View.Piece (Elt F) S1x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__pinn_kernel i arg2 harg2 arg3 harg3 arg4 harg4 arg5 harg5 arg6 harg6 arg7 harg7 arg8 harg8 arg9 harg9 arg10 harg10 arg11 harg11) K := by
  refine ⟨?_, ?_, fun E K => ?run⟩
  case run =>
    simp only [cc0__pinn_kernel_eq_skeleton]; unfold cc0__pinn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact H9

end Cert.KernelIdeal.Hand

end
-- ==== Proof.KernelIdeal.RunB.lean ====
/-
  The kernel body run once, symbolically, at a later grid point (the branch not taken: both running sums are read and added to):
  from the ten staging buffers at their contents to the same buffers, the eight inputs unchanged and each of the
  two one-cell outputs overwritten by the stores the body makes, kept as a list of pieces (last store first).
-/
import proofs.«151788_j37855841747580_1_alg».proof.Proof.KernelIdeal.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the two output buffers, with the proof that the body runs to a continuation
    holding the inputs as they were and each output with those stores written. -/
noncomputable def kernelRun0_B (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : ¬cond0_0 i)
    (x0 : Vec F S1x1x8x192x192 .f32) (x1 x2 : Vec F S1x1x1x192x192 .f32) (x3 x4 x5 x6 x7 : Vec F S1x1x8x192x192 .f32) (xo8 xo9 : Vec F S1x1 .f32) :
    Σ' (L8 : List (View.Piece (Elt F) S1x1 .f32)) (L9 : List (View.Piece (Elt F) S1x1 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo8 ∗ owns (c : Thread nD τ) arg11 fullShare xo9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9)) -∗ K ⟨⟩))
          ⊢ wp frame (wpE (defs₀ (F := F)) Variants.none c none) E (cc0__pinn_kernel i arg2 harg2 arg3 harg3 arg4 harg4 arg5 harg5 arg6 harg6 arg7 harg7 arg8 harg8 arg9 harg9 arg10 harg10 arg11 harg11) K := by
  refine ⟨?_, ?_, fun E K => ?run⟩
  case run =>
    simp only [cc0__pinn_kernel_eq_skeleton]; unfold cc0__pinn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact H9

end Cert.KernelIdeal.Hand

end
-- ==== Proof.KernelIdeal.Data.lean ====
/-
  The proof data of the one pipelined region and the body obligation at every grid point.

  The two outputs are one-cell running sums whose staging buffers are written back only after the last point:
  what each holds after point n is defined by recursion on n (point 0 resets and adds, every later point adds to
  what the point before left). Three of the input windows name one array; each holds a share of it.
-/
import proofs.«151788_j37855841747580_1_alg».proof.Proof.KernelIdeal.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves in the two outputs -/
/-- The stores of run A into output 8 cover its one cell. -/
theorem cover0_A_8 (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : cond0_0 i)
    (x0 : Vec F S1x1x8x192x192 .f32) (x1 x2 : Vec F S1x1x1x192x192 .f32) (x3 x4 x5 x6 x7 : Vec F S1x1x8x192x192 .f32) (y : S1x1.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6 x7).1 S1x1.size (by sl_kernel_rfl) y

/-- What run A leaves in output 8's staging buffer: its stores read back. -/
def out0_A_8 (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : cond0_0 i)
    (x0 : Vec F S1x1x8x192x192 .f32) (x1 x2 : Vec F S1x1x1x192x192 .f32) (x3 x4 x5 x6 x7 : Vec F S1x1x8x192x192 .f32) : Vec F S1x1 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 hc0 x0 x1 x2 x3 x4 x5 x6 x7).1)

/-- The stores of run A into output 9 cover its one cell. -/
theorem cover0_A_9 (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : cond0_0 i)
    (x0 : Vec F S1x1x8x192x192 .f32) (x1 x2 : Vec F S1x1x1x192x192 .f32) (x3 x4 x5 x6 x7 : Vec F S1x1x8x192x192 .f32) (y : S1x1.Idx) :
    ∃ pc ∈ (kernelRun0_A c i arg2 harg2 arg3 harg3 arg4 harg4 arg5 harg5 arg6 harg6 arg7 harg7 arg8 harg8 arg9 harg9 arg10 harg10 arg11 harg11 hc0 x0 x1 x2 x3 x4 x5 x6 x7).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 x0 x1 x2 x3 x4 x5 x6 x7).2.1 S1x1.size (by sl_kernel_rfl) y

/-- What run A leaves in output 9's staging buffer: its stores read back. -/
def out0_A_9 (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : cond0_0 i)
    (x0 : Vec F S1x1x8x192x192 .f32) (x1 x2 : Vec F S1x1x1x192x192 .f32) (x3 x4 x5 x6 x7 : Vec F S1x1x8x192x192 .f32) : Vec F S1x1 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 hc0 x0 x1 x2 x3 x4 x5 x6 x7).2.1)

/-- The stores of run B into output 8 cover its one cell. -/
theorem cover0_B_8 (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : ¬cond0_0 i)
    (x0 : Vec F S1x1x8x192x192 .f32) (x1 x2 : Vec F S1x1x1x192x192 .f32) (x3 x4 x5 x6 x7 : Vec F S1x1x8x192x192 .f32) (xo8 xo9 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).1 S1x1.size (by sl_kernel_rfl) y

/-- What run B leaves in output 8's staging buffer: its stores read back. -/
def out0_B_8 (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : ¬cond0_0 i)
    (x0 : Vec F S1x1x8x192x192 .f32) (x1 x2 : Vec F S1x1x1x192x192 .f32) (x3 x4 x5 x6 x7 : Vec F S1x1x8x192x192 .f32) (xo8 xo9 : Vec F S1x1 .f32) : Vec F S1x1 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).1)

/-- The stores of run B into output 9 cover its one cell. -/
theorem cover0_B_9 (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : ¬cond0_0 i)
    (x0 : Vec F S1x1x8x192x192 .f32) (x1 x2 : Vec F S1x1x1x192x192 .f32) (x3 x4 x5 x6 x7 : Vec F S1x1x8x192x192 .f32) (xo8 xo9 : Vec F S1x1 .f32) (y : S1x1.Idx) :
    ∃ pc ∈ (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).2.1 S1x1.size (by sl_kernel_rfl) y

/-- What run B leaves in output 9's staging buffer: its stores read back. -/
def out0_B_9 (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : ¬cond0_0 i)
    (x0 : Vec F S1x1x8x192x192 .f32) (x1 x2 : Vec F S1x1x1x192x192 .f32) (x3 x4 x5 x6 x7 : Vec F S1x1x8x192x192 .f32) (xo8 xo9 : Vec F S1x1 .f32) : Vec F S1x1 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 hc0 x0 x1 x2 x3 x4 x5 x6 x7 xo8 xo9).2.1)

/-! ## The running sums, point by point -/

theorem N48 : cfg0.N = 48 := N_0

/-- The branch is not taken after the first point. -/
theorem not_cond_of_ne (t : Fin cfg0.N) (h : t.val ≠ 0) : ¬ cond0_0 (grid0.coords t) := fun hc => by
  have h1 := (hcond0_0 t).mp hc
  have h2 : t.val < 48 := lt_of_lt_of_eq t.isLt N48
  omega

/-- What the two outputs' staging buffers hold after the body at position `n`. -/
def outsAt0 (c : Dev nD) : (n : ℕ) → n < cfg0.N → Vec F S1x1 .f32 × Vec F S1x1 .f32
  | 0, hn =>
    (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩),
     out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (not_cond_of_ne ⟨n + 1, hn⟩ (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2,
     out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (not_cond_of_ne ⟨n + 1, hn⟩ (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).1 (outsAt0 c n (Nat.lt_of_succ_lt hn)).2)

theorem outsAt0_zero (c : Dev nD) (t : Fin cfg0.N) (h0 : t.val = 0) :
    outsAt0 m c t.val t.isLt =
      (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr (by rw [h0])) (iblk m c 0 t) (iblk m c 1 t) (iblk m c 2 t) (iblk m c 3 t) (iblk m c 4 t) (iblk m c 5 t) (iblk m c 6 t) (iblk m c 7 t),
       out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr (by rw [h0])) (iblk m c 0 t) (iblk m c 1 t) (iblk m c 2 t) (iblk m c 3 t) (iblk m c 4 t) (iblk m c 5 t) (iblk m c 6 t) (iblk m c 7 t)) := by
  obtain ⟨n, hn⟩ := t
  cases n with
  | zero => rfl
  | succ n => exact absurd h0 (Nat.succ_ne_zero n)

theorem outsAt0_succ (c : Dev nD) (t : Fin cfg0.N) (h0 : t.val ≠ 0) :
    outsAt0 m c t.val t.isLt =
      (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (not_cond_of_ne t h0) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2,
       out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (not_cond_of_ne t h0) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact absurd rfl h0
  | succ n => rfl

/-! ## The pipeline's proof data -/

/-- The proof data on core `c`: the arrays as the region finds them; after the body at point `t` each input's
    buffer at its block and the outputs' at the running sums; the invariant the scoped buffers no window stages;
    nothing owed; the first array's share cut into three for the three windows that name it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2
  Φ _ := Pipeline.scopedRest (Ix := Unit) (Name := ℕ) (U := UR sig nD τ) (Lvl := ℕ) (Val := Elt F) spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- After the first point output 8's staging buffer holds what the body left at the point before: it is not
    written back in between. -/
theorem before0_8_B (c : Dev nD) (t : Fin cfg0.N) (h0 : t.val ≠ 0) (d) :
    (dats m 0 c).before 8 t d = (outsAt0 m c (t.val - 1) (Nat.lt_of_le_of_lt (Nat.sub_le _ _) t.isLt)).1 := by
  have hN : t.val < 48 := lt_of_lt_of_eq t.isLt N48
  rw [Dat.before_out_kept _ 8 rfl t h0 (Bool.eq_false_iff.mpr fun h => by have := (flush0_8 _).mp h; dsimp only at this; omega)
    (fun _ => rfl) (fun _ _ => rfl)]
  dsimp only [dats]
/-- After the first point output 9's staging buffer holds what the body left at the point before: it is not
    written back in between. -/
theorem before0_9_B (c : Dev nD) (t : Fin cfg0.N) (h0 : t.val ≠ 0) (d) :
    (dats m 0 c).before 9 t d = (outsAt0 m c (t.val - 1) (Nat.lt_of_le_of_lt (Nat.sub_le _ _) t.isLt)).2 := by
  have hN : t.val < 48 := lt_of_lt_of_eq t.isLt N48
  rw [Dat.before_out_kept _ 9 rfl t h0 (Bool.eq_false_iff.mpr fun h => by have := (flush0_9 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  by_cases h0 : t.val = 0
  · rw [outsAt0_zero m c t h0]
    dsimp only
    unfold out0_A_8 out0_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ ((hcond0_0 t).mpr (by rw [h0])) (iblk m c 0 t) (iblk m c 1 t) (iblk m c 2 t) (iblk m c 3 t) (iblk m c 4 t) (iblk m c 5 t) (iblk m c 6 t) (iblk m c 7 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _)
  · rw [outsAt0_succ m c t h0]
    dsimp only
    simp only [before0_8_B m c t h0, before0_9_B m c t h0]
    unfold out0_B_8 out0_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ (not_cond_of_ne t h0) (iblk m c 0 t) (iblk m c 1 t) (iblk m c 2 t) (iblk m c 3 t) (iblk m c 4 t) (iblk m c 5 t) (iblk m c 6 t) (iblk m c 7 t) _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _)
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _)

/-- The body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdeal.Launch.lean ====
/-
  The launch: the program is one pipelined region followed by eleven scalar host operations.

  Three input windows name the first argument array, so at the region's entry its buffer, held whole, is cut
  into three shares, one per window; every other window's array is held whole. After the region the two
  one-cell results are held whole again and the host operations run over them and over the buffers that bypass
  the region. Every weakly fair execution terminates; at the end every window's array holds what the
  proof data determine, and every other unscoped buffer what the host operations leave.
-/
import proofs.«151788_j37855841747580_1_alg».proof.Proof.KernelIdeal.Data
import Idealize.ShloMosaic.Lib.Pipeline.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 1) → (pcfgs (F := F) p).Adm := fun p => (cfgs p).toPCfg_adm

/-- The program after the region: the eleven host operations. -/
abbrev tailK : PUnit.{1} → Prog (TpuEff nD τ sig (Elt F) (Pipeline.Sig Λ₀ (Fin 1) fun p => (pcfgs (F := F) p).Adm) .tc) PUnit :=
  fun _ => Pipeline.chain [StableHlo.seq hostOps1]

theorem main_eq (c : Dev nD) : main (F := F) c = .op (.customCall (Pipeline.entry 0) ()) tailK := (main_chain c).trans rfl

/-! ## The shares -/

theorem share_0 (c : Dev nD) : (dats m 0 c).share 0 = fullShare.left := rfl
theorem share_1 (c : Dev nD) : (dats m 0 c).share 1 = fullShare.right.left := rfl
theorem share_2 (c : Dev nD) : (dats m 0 c).share 2 = fullShare.right.right := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl
theorem share_7 (c : Dev nD) : (dats m 0 c).share 7 = fullShare := rfl
theorem share_8 (c : Dev nD) : (dats m 0 c).share 8 = fullShare := rfl
theorem share_9 (c : Dev nD) : (dats m 0 c).share 9 = fullShare := rfl

/-- The windows' arrays, each a whole buffer, as plain points-tos at the windows' shares. -/
theorem arrays_pts (c : Dev nD) (Fv : (w : Fin cfg0.W) → Buf (Elt F) ((cfg0.win w).arr.view.loc (c.tc : Thread nD τ))) :
    ((dats m 0 c).arrays Fv : sProp 𝕄)
      = bigSep Finset.univ fun w : Fin 10 => (((c.tc : Thread nD τ).loc (Pipeline.arrRef spec0 w)) ↦{(dats m 0 c).share w} Fv w : sProp 𝕄) := by
  unfold Dat.arrays
  exact bigSep_congr fun w _ => by rw [(arr_whole0 w).set_eq_univ]

/-- The distinct buffers behind the windows. -/
theorem arrRefs_eq : Finset.univ.image (Pipeline.arrRef spec0)
    = ([main_arg0, main_arg1, main_arg2, main_arg3, main_arg4, main_arg5, main_v0_0, main_v0_1] : List (Ref sig .tc)).toFinset := by decide

/-- Over them an iterated conjunction is a chain. -/
theorem arrBufs_chain (Ψ : Ref sig .tc → sProp 𝕄) :
    bigSep (Finset.univ.image (Pipeline.arrRef spec0)) Ψ
      = iprop(Ψ main_arg0 ∗ Ψ main_arg1 ∗ Ψ main_arg2 ∗ Ψ main_arg3 ∗ Ψ main_arg4 ∗ Ψ main_arg5 ∗ Ψ main_v0_0 ∗ Ψ main_v0_1) :=
  bigSep_eq_bigSepL_of_eq [main_arg0, main_arg1, main_arg2, main_arg3, main_arg4, main_arg5, main_v0_0, main_v0_1] arrRefs_eq (by decide) Ψ

/-- ENTRY: the buffers behind the windows, each whole at the full share, make the windows' arrays at their shares:
    the first argument's buffer is cut into three. -/
theorem hsplit (c : Dev nD) :
    (Pipeline.arrBufs spec0 c (V m c) : sProp 𝕄) ⊢ (dats m 0 c).arrays ((dats m 0 c).arrAt · 0) := by
  rw [arrays_pts]
  unfold Pipeline.arrBufs
  rw [arrBufs_chain, bigSep_W0]
  rw [share_0, share_1, share_2, share_3, share_4, share_5, share_6, share_7, share_8, share_9]
  iintro ⟨H0, H1, H2, H3, H4, H5, H6, H7⟩
  ihave H0 := (pointsTo_share (PosShare.mem_left_op_right fullShare)).1 $$ H0
  icases H0 with ⟨H0a, H0r⟩
  ihave H0r := (pointsTo_share (PosShare.mem_left_op_right fullShare.right)).1 $$ H0r
  icases H0r with ⟨H0b, H0c⟩
  isplitl [H0a]; · iexact H0a
  isplitl [H0b]; · iexact H0b
  isplitl [H0c]; · iexact H0c
  isplitl [H1]; · iexact H1
  isplitl [H2]; · iexact H2
  isplitl [H3]; · iexact H3
  isplitl [H4]; · iexact H4
  isplitl [H5]; · iexact H5
  isplitl [H6]; · iexact H6
  iexact H7

/-! ## After the region -/

/-- The buffers the host operations after the region touch: the two results of the region and the eleven scalars. -/
def tailList : List (Ref sig .tc) := [main_v0_0, main_v0_1, main_v1, main_cst, main_v2, main_v3, main_cst_0, main_v4, main_cst_1, main_v5, main_cst_2, main_v6, main_v7]
def tailRefs : Finset (DevRef τ sig) := (tailList.map (Proc.devRef (τ := τ) .tc)).toFinset

/-- Core `c`'s buffer contents when the region is left: the two results at what the pipeline wrote back, every
    other buffer as launched. -/
def Vexit (c : Dev nD) : Valuation τ sig (Elt F) :=
  Function.update (Function.update (fun b => m (c, b)) (Proc.devRef .tc main_v0_0) ((dats m 0 c).arrAt 8 cfg0.N))
    (Proc.devRef .tc main_v0_1) ((dats m 0 c).arrAt 9 cfg0.N)

/-- and at the program's end: the host operations have run. -/
def Vend (c : Dev nD) : Valuation τ sig (Elt F) := StableHlo.after hostOps1 (Vexit m c)

theorem Vexit_v00 (c : Dev nD) : Vexit m c (Proc.devRef .tc main_v0_0) = (dats m 0 c).arrAt 8 cfg0.N := by
  unfold Vexit
  rw [Function.update_of_ne (StableHlo.devRef_ne_of_ne (by decide)), Function.update_self]
theorem Vexit_v01 (c : Dev nD) : Vexit m c (Proc.devRef .tc main_v0_1) = (dats m 0 c).arrAt 9 cfg0.N := by
  unfold Vexit
  rw [Function.update_self]
theorem Vexit_rest (c : Dev nD) (b : Ref sig .tc) (h0 : b ≠ main_v0_0) (h1 : b ≠ main_v0_1) :
    Vexit m c (Proc.devRef .tc b) = V m c b := by
  unfold Vexit
  rw [Function.update_of_ne (StableHlo.devRef_ne_of_ne h1), Function.update_of_ne (StableHlo.devRef_ne_of_ne h0)]

/-- No host operation writes a buffer other than the eleven scalars. -/
theorem not_written (b : Ref sig .tc) (hb : b ≠ main_v1 ∧ b ≠ main_cst ∧ b ≠ main_v2 ∧ b ≠ main_v3 ∧ b ≠ main_cst_0 ∧ b ≠ main_v4 ∧ b ≠ main_cst_1 ∧ b ≠ main_v5 ∧ b ≠ main_cst_2 ∧ b ≠ main_v6 ∧ b ≠ main_v7) :
    ∀ op ∈ (hostOps1 (F := F)), Proc.devRef .tc b ∉ op.writes := by
  obtain ⟨h0, h1, h2, h3, h4, h5, h6, h7, h8, h9, h10⟩ := hb
  intro op hop
  simp only [List.mem_cons, List.mem_nil_iff, or_false] at hop
  rcases hop with rfl | rfl | rfl | rfl | rfl | rfl | rfl | rfl | rfl | rfl | rfl <;>
    simp only [StableHlo.reshape_writes, StableHlo.binary_writes, StableHlo.nullary_writes, Finset.mem_singleton] <;>
    exact StableHlo.devRef_ne_of_ne ‹_›

theorem Vend_v00 (c : Dev nD) : StableHlo.after hostOps1 (Vexit m c) (Proc.devRef .tc main_v0_0) = (dats m 0 c).arrAt 8 cfg0.N := by
  rw [StableHlo.after_of_forall_not_mem (b := Proc.devRef .tc main_v0_0) hostOps1 (Vexit m c) (not_written main_v0_0 (by decide)), Vexit_v00]
theorem Vend_v01 (c : Dev nD) : StableHlo.after hostOps1 (Vexit m c) (Proc.devRef .tc main_v0_1) = (dats m 0 c).arrAt 9 cfg0.N := by
  rw [StableHlo.after_of_forall_not_mem (b := Proc.devRef .tc main_v0_1) hostOps1 (Vexit m c) (not_written main_v0_1 (by decide)), Vexit_v01]

theorem hsub : ∀ op ∈ (hostOps1 (F := F)), op.bufs ⊆ tailRefs := by
  intro op hop
  simp only [List.mem_cons, List.mem_nil_iff, or_false] at hop
  rcases hop with rfl | rfl | rfl | rfl | rfl | rfl | rfl | rfl | rfl | rfl | rfl <;>
    (first | rw [StableHlo.reshape_bufs] | rw [StableHlo.nullary_bufs] | rw [StableHlo.binary_bufs]) <;> decide

theorem hfresh : ∀ op ∈ (hostOps1 (F := F)), op.fresh = ∅ := by
  intro _ h; (repeat (cases h with | head => rfl | tail _ h => ?_)); exact nomatch h

/-- Those buffers held at a valuation, one by one. -/
theorem held_chain (c : Dev nD) (W : Valuation τ sig (Elt F)) :
    (StableHlo.held (c.tc : Thread nD τ) tailRefs W : sProp 𝕄)
      = iprop((((c.tc : Thread nD τ).loc main_v0_0) ↦{fullShare} W (Proc.devRef .tc main_v0_0))
        ∗ (((c.tc : Thread nD τ).loc main_v0_1) ↦{fullShare} W (Proc.devRef .tc main_v0_1))
        ∗ (((c.tc : Thread nD τ).loc main_v1) ↦{fullShare} W (Proc.devRef .tc main_v1))
        ∗ (((c.tc : Thread nD τ).loc main_cst) ↦{fullShare} W (Proc.devRef .tc main_cst))
        ∗ (((c.tc : Thread nD τ).loc main_v2) ↦{fullShare} W (Proc.devRef .tc main_v2))
        ∗ (((c.tc : Thread nD τ).loc main_v3) ↦{fullShare} W (Proc.devRef .tc main_v3))
        ∗ (((c.tc : Thread nD τ).loc main_cst_0) ↦{fullShare} W (Proc.devRef .tc main_cst_0))
        ∗ (((c.tc : Thread nD τ).loc main_v4) ↦{fullShare} W (Proc.devRef .tc main_v4))
        ∗ (((c.tc : Thread nD τ).loc main_cst_1) ↦{fullShare} W (Proc.devRef .tc main_cst_1))
        ∗ (((c.tc : Thread nD τ).loc main_v5) ↦{fullShare} W (Proc.devRef .tc main_v5))
        ∗ (((c.tc : Thread nD τ).loc main_cst_2) ↦{fullShare} W (Proc.devRef .tc main_cst_2))
        ∗ (((c.tc : Thread nD τ).loc main_v6) ↦{fullShare} W (Proc.devRef .tc main_v6))
        ∗ (((c.tc : Thread nD τ).loc main_v7) ↦{fullShare} W (Proc.devRef .tc main_v7))) := by
  unfold StableHlo.held tailRefs
  exact bigSep_eq_bigSepL_of_eq (tailList.map (Proc.devRef (τ := τ) .tc)) rfl (by decide) _

set_option maxHeartbeats 1600000 in
/-- The host operations run from the exit contents of the buffers they touch to their values. -/
theorem tail_run (c : Dev nD) (Q' : PUnit → sProp 𝕄) :
    iprop(boundary (c.tc : Thread nD τ) ∗ (iprop((((c.tc : Thread nD τ).loc main_v0_0) ↦{fullShare} (dats m 0 c).arrAt 8 cfg0.N)
        ∗ (((c.tc : Thread nD τ).loc main_v0_1) ↦{fullShare} (dats m 0 c).arrAt 9 cfg0.N)
        ∗ (((c.tc : Thread nD τ).loc main_v1) ↦{fullShare} V m c main_v1)
        ∗ (((c.tc : Thread nD τ).loc main_cst) ↦{fullShare} V m c main_cst)
        ∗ (((c.tc : Thread nD τ).loc main_v2) ↦{fullShare} V m c main_v2)
        ∗ (((c.tc : Thread nD τ).loc main_v3) ↦{fullShare} V m c main_v3)
        ∗ (((c.tc : Thread nD τ).loc main_cst_0) ↦{fullShare} V m c main_cst_0)
        ∗ (((c.tc : Thread nD τ).loc main_v4) ↦{fullShare} V m c main_v4)
        ∗ (((c.tc : Thread nD τ).loc main_cst_1) ↦{fullShare} V m c main_cst_1)
        ∗ (((c.tc : Thread nD τ).loc main_v5) ↦{fullShare} V m c main_v5)
        ∗ (((c.tc : Thread nD τ).loc main_cst_2) ↦{fullShare} V m c main_cst_2)
        ∗ (((c.tc : Thread nD τ).loc main_v6) ↦{fullShare} V m c main_v6)
        ∗ (((c.tc : Thread nD τ).loc main_v7) ↦{fullShare} V m c main_v7)) : sProp 𝕄))
      ⊢ iprop(((boundary (c.tc : Thread nD τ) ∗ (iprop((((c.tc : Thread nD τ).loc main_v0_0) ↦{fullShare} (dats m 0 c).arrAt 8 cfg0.N)
        ∗ (((c.tc : Thread nD τ).loc main_v0_1) ↦{fullShare} (dats m 0 c).arrAt 9 cfg0.N)
        ∗ (((c.tc : Thread nD τ).loc main_v1) ↦{fullShare} StableHlo.after hostOps1 (Vexit m c) (Proc.devRef .tc main_v1))
        ∗ (((c.tc : Thread nD τ).loc main_cst) ↦{fullShare} StableHlo.after hostOps1 (Vexit m c) (Proc.devRef .tc main_cst))
        ∗ (((c.tc : Thread nD τ).loc main_v2) ↦{fullShare} StableHlo.after hostOps1 (Vexit m c) (Proc.devRef .tc main_v2))
        ∗ (((c.tc : Thread nD τ).loc main_v3) ↦{fullShare} StableHlo.after hostOps1 (Vexit m c) (Proc.devRef .tc main_v3))
        ∗ (((c.tc : Thread nD τ).loc main_cst_0) ↦{fullShare} StableHlo.after hostOps1 (Vexit m c) (Proc.devRef .tc main_cst_0))
        ∗ (((c.tc : Thread nD τ).loc main_v4) ↦{fullShare} StableHlo.after hostOps1 (Vexit m c) (Proc.devRef .tc main_v4))
        ∗ (((c.tc : Thread nD τ).loc main_cst_1) ↦{fullShare} StableHlo.after hostOps1 (Vexit m c) (Proc.devRef .tc main_cst_1))
        ∗ (((c.tc : Thread nD τ).loc main_v5) ↦{fullShare} StableHlo.after hostOps1 (Vexit m c) (Proc.devRef .tc main_v5))
        ∗ (((c.tc : Thread nD τ).loc main_cst_2) ↦{fullShare} StableHlo.after hostOps1 (Vexit m c) (Proc.devRef .tc main_cst_2))
        ∗ (((c.tc : Thread nD τ).loc main_v6) ↦{fullShare} StableHlo.after hostOps1 (Vexit m c) (Proc.devRef .tc main_v6))
        ∗ (((c.tc : Thread nD τ).loc main_v7) ↦{fullShare} StableHlo.after hostOps1 (Vexit m c) (Proc.devRef .tc main_v7))) : sProp 𝕄))
                -∗ |={Set.univ}=> Q' ⟨⟩)
        -∗ wp frame (wpE (Pipeline.defs (pcfgs (F := F)) defs₀) (Variants.lift Variants.none) (c.tc : Thread nD τ) none) Set.univ (StableHlo.seq hostOps1 >>= fun _ => Pipeline.chain []) Q') := by
  have h := StableHlo.wp_seq (defs := Pipeline.defs (pcfgs (F := F)) defs₀) (Variants.lift Variants.none) none Set.univ c tailRefs (fun _ => Pipeline.chain []) (K := Q') hostOps1 hsub hfresh (Vexit m c)
  rw [Pipeline.chain_nil, wp_pure, held_chain, held_chain, Vexit_v00, Vexit_v01, Vexit_rest m c main_v1 (by decide) (by decide), Vexit_rest m c main_cst (by decide) (by decide), Vexit_rest m c main_v2 (by decide) (by decide), Vexit_rest m c main_v3 (by decide) (by decide), Vexit_rest m c main_cst_0 (by decide) (by decide), Vexit_rest m c main_v4 (by decide) (by decide), Vexit_rest m c main_cst_1 (by decide) (by decide), Vexit_rest m c main_v5 (by decide) (by decide), Vexit_rest m c main_cst_2 (by decide) (by decide), Vexit_rest m c main_v6 (by decide) (by decide), Vexit_rest m c main_v7 (by decide) (by decide), Vend_v00, Vend_v01] at h
  exact h

set_option maxHeartbeats 1600000 in
/-- EXIT: from the region's exit — the windows' arrays at their final contents, the bypassing buffers as launched — the
    host operations run, writing none of the arrays, and leave the bypassing buffers at their values. -/
theorem htail (c : Dev nD) (Q' : PUnit → sProp 𝕄) :
    iprop((iprop((dats m 0 c).arrays ((dats m 0 c).arrAt · cfg0.N)
            ∗ Pipeline.unscopedRest (Ix := Unit) (Name := ℕ) (U := UR sig nD τ) (Lvl := ℕ) spec0 c (fun b => Vend m c (Proc.devRef .tc b))) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (pcfgs (F := F)) defs₀) (Variants.lift Variants.none) (c.tc : Thread nD τ) none) Set.univ (tailK (F := F) ⟨⟩) Q' := by
  rw [arrays_pts, bigSep_W0, unscopedRest0_eq, unscopedRest0_eq, share_8, share_9]
  rw [show tailK (F := F) ⟨⟩ = (StableHlo.seq hostOps1 >>= fun _ => Pipeline.chain []) from rfl]
  iintro ⟨Hk, Hb, ⟨A0, A1, A2, A3, A4, A5, A6, A7, A8, A9⟩, R0, R1, R2, R3, R4, R5, R6, R7, R8, R9, R10⟩
  ihave Hw := (tail_run m c Q') $$ [Hb A8 A9 R0 R1 R2 R3 R4 R5 R6 R7 R8 R9 R10]
  · isplitl [Hb]; · iexact Hb
    isplitl [A8]; · iexact A8
    isplitl [A9]; · iexact A9
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    iexact R10
  iapply Hw
  iintro ⟨Hb, A8, A9, R0, R1, R2, R3, R4, R5, R6, R7, R8, R9, R10⟩
  imodintro
  iapply Hk
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  iexact R10

/-! ## The run -/

/-- The unscoped buffers that are no window's array. -/
abbrev restSet : Finset (Ref sig .tc) := (Finset.univ.filter fun b : Ref sig .tc => ¬ b.isScoped) \ Finset.univ.image (Pipeline.arrRef spec0)

set_option backward.isDefEq.respectTransparency.types false in
set_option maxHeartbeats 1600000 in
/-- At the compiled mesh, from any memory with zero counters: every weakly fair execution terminates, nothing faulting;
    at the end every window's array holds what the proof data determine and every other
    unscoped buffer what the host operations leave. -/
theorem run_main : θ_run defs (onTc (τ := τ) (main (F := F))) ⟨m, fun _ => 0, ρ⟩ (fun r => ∀ c : Dev nD,
      (∀ w : Fin cfg0.W, r.2.mem ((cfg0.win w).arr.view.loc (c.tc : Thread nD τ)) = (dats m 0 c).arrAt w cfg0.N)
      ∧ ∀ b ∈ restSet, r.2.mem ((c.tc : Thread nD τ).loc b) = Vend m c (Proc.devRef .tc b)) :=
  Pipeline.θ_run_region_noSem_pf_tail (pcfgs (F := F)) adm (dats m) () cellOf_inj (0 : Fin 1) winFacts₀0 (Pipeline.PreFacts.none _) emb₁ defs₀ Variants.none
    m ρ main tailK
    (hbody := fun c => (body_obligation m c).loose) (hne := block_pos0) (harr := arr_whole0) (hstage := stage_whole0)
    (howed := fun _ _ => rfl)
    (u₀ := initOf (Pipeline.cells (Pipeline.pin (pcfgs (F := F)) adm) cellOf_inj) (Pipeline.launchToks (Pipeline.pin (pcfgs (F := F)) adm) cellOf_inj))
    (hu₀ := .rfl)
    (V := V m)
    (hmain := fun c Q => by
      rw [main_eq]
      iintro ⟨Hk, Hb, Hu⟩
      iapply Hk
      isplitl [Hb] <;> iassumption)
    (hsplit := hsplit m)
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (fun b => Vend m c (Proc.devRef .tc b)))
    (hX := fun c => by
      rw [Pipeline.unscopedRestP_none]
      iintro H; isplitr; · iempintro
      iexact H)
    (hin := fun c => (show iprop((BI.emp : sProp 𝕄) ∗ Pipeline.prefHeld (pcfgs (F := F) 0).pre c (fun _ => fullShare.right) (adm (F := F) 0).1
          ∗ Pipeline.scopedRest (Ix := Unit) (Name := ℕ) (U := UR sig nD τ) (Lvl := ℕ) (Val := Elt F) spec0 c)
        ⊢ Pipeline.scopedRest (Ix := Unit) (Name := ℕ) (U := UR sig nD τ) (Lvl := ℕ) (Val := Elt F) spec0 c from by
      iintro ⟨-, -, Hr⟩; iexact Hr))
    (hout := fun c => (show Pipeline.scopedRest (Ix := Unit) (Name := ℕ) (U := UR sig nD τ) (Lvl := ℕ) (Val := Elt F) spec0 c
        ⊢ iprop((BI.emp : sProp 𝕄) ∗ Pipeline.scopedRest (Ix := Unit) (Name := ℕ) (U := UR sig nD τ) (Lvl := ℕ) (Val := Elt F) spec0 c) from by
      iintro Hr; isplitr; · iempintro
      iexact Hr))
    (htail := htail m)
    (QY := fun c s => ∀ b ∈ restSet, s.mem ((c.tc : Thread nD τ).loc b) = Vend m c (Proc.devRef .tc b))
    (hY := fun c s' => by
      iintro ⟨-, HU, HSI⟩
      unfold Pipeline.unscopedRest
      imodintro
      iapply (pointsTo_read_all restSet (fun b => (c.tc : Thread nD τ).loc b) (fun b => Vend m c (Proc.devRef .tc b)) s')
      isplitl [HU] <;> iassumption)
    (hQ := fun s h c => ⟨(h c).1, (h c).2.2⟩)

/-- THE FRAME: the six argument arrays end as launched (each is read through input windows only). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans ((dats m 0 c).arrAt_in 0 rfl _), ((h c).1 3).trans ((dats m 0 c).arrAt_in 3 rfl _),
     ((h c).1 4).trans ((dats m 0 c).arrAt_in 4 rfl _), ((h c).1 5).trans ((dats m 0 c).arrAt_in 5 rfl _),
     ((h c).1 6).trans ((dats m 0 c).arrAt_in 6 rfl _), ((h c).1 7).trans ((dats m 0 c).arrAt_in 7 rfl _)⟩) (run_main m ρ)

end Cert.KernelIdeal.Hand

end
-- ==== Proof.KernelIdeal.Outs.lean ====
/-
  What each run of the body leaves in the two one-cell outputs, as the body's arithmetic applied to the blocks it
  loaded: the running sum found in the cell (or zero at the first point) plus this point's block sum.
-/
import proofs.«151788_j37855841747580_1_alg».proof.Proof.KernelIdeal.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz5 : (![0, 0, 0, 0, 0] : Fin 5 → Nat) = fun _ => 0 := funext fun a => by fin_cases a <;> rfl

/-- One point's update of the first running sum (the squared residual of the evolution equation over the
    point's eight planes), from the blocks the point loads and the sum so far. -/
def physStep (i : grid0.Coords) (x0 : Vec F S1x1x8x192x192 .f32) (x1 x2 : Vec F S1x1x1x192x192 .f32)
    (x3 x4 x5 : Vec F S1x1x8x192x192 .f32) (acc : Vec F S1x1 .f32) : Vec F S1x1 .f32 :=
  k0_pay1 (k0_pay14 (k0_pay5 x0) (k0_pay8 i x0 x1) (k0_pay9 i x0 x2) (k0_pay10 x0) (k0_pay11 x0) (k0_pay12 x0) (k0_pay13 x0) x4 x5 x3) acc

/-- One point's update of the second running sum (the squared initial-condition mismatch). -/
def icStep (x6 x7 : Vec F S1x1x8x192x192 .f32) (acc : Vec F S1x1 .f32) : Vec F S1x1 .f32 := k0_pay2 x6 x7 acc

set_option maxHeartbeats 1600000 in
theorem out0_B_8_eq (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : ¬cond0_0 i)
    (x0 : Vec F S1x1x8x192x192 .f32) (x1 x2 : Vec F S1x1x1x192x192 .f32) (x3 x4 x5 x6 x7 : Vec F S1x1x8x192x192 .f32) (xo8 xo9 : Vec F S1x1 .f32) :
    out0_B_8 c i arg2 harg2 arg3 harg3 arg4 harg4 arg5 harg5 arg6 harg6 arg7 harg7 arg8 harg8 arg9 harg9 arg10 harg10 arg11 harg11 hc0 x0 x1 x2 x3 x4 x5 x6 x7 xo8 xo9 = physStep i x0 x1 x2 x3 x4 x5 xo8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 x6 x7 xo8 xo9)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1x8x192x192) hz5,
    View.ld_unit_zero (S := S1x1x1x192x192) hz5, View.ld_unit_zero (S := S1x1) hz2]
  rfl

set_option maxHeartbeats 1600000 in
theorem out0_B_9_eq (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : ¬cond0_0 i)
    (x0 : Vec F S1x1x8x192x192 .f32) (x1 x2 : Vec F S1x1x1x192x192 .f32) (x3 x4 x5 x6 x7 : Vec F S1x1x8x192x192 .f32) (xo8 xo9 : Vec F S1x1 .f32) :
    out0_B_9 c i arg2 harg2 arg3 harg3 arg4 harg4 arg5 harg5 arg6 harg6 arg7 harg7 arg8 harg8 arg9 harg9 arg10 harg10 arg11 harg11 hc0 x0 x1 x2 x3 x4 x5 x6 x7 xo8 xo9 = icStep x6 x7 xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 x0 x1 x2 x3 x4 x5 x6 x7 xo8 xo9)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, View.ld_unit_zero (S := S1x1x8x192x192) hz5,
    View.ld_unit_zero (S := S1x1x1x192x192) hz5, View.ld_unit_zero (S := S1x1) hz2]
  rfl

set_option maxHeartbeats 1600000 in
theorem out0_A_8_eq (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : cond0_0 i)
    (x0 : Vec F S1x1x8x192x192 .f32) (x1 x2 : Vec F S1x1x1x192x192 .f32) (x3 x4 x5 x6 x7 : Vec F S1x1x8x192x192 .f32) :
    out0_A_8 c i arg2 harg2 arg3 harg3 arg4 harg4 arg5 harg5 arg6 harg6 arg7 harg7 arg8 harg8 arg9 harg9 arg10 harg10 arg11 harg11 hc0 x0 x1 x2 x3 x4 x5 x6 x7 = physStep i x0 x1 x2 x3 x4 x5 (k0_pay3 (F := F)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_cons_unit_zero hz2]
  simp only [View.readAt_eq_ld, harg2.read_unread, harg3.read_unread, harg4.read_unread, harg5.read_unread, harg6.read_unread, harg7.read_unread, harg8.read_unread, harg9.read_unread, View.ld_unit_zero (S := S1x1x8x192x192) hz5,
    View.ld_unit_zero (S := S1x1x1x192x192) hz5, View.ld_unit_zero (S := S1x1) hz2, View.readCov_unit_zero (S := S1x1) _ hz2]
  rfl

set_option maxHeartbeats 1600000 in
theorem out0_A_9_eq (c : Dev nD) (i : grid0.Coords) (arg2 : Memref sig .tc .vmem S1x1x8x192x192 .f32) (harg2 : arg2.IsWhole) (arg3 : Memref sig .tc .vmem S1x1x1x192x192 .f32) (harg3 : arg3.IsWhole) (arg4 : Memref sig .tc .vmem S1x1x1x192x192 .f32) (harg4 : arg4.IsWhole) (arg5 : Memref sig .tc .vmem S1x1x8x192x192 .f32) (harg5 : arg5.IsWhole) (arg6 : Memref sig .tc .vmem S1x1x8x192x192 .f32) (harg6 : arg6.IsWhole) (arg7 : Memref sig .tc .vmem S1x1x8x192x192 .f32) (harg7 : arg7.IsWhole) (arg8 : Memref sig .tc .vmem S1x1x8x192x192 .f32) (harg8 : arg8.IsWhole) (arg9 : Memref sig .tc .vmem S1x1x8x192x192 .f32) (harg9 : arg9.IsWhole) (arg10 : Memref sig .tc .vmem S1x1 .f32) (harg10 : arg10.IsWhole) (arg11 : Memref sig .tc .vmem S1x1 .f32) (harg11 : arg11.IsWhole) (hc0 : cond0_0 i)
    (x0 : Vec F S1x1x8x192x192 .f32) (x1 x2 : Vec F S1x1x1x192x192 .f32) (x3 x4 x5 x6 x7 : Vec F S1x1x8x192x192 .f32) :
    out0_A_9 c i arg2 harg2 arg3 harg3 arg4 harg4 arg5 harg5 arg6 harg6 arg7 harg7 arg8 harg8 arg9 harg9 arg10 harg10 arg11 harg11 hc0 x0 x1 x2 x3 x4 x5 x6 x7 = icStep x6 x7 (k0_pay4 (F := F)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_cons_unit_zero hz2]
  simp only [View.readAt_eq_ld, harg2.read_unread, harg3.read_unread, harg4.read_unread, harg5.read_unread, harg6.read_unread, harg7.read_unread, harg8.read_unread, harg9.read_unread, View.ld_unit_zero (S := S1x1x8x192x192) hz5,
    View.ld_unit_zero (S := S1x1x1x192x192) hz5, View.ld_unit_zero (S := S1x1) hz2, View.readCov_unit_zero (S := S1x1) _ hz2]
  rfl

end Cert.KernelIdeal.Hand

end
-- ==== Proof.KernelIdeal.Final.lean ====
/-
  The two results of the region are the running sums after the last grid point.

  Each result is a one-cell array written back once, after point 47; before that its staging buffer carries the
  running sum from point to point. So the array ends at the sum after point 47, which is defined here by
  recursion on the point, directly over the body's arithmetic and the blocks each point loads.
-/
import proofs.«151788_j37855841747580_1_alg».proof.Proof.KernelIdeal.Launch
import proofs.«151788_j37855841747580_1_alg».proof.Proof.KernelIdeal.Outs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two running sums after point `n`. -/
def sums (c : Dev nD) : (n : ℕ) → n < cfg0.N → Vec F S1x1 .f32 × Vec F S1x1 .f32
  | 0, h => (physStep (grid0.coords ⟨0, h⟩) (iblk m c 0 ⟨0, h⟩) (iblk m c 1 ⟨0, h⟩) (iblk m c 2 ⟨0, h⟩) (iblk m c 3 ⟨0, h⟩) (iblk m c 4 ⟨0, h⟩) (iblk m c 5 ⟨0, h⟩) (k0_pay3 (F := F)),
             icStep (iblk m c 6 ⟨0, h⟩) (iblk m c 7 ⟨0, h⟩) (k0_pay4 (F := F)))
  | n + 1, h => (physStep (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (sums c n (Nat.lt_of_succ_lt h)).1,
                 icStep (iblk m c 6 ⟨n + 1, h⟩) (iblk m c 7 ⟨n + 1, h⟩) (sums c n (Nat.lt_of_succ_lt h)).2)

/-- What the outputs' staging buffers hold after point `n` is the running sums: by induction on the point. -/
theorem outsAt_eq (c : Dev nD) : ∀ (n : ℕ) (h : n < cfg0.N), outsAt0 m c n h = sums m c n h
  | 0, h => by
    rw [outsAt0_zero m c ⟨0, h⟩ rfl, out0_A_8_eq, out0_A_9_eq]
    rfl
  | n + 1, h => by
    rw [outsAt0_succ m c ⟨n + 1, h⟩ (Nat.succ_ne_zero n), out0_B_8_eq, out0_B_9_eq]
    show (physStep (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (outsAt0 m c n (Nat.lt_of_succ_lt h)).1,
          icStep (iblk m c 6 ⟨n + 1, h⟩) (iblk m c 7 ⟨n + 1, h⟩) (outsAt0 m c n (Nat.lt_of_succ_lt h)).2) = _
    rw [outsAt_eq c n]
    rfl

theorem h47 : 47 < cfg0.N := by rw [N48]; decide

/-- The results: the running sums after the last point, as contents of the two result arrays. -/
abbrev result8 (c : Dev nD) : Buf (Elt F) ((c : Thread nD τ).loc main_v0_0) := (sums m c 47 h47).1
abbrev result9 (c : Dev nD) : Buf (Elt F) ((c : Thread nD τ).loc main_v0_1) := (sums m c 47 h47).2

/-- The one write-back of result 0, after point 47, writes the running sum: the block is the whole one-cell array. -/
theorem flushed_eq_8 (c : Dev nD) (t : Fin cfg0.N) (hf : (cfg0.win 8).flush t = true) :
    (dats m 0 c).flushed 8 t = ((cfg0.win 8).blk t).view.read (Elt F) (result8 m c) := by
  have hN : t.val < 48 := lt_of_lt_of_eq t.isLt N48
  have ht : t.val = 47 := by have := (flush0_8 t).mp hf; omega
  obtain rfl : t = ⟨47, h47⟩ := Fin.ext ht
  show (cfg0.win 8).cut (grid0.coords ⟨47, h47⟩) ((dats m 0 c).after 8 ⟨47, h47⟩) = _
  rw [after0_8, outsAt_eq]
  have hz' : (fun a => win0_8.index ⟨47, h47⟩ a * main_v0_0.ty.shape.size a) = fun _ => 0 := funext fun a => by fin_cases a <;> decide
  exact (Memref.read_access_unit_zero (Elt F) main_v0_0 hz' (fun a => by rw [congrFun hz' a]; simp) (result8 m c)).symm

/-- So result 0's array ends holding the running sum after point 47. -/
theorem final_8 (c : Dev nD) : (dats m 0 c).arrAt 8 cfg0.N = result8 m c :=
  (dats m 0 c).arrAt_eq_of_cover 8 (result8 m c) (flushed_eq_8 m c) fun i =>
    ⟨⟨47, h47⟩, (flush0_8 ⟨47, h47⟩).mpr rfl, by
      show i ∈ ((View.whole main_v0_0).slice (win0_8.rect ⟨47, h47⟩)).set
      rw [View.set_slice_whole, Rect.mem_set_unit]
      intro a
      have h0 : (i 0 : Nat) < 1 := (i 0).isLt
      have h1 : (i 1 : Nat) < 1 := (i 1).isLt
      match a with
      | ⟨0, _⟩ => show win0_8.index ⟨47, h47⟩ 0 * win0_8.size 0 ≤ (i 0 : Nat) ∧ (i 0 : Nat) < win0_8.index ⟨47, h47⟩ 0 * win0_8.size 0 + win0_8.xsize (grid0.coords ⟨47, h47⟩) 0
                  rw [show win0_8.index ⟨47, h47⟩ 0 * win0_8.size 0 = 0 from by decide +kernel, show win0_8.xsize (grid0.coords ⟨47, h47⟩) 0 = 1 from by decide +kernel]; omega
      | ⟨1, _⟩ => show win0_8.index ⟨47, h47⟩ 1 * win0_8.size 1 ≤ (i 1 : Nat) ∧ (i 1 : Nat) < win0_8.index ⟨47, h47⟩ 1 * win0_8.size 1 + win0_8.xsize (grid0.coords ⟨47, h47⟩) 1
                  rw [show win0_8.index ⟨47, h47⟩ 1 * win0_8.size 1 = 0 from by decide +kernel, show win0_8.xsize (grid0.coords ⟨47, h47⟩) 1 = 1 from by decide +kernel]; omega⟩

/-- The one write-back of result 1, after point 47, writes the running sum: the block is the whole one-cell array. -/
theorem flushed_eq_9 (c : Dev nD) (t : Fin cfg0.N) (hf : (cfg0.win 9).flush t = true) :
    (dats m 0 c).flushed 9 t = ((cfg0.win 9).blk t).view.read (Elt F) (result9 m c) := by
  have hN : t.val < 48 := lt_of_lt_of_eq t.isLt N48
  have ht : t.val = 47 := by have := (flush0_9 t).mp hf; omega
  obtain rfl : t = ⟨47, h47⟩ := Fin.ext ht
  show (cfg0.win 9).cut (grid0.coords ⟨47, h47⟩) ((dats m 0 c).after 9 ⟨47, h47⟩) = _
  rw [after0_9, outsAt_eq]
  have hz' : (fun a => win0_9.index ⟨47, h47⟩ a * main_v0_1.ty.shape.size a) = fun _ => 0 := funext fun a => by fin_cases a <;> decide
  exact (Memref.read_access_unit_zero (Elt F) main_v0_1 hz' (fun a => by rw [congrFun hz' a]; simp) (result9 m c)).symm

/-- So result 1's array ends holding the running sum after point 47. -/
theorem final_9 (c : Dev nD) : (dats m 0 c).arrAt 9 cfg0.N = result9 m c :=
  (dats m 0 c).arrAt_eq_of_cover 9 (result9 m c) (flushed_eq_9 m c) fun i =>
    ⟨⟨47, h47⟩, (flush0_9 ⟨47, h47⟩).mpr rfl, by
      show i ∈ ((View.whole main_v0_1).slice (win0_9.rect ⟨47, h47⟩)).set
      rw [View.set_slice_whole, Rect.mem_set_unit]
      intro a
      have h0 : (i 0 : Nat) < 1 := (i 0).isLt
      have h1 : (i 1 : Nat) < 1 := (i 1).isLt
      match a with
      | ⟨0, _⟩ => show win0_9.index ⟨47, h47⟩ 0 * win0_9.size 0 ≤ (i 0 : Nat) ∧ (i 0 : Nat) < win0_9.index ⟨47, h47⟩ 0 * win0_9.size 0 + win0_9.xsize (grid0.coords ⟨47, h47⟩) 0
                  rw [show win0_9.index ⟨47, h47⟩ 0 * win0_9.size 0 = 0 from by decide +kernel, show win0_9.xsize (grid0.coords ⟨47, h47⟩) 0 = 1 from by decide +kernel]; omega
      | ⟨1, _⟩ => show win0_9.index ⟨47, h47⟩ 1 * win0_9.size 1 ≤ (i 1 : Nat) ∧ (i 1 : Nat) < win0_9.index ⟨47, h47⟩ 1 * win0_9.size 1 + win0_9.xsize (grid0.coords ⟨47, h47⟩) 1
                  rw [show win0_9.index ⟨47, h47⟩ 1 * win0_9.size 1 = 0 from by decide +kernel, show win0_9.xsize (grid0.coords ⟨47, h47⟩) 1 = 1 from by decide +kernel]; omega⟩

end Cert.KernelIdeal.Hand

end
-- ==== Proof.KernelIdeal.Blocks.lean ====
/-
  The windows' blocks read at coordinates.

  Grid point t is batch t / 24, depth tile t % 24. The six eight-plane windows at point t hold planes
  8 (t % 24) .. 8 (t % 24) + 7 of batch t / 24 of their arrays. The two one-plane windows on the first array hold
  the plane just before that block (when the tile is not the first) and just after it (when it is not the last);
  at the array's two ends their index is clamped and the body does not use what they hold.
-/
import proofs.«151788_j37855841747580_1_alg».proof.Proof.KernelIdeal.Shared
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem idx_main0 : ∀ t : Fin cfg0.N, win0_0.index t 0 = t.val / 24 ∧ win0_0.index t 1 = 0 ∧ win0_0.index t 2 = t.val % 24
    ∧ win0_0.index t 3 = 0 ∧ win0_0.index t 4 = 0 :=
  (by decide +kernel : ∀ t : Fin grid0.N, _)
theorem idx_main3 : ∀ t : Fin cfg0.N, win0_3.index t 0 = t.val / 24 ∧ win0_3.index t 1 = 0 ∧ win0_3.index t 2 = t.val % 24
    ∧ win0_3.index t 3 = 0 ∧ win0_3.index t 4 = 0 :=
  (by decide +kernel : ∀ t : Fin grid0.N, _)
theorem idx_main4 : ∀ t : Fin cfg0.N, win0_4.index t 0 = t.val / 24 ∧ win0_4.index t 1 = 0 ∧ win0_4.index t 2 = t.val % 24
    ∧ win0_4.index t 3 = 0 ∧ win0_4.index t 4 = 0 :=
  (by decide +kernel : ∀ t : Fin grid0.N, _)
theorem idx_main5 : ∀ t : Fin cfg0.N, win0_5.index t 0 = t.val / 24 ∧ win0_5.index t 1 = 0 ∧ win0_5.index t 2 = t.val % 24
    ∧ win0_5.index t 3 = 0 ∧ win0_5.index t 4 = 0 :=
  (by decide +kernel : ∀ t : Fin grid0.N, _)
theorem idx_main6 : ∀ t : Fin cfg0.N, win0_6.index t 0 = t.val / 24 ∧ win0_6.index t 1 = 0 ∧ win0_6.index t 2 = t.val % 24
    ∧ win0_6.index t 3 = 0 ∧ win0_6.index t 4 = 0 :=
  (by decide +kernel : ∀ t : Fin grid0.N, _)
theorem idx_main7 : ∀ t : Fin cfg0.N, win0_7.index t 0 = t.val / 24 ∧ win0_7.index t 1 = 0 ∧ win0_7.index t 2 = t.val % 24
    ∧ win0_7.index t 3 = 0 ∧ win0_7.index t 4 = 0 :=
  (by decide +kernel : ∀ t : Fin grid0.N, _)
theorem idx_before : ∀ t : Fin cfg0.N, win0_1.index t 0 = t.val / 24 ∧ win0_1.index t 1 = 0 ∧ (t.val % 24 ≠ 0 → win0_1.index t 2 = 8 * (t.val % 24) - 1)
    ∧ win0_1.index t 3 = 0 ∧ win0_1.index t 4 = 0 :=
  (by decide +kernel : ∀ t : Fin grid0.N, _)
theorem idx_after : ∀ t : Fin cfg0.N, win0_2.index t 0 = t.val / 24 ∧ win0_2.index t 1 = 0 ∧ (t.val % 24 ≠ 23 → win0_2.index t 2 = 8 * (t.val % 24) + 8)
    ∧ win0_2.index t 3 = 0 ∧ win0_2.index t 4 = 0 :=
  (by decide +kernel : ∀ t : Fin grid0.N, _)
/-- The grid coordinates of point t. -/
theorem coords_eq : ∀ t : Fin cfg0.N, (grid0.coords t 0).val = t.val / 24 ∧ (grid0.coords t 1).val = t.val % 24 :=
  (by decide +kernel : ∀ t : Fin grid0.N, _)

theorem tdiv (t : Fin cfg0.N) : t.val / 24 < 2 := by have := lt_of_lt_of_eq t.isLt (show cfg0.N = 48 from N_0); omega
theorem tplane (t : Fin cfg0.N) (d : Fin 8) : 8 * (t.val % 24) + d.val < 192 := by have := d.isLt; omega

/-- Entry (d, h, w) of window 0's block at point t. -/
theorem iblk0_apply (c : Dev nD) (t : Fin cfg0.N) (d : Fin 8) (h w : Fin 192) :
    iblk m c 0 t (ix5 (0 : Fin 1) (0 : Fin 1) d h w)
      = V m c main_arg0 (ix5 (⟨t.val / 24, tdiv t⟩ : Fin 2) (0 : Fin 1) (⟨8 * (t.val % 24) + d.val, tplane t d⟩ : Fin 192) h w) := by
  obtain ⟨e0, e1, e2, e3, e4⟩ := idx_main0 t
  unfold iblk
  rw [View.read_apply]
  show V m c main_arg0 _ = V m c main_arg0 _
  congr 1
  funext a
  apply Fin.ext
  match a with
  | ⟨0, _⟩ => show win0_0.index t 0 * 1 + 1 * 0 = t.val / 24; rw [e0]; omega
  | ⟨1, _⟩ => show win0_0.index t 1 * 1 + 1 * 0 = 0; rw [e1]
  | ⟨2, _⟩ => show win0_0.index t 2 * 8 + 1 * d.val = 8 * (t.val % 24) + d.val; rw [e2]; omega
  | ⟨3, _⟩ => show win0_0.index t 3 * 192 + 1 * h.val = h.val; rw [e3]; omega
  | ⟨4, _⟩ => show win0_0.index t 4 * 192 + 1 * w.val = w.val; rw [e4]; omega

/-- Entry (d, h, w) of window 3's block at point t. -/
theorem iblk3_apply (c : Dev nD) (t : Fin cfg0.N) (d : Fin 8) (h w : Fin 192) :
    iblk m c 3 t (ix5 (0 : Fin 1) (0 : Fin 1) d h w)
      = V m c main_arg1 (ix5 (⟨t.val / 24, tdiv t⟩ : Fin 2) (0 : Fin 1) (⟨8 * (t.val % 24) + d.val, tplane t d⟩ : Fin 192) h w) := by
  obtain ⟨e0, e1, e2, e3, e4⟩ := idx_main3 t
  unfold iblk
  rw [View.read_apply]
  show V m c main_arg1 _ = V m c main_arg1 _
  congr 1
  funext a
  apply Fin.ext
  match a with
  | ⟨0, _⟩ => show win0_3.index t 0 * 1 + 1 * 0 = t.val / 24; rw [e0]; omega
  | ⟨1, _⟩ => show win0_3.index t 1 * 1 + 1 * 0 = 0; rw [e1]
  | ⟨2, _⟩ => show win0_3.index t 2 * 8 + 1 * d.val = 8 * (t.val % 24) + d.val; rw [e2]; omega
  | ⟨3, _⟩ => show win0_3.index t 3 * 192 + 1 * h.val = h.val; rw [e3]; omega
  | ⟨4, _⟩ => show win0_3.index t 4 * 192 + 1 * w.val = w.val; rw [e4]; omega

/-- Entry (d, h, w) of window 4's block at point t. -/
theorem iblk4_apply (c : Dev nD) (t : Fin cfg0.N) (d : Fin 8) (h w : Fin 192) :
    iblk m c 4 t (ix5 (0 : Fin 1) (0 : Fin 1) d h w)
      = V m c main_arg2 (ix5 (⟨t.val / 24, tdiv t⟩ : Fin 2) (0 : Fin 1) (⟨8 * (t.val % 24) + d.val, tplane t d⟩ : Fin 192) h w) := by
  obtain ⟨e0, e1, e2, e3, e4⟩ := idx_main4 t
  unfold iblk
  rw [View.read_apply]
  show V m c main_arg2 _ = V m c main_arg2 _
  congr 1
  funext a
  apply Fin.ext
  match a with
  | ⟨0, _⟩ => show win0_4.index t 0 * 1 + 1 * 0 = t.val / 24; rw [e0]; omega
  | ⟨1, _⟩ => show win0_4.index t 1 * 1 + 1 * 0 = 0; rw [e1]
  | ⟨2, _⟩ => show win0_4.index t 2 * 8 + 1 * d.val = 8 * (t.val % 24) + d.val; rw [e2]; omega
  | ⟨3, _⟩ => show win0_4.index t 3 * 192 + 1 * h.val = h.val; rw [e3]; omega
  | ⟨4, _⟩ => show win0_4.index t 4 * 192 + 1 * w.val = w.val; rw [e4]; omega

/-- Entry (d, h, w) of window 5's block at point t. -/
theorem iblk5_apply (c : Dev nD) (t : Fin cfg0.N) (d : Fin 8) (h w : Fin 192) :
    iblk m c 5 t (ix5 (0 : Fin 1) (0 : Fin 1) d h w)
      = V m c main_arg3 (ix5 (⟨t.val / 24, tdiv t⟩ : Fin 2) (0 : Fin 1) (⟨8 * (t.val % 24) + d.val, tplane t d⟩ : Fin 192) h w) := by
  obtain ⟨e0, e1, e2, e3, e4⟩ := idx_main5 t
  unfold iblk
  rw [View.read_apply]
  show V m c main_arg3 _ = V m c main_arg3 _
  congr 1
  funext a
  apply Fin.ext
  match a with
  | ⟨0, _⟩ => show win0_5.index t 0 * 1 + 1 * 0 = t.val / 24; rw [e0]; omega
  | ⟨1, _⟩ => show win0_5.index t 1 * 1 + 1 * 0 = 0; rw [e1]
  | ⟨2, _⟩ => show win0_5.index t 2 * 8 + 1 * d.val = 8 * (t.val % 24) + d.val; rw [e2]; omega
  | ⟨3, _⟩ => show win0_5.index t 3 * 192 + 1 * h.val = h.val; rw [e3]; omega
  | ⟨4, _⟩ => show win0_5.index t 4 * 192 + 1 * w.val = w.val; rw [e4]; omega

/-- Entry (d, h, w) of window 6's block at point t. -/
theorem iblk6_apply (c : Dev nD) (t : Fin cfg0.N) (d : Fin 8) (h w : Fin 192) :
    iblk m c 6 t (ix5 (0 : Fin 1) (0 : Fin 1) d h w)
      = V m c main_arg4 (ix5 (⟨t.val / 24, tdiv t⟩ : Fin 2) (0 : Fin 1) (⟨8 * (t.val % 24) + d.val, tplane t d⟩ : Fin 192) h w) := by
  obtain ⟨e0, e1, e2, e3, e4⟩ := idx_main6 t
  unfold iblk
  rw [View.read_apply]
  show V m c main_arg4 _ = V m c main_arg4 _
  congr 1
  funext a
  apply Fin.ext
  match a with
  | ⟨0, _⟩ => show win0_6.index t 0 * 1 + 1 * 0 = t.val / 24; rw [e0]; omega
  | ⟨1, _⟩ => show win0_6.index t 1 * 1 + 1 * 0 = 0; rw [e1]
  | ⟨2, _⟩ => show win0_6.index t 2 * 8 + 1 * d.val = 8 * (t.val % 24) + d.val; rw [e2]; omega
  | ⟨3, _⟩ => show win0_6.index t 3 * 192 + 1 * h.val = h.val; rw [e3]; omega
  | ⟨4, _⟩ => show win0_6.index t 4 * 192 + 1 * w.val = w.val; rw [e4]; omega

/-- Entry (d, h, w) of window 7's block at point t. -/
theorem iblk7_apply (c : Dev nD) (t : Fin cfg0.N) (d : Fin 8) (h w : Fin 192) :
    iblk m c 7 t (ix5 (0 : Fin 1) (0 : Fin 1) d h w)
      = V m c main_arg5 (ix5 (⟨t.val / 24, tdiv t⟩ : Fin 2) (0 : Fin 1) (⟨8 * (t.val % 24) + d.val, tplane t d⟩ : Fin 192) h w) := by
  obtain ⟨e0, e1, e2, e3, e4⟩ := idx_main7 t
  unfold iblk
  rw [View.read_apply]
  show V m c main_arg5 _ = V m c main_arg5 _
  congr 1
  funext a
  apply Fin.ext
  match a with
  | ⟨0, _⟩ => show win0_7.index t 0 * 1 + 1 * 0 = t.val / 24; rw [e0]; omega
  | ⟨1, _⟩ => show win0_7.index t 1 * 1 + 1 * 0 = 0; rw [e1]
  | ⟨2, _⟩ => show win0_7.index t 2 * 8 + 1 * d.val = 8 * (t.val % 24) + d.val; rw [e2]; omega
  | ⟨3, _⟩ => show win0_7.index t 3 * 192 + 1 * h.val = h.val; rw [e3]; omega
  | ⟨4, _⟩ => show win0_7.index t 4 * 192 + 1 * w.val = w.val; rw [e4]; omega

/-- Entry (h, w) of the plane before the block, when the tile is not the first. -/
theorem iblk1_apply (c : Dev nD) (t : Fin cfg0.N) (ht : t.val % 24 ≠ 0) (h w : Fin 192) :
    iblk m c 1 t (ix5 (0 : Fin 1) (0 : Fin 1) (0 : Fin 1) h w)
      = V m c main_arg0 (ix5 (⟨t.val / 24, tdiv t⟩ : Fin 2) (0 : Fin 1) (⟨8 * (t.val % 24) - 1, by omega⟩ : Fin 192) h w) := by
  obtain ⟨e0, e1, e2, e3, e4⟩ := idx_before t
  unfold iblk
  rw [View.read_apply]
  show V m c main_arg0 _ = V m c main_arg0 _
  congr 1
  funext a
  apply Fin.ext
  match a with
  | ⟨0, _⟩ => show win0_1.index t 0 * 1 + 1 * 0 = t.val / 24; rw [e0]; omega
  | ⟨1, _⟩ => show win0_1.index t 1 * 1 + 1 * 0 = 0; rw [e1]
  | ⟨2, _⟩ => show win0_1.index t 2 * 1 + 1 * 0 = 8 * (t.val % 24) - 1; rw [e2 ht]; omega
  | ⟨3, _⟩ => show win0_1.index t 3 * 192 + 1 * h.val = h.val; rw [e3]; omega
  | ⟨4, _⟩ => show win0_1.index t 4 * 192 + 1 * w.val = w.val; rw [e4]; omega

/-- Entry (h, w) of the plane after the block, when the tile is not the last. -/
theorem iblk2_apply (c : Dev nD) (t : Fin cfg0.N) (ht : t.val % 24 ≠ 23) (h w : Fin 192) :
    iblk m c 2 t (ix5 (0 : Fin 1) (0 : Fin 1) (0 : Fin 1) h w)
      = V m c main_arg0 (ix5 (⟨t.val / 24, tdiv t⟩ : Fin 2) (0 : Fin 1) (⟨8 * (t.val % 24) + 8, by omega⟩ : Fin 192) h w) := by
  obtain ⟨e0, e1, e2, e3, e4⟩ := idx_after t
  unfold iblk
  rw [View.read_apply]
  show V m c main_arg0 _ = V m c main_arg0 _
  congr 1
  funext a
  apply Fin.ext
  match a with
  | ⟨0, _⟩ => show win0_2.index t 0 * 1 + 1 * 0 = t.val / 24; rw [e0]; omega
  | ⟨1, _⟩ => show win0_2.index t 1 * 1 + 1 * 0 = 0; rw [e1]
  | ⟨2, _⟩ => show win0_2.index t 2 * 1 + 1 * 0 = 8 * (t.val % 24) + 8; rw [e2 ht]; omega
  | ⟨3, _⟩ => show win0_2.index t 3 * 192 + 1 * h.val = h.val; rw [e3]; omega
  | ⟨4, _⟩ => show win0_2.index t 4 * 192 + 1 * w.val = w.val; rw [e4]; omega

end Cert.KernelIdeal.Hand

end
-- ==== Proof.Spec.lean ====
/-
  The pure specification of the three results, over the literal shape f32[2, 1, 192, 192, 192] and the extended reals:
  the Fisher–Kolmogorov residual  dudt − D·lap(u) − (ρ·u)·(1 − u)  with D = 0.001 + σ(rawD)·0.019 and
  ρ = 0.012 + σ(rawρ)·0.022, lap the zero-boundary 7-point stencil; the physics loss is the mean of its square, the
  initial-condition loss the mean of (u0 − t0)², the total 10·ic + 1·phys. Every float literal stays the word it is
  printed as: the same word stands on both sides of the comparison and is never evaluated.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The arrays' shape. -/
abbrev S5 : Shape := ⟨5, ![2, 1, 192, 192, 192]⟩

/-! ## The literals, as printed -/

/-- 6.0 -/
def c6 : EReal := Ideal.ofBits .f32 0x40C00000#32
/-- 0.019 = D_MAX − D_MIN -/
def c019 : EReal := Ideal.ofBits .f32 0x3C9BA5E3#32
/-- 0.001 = D_MIN -/
def c001 : EReal := Ideal.ofBits .f32 0x3A83126F#32
/-- 0.022 = RHO_MAX − RHO_MIN -/
def c022 : EReal := Ideal.ofBits .f32 0x3CB43958#32
/-- 0.012 = RHO_MIN -/
def c012 : EReal := Ideal.ofBits .f32 0x3C449BA6#32
/-- 1.0 -/
def c1 : EReal := Ideal.ofBits .f32 0x3F800000#32
/-- 14155776.0 = 2·1·192³, the number of entries -/
def cN : EReal := Ideal.ofBits .f32 0x4B580000#32
/-- 10.0 -/
def c10 : EReal := Ideal.ofBits .f32 0x41200000#32

/-- The word of 1.0 denotes the extended real 1. -/
theorem ofBits_one_f32 : Ideal.ofBits .f32 0x3F800000#32 = 1 := by
  simp [Ideal.ofBits, Ideal.ieee, -EReal.coe_mul]; norm_num

theorem c1_eq : c1 = 1 := ofBits_one_f32

/-! ## The stencil: six neighbours with the zero boundary -/

section Stencil
variable (u : S5.Idx → EReal) (b : Fin 2) (d h w : Fin 192)

/-- The entry before along the depth axis, zero at the boundary. -/
def dPrev : EReal :=
  if d.val = 0 then 0 else u (ix5 b (0 : Fin 1) (⟨d.val - 1, by have := d.isLt; omega⟩ : Fin 192) h w)
/-- The entry after along the depth axis, zero at the boundary. -/
def dNext : EReal :=
  if hd : d.val = 191 then 0 else u (ix5 b (0 : Fin 1) (⟨d.val + 1, by have := d.isLt; omega⟩ : Fin 192) h w)
/-- The entry before along the height axis, zero at the boundary. -/
def hPrev : EReal :=
  if h.val = 0 then 0 else u (ix5 b (0 : Fin 1) d (⟨h.val - 1, by have := h.isLt; omega⟩ : Fin 192) w)
/-- The entry after along the height axis, zero at the boundary. -/
def hNext : EReal :=
  if hh : h.val = 191 then 0 else u (ix5 b (0 : Fin 1) d (⟨h.val + 1, by have := h.isLt; omega⟩ : Fin 192) w)
/-- The entry before along the width axis, zero at the boundary. -/
def wPrev : EReal :=
  if w.val = 0 then 0 else u (ix5 b (0 : Fin 1) d h (⟨w.val - 1, by have := w.isLt; omega⟩ : Fin 192))
/-- The entry after along the width axis, zero at the boundary. -/
def wNext : EReal :=
  if hw : w.val = 191 then 0 else u (ix5 b (0 : Fin 1) d h (⟨w.val + 1, by have := w.isLt; omega⟩ : Fin 192))

/-- The 7-point Laplacian with the zero boundary, summed in the order
    ((((dPrev + dNext) + hNext) + hPrev) + wNext) + wPrev, minus 6·u. -/
def lap : EReal :=
  (((((dPrev u b d h w + dNext u b d h w) + hNext u b d h w) + hPrev u b d h w) + wNext u b d h w) + wPrev u b d h w)
    - c6 * u (ix5 b (0 : Fin 1) d h w)

end Stencil

/-- The Laplacian at an index, by the index's coordinates. -/
def lapAt (u : S5.Idx → EReal) (i : S5.Idx) : EReal := lap u (i 0) (i 2) (i 3) (i 4)

theorem lapAt_ix5 (u : S5.Idx → EReal) (b : Fin 2) (z : Fin 1) (d h w : Fin 192) :
    lapAt u (ix5 b z d h w) = lap u b d h w := rfl

/-! ## The residual, the two summands, the losses -/

/-- The logistic function 1 / (1 + e⁻ˣ) on the extended reals. -/
def sig (x : EReal) : EReal := Ideal.logistic x

/-- The squared residual at an index, in the association both programs print:
    r = (dudt − (0.001 + σ(rawD)·0.019)·lap) − ((0.012 + σ(rawρ)·0.022)·u)·(1 − u), then r·r. -/
def resid (u dudt rawD rawrho : S5.Idx → EReal) (i : S5.Idx) : EReal :=
  ((dudt i - (c001 + sig (rawD i) * c019) * lapAt u i) - ((c012 + sig (rawrho i) * c022) * u i) * (c1 - u i))
    * ((dudt i - (c001 + sig (rawD i) * c019) * lapAt u i) - ((c012 + sig (rawrho i) * c022) * u i) * (c1 - u i))

/-- The squared initial-condition error at an index. -/
def ic (u0 t0 : S5.Idx → EReal) (i : S5.Idx) : EReal := (u0 i - t0 i) * (u0 i - t0 i)

/-- The sum of the squared residuals over every index. -/
def sumPhys (u dudt rawD rawrho : S5.Idx → EReal) : EReal := ∑ i : S5.Idx, resid u dudt rawD rawrho i
/-- The sum of the squared initial-condition errors over every index. -/
def sumIc (u0 t0 : S5.Idx → EReal) : EReal := ∑ i : S5.Idx, ic u0 t0 i

/-- loss_ic: the mean of the squared initial-condition errors (the quotient is the extended reals' `Ideal.div`). -/
def lossIc (u0 t0 : S5.Idx → EReal) : EReal := Ideal.div (sumIc u0 t0) cN
/-- loss_physics: the mean of the squared residuals. -/
def lossPhys (u dudt rawD rawrho : S5.Idx → EReal) : EReal := Ideal.div (sumPhys u dudt rawD rawrho) cN
/-- total = 10·loss_ic + 1·loss_physics. -/
def total (u dudt rawD rawrho u0 t0 : S5.Idx → EReal) : EReal :=
  c10 * lossIc u0 t0 + c1 * lossPhys u dudt rawD rawrho

end Cert.Spec

end
-- ==== Proof.KernelTile.lean ====
/-
  The kernel body's arithmetic at one grid point, on the extended reals: the two accumulators each gain the sum, over the
  point's 8 × 192 × 192 tile, of the specification's summand — the squared Fisher–Kolmogorov residual (the six shifted
  copies of the tile, zero-filled at the array's faces and fed by the neighbouring planes at the tile's, are the six
  neighbours) and the squared initial-condition error. The three successive one-axis sums are the tile's total.
-/
import proofs.«151788_j37855841747580_1_alg».proof.Proof.Gen.KernelIdeal.Skeleton
import proofs.«151788_j37855841747580_1_alg».proof.Proof.Spec
import Idealize.ShloMosaic.Lib.Pipeline.Value
import Idealize.ShloMosaic.Lib.ValueLayout
import Idealize.ShloMosaic.PureOps.Ideal.Laws

noncomputable section

open scoped BigOperators

namespace Cert.KernelValue

open Cert.KernelIdeal Cert.KernelIdeal.Gen Idealize.ShloMosaic Idealize.ShloMosaic.ValueIdx

/-! ## Shape casts of this kernel, by coordinates -/

section Casts
variable {α : Type}

/-- [1, 1, 8, 192, 192] viewed [8, 192, 192]. -/
theorem cast_block (x : S1x1x8x192x192.Idx → α) (hc : S1x1x8x192x192.ShapeCasts S8x192x192) (d : Fin 8) (h w : Fin 192) :
    shapeCast S8x192x192 x hc (ix3 d h w) = x (ix5 (0 : Fin 1) (0 : Fin 1) d h w) :=
  shapeCast_apply x hc _ _ (by
    rw [Shape.rowMajor_val_five, Shape.rowMajor_val_three]
    show ((((0 * 1 + 0) * 8 + d.val) * 192 + h.val) * 192 + w.val) = (d.val * 192 + h.val) * 192 + w.val
    omega)

/-- [1, 1, 1, 192, 192] viewed [192, 192]. -/
theorem cast_plane (x : S1x1x1x192x192.Idx → α) (hc : S1x1x1x192x192.ShapeCasts S192x192) (h w : Fin 192) :
    shapeCast S192x192 x hc (ix2 h w) = x (ix5 (0 : Fin 1) (0 : Fin 1) (0 : Fin 1) h w) :=
  shapeCast_apply x hc _ _ (by
    rw [Shape.rowMajor_val_five, Shape.rowMajor_val_two]
    show ((((0 * 1 + 0) * 1 + 0) * 192 + h.val) * 192 + w.val) = h.val * 192 + w.val
    omega)

/-- [8, 192] viewed [8, 192, 1]. -/
theorem cast_col (x : S8x192.Idx → α) (hc : S8x192.ShapeCasts S8x192x1) (d : Fin 8) (h : Fin 192) (z : Fin 1) :
    shapeCast S8x192x1 x hc (ix3 d h z) = x (ix2 d h) :=
  shapeCast_apply x hc _ _ (by
    rw [Shape.rowMajor_val_three, Shape.rowMajor_val_two]
    show d.val * 192 + h.val = (d.val * 192 + h.val) * 1 + z.val
    omega)

/-- [8, 1] viewed [8, 1, 1]. -/
theorem cast_col1 (x : S8x1.Idx → α) (hc : S8x1.ShapeCasts S8x1x1) (d : Fin 8) (z z' : Fin 1) :
    shapeCast S8x1x1 x hc (ix3 d z z') = x (ix2 d z) :=
  shapeCast_apply x hc _ _ (by
    rw [Shape.rowMajor_val_three, Shape.rowMajor_val_two]
    show d.val * 1 + z.val = (d.val * 1 + z.val) * 1 + z'.val
    omega)

end Casts

/-! ## The three one-axis sums are the tile's total -/

theorem lift_w (hr : S8x192x192.Reduces [2] S8x192) (d : Fin 8) (h w : Fin 192) : hr.lift (ix2 d h) w = ix3 d h w := by
  funext c
  apply Fin.ext
  show hr.liftVal (ix2 d h) w.val c = (ix3 d h w c).val
  unfold Shape.Reduces.liftVal
  match c with
  | ⟨0, _⟩ => rfl
  | ⟨1, _⟩ => rfl
  | ⟨2, _⟩ => rfl

theorem lift_h (hr : S8x192x1.Reduces [1] S8x1) (d : Fin 8) (z : Fin 1) (h : Fin 192) : hr.lift (ix2 d z) h = ix3 d h z := by
  funext c
  apply Fin.ext
  show hr.liftVal (ix2 d z) h.val c = (ix3 d h z c).val
  unfold Shape.Reduces.liftVal
  match c with
  | ⟨0, _⟩ => rfl
  | ⟨1, _⟩ => rfl
  | ⟨2, _⟩ => rfl

theorem lift_d (hr : S8x1x1.Reduces [0] S1x1) (z z' : Fin 1) (d : Fin 8) : hr.lift (ix2 z z') d = ix3 d z z' := by
  funext c
  apply Fin.ext
  show hr.liftVal (ix2 z z') d.val c = (ix3 d z z' c).val
  unfold Shape.Reduces.liftVal
  match c with
  | ⟨0, _⟩ => rfl
  | ⟨1, _⟩ => rfl
  | ⟨2, _⟩ => rfl

/-- The sum along the columns, then along the rows, then along the planes (the unit axes the casts put back between them)
    is the sum over the whole 8 × 192 × 192 tile. -/
theorem tile_total (v : FVec Ideal S8x192x192 .f32) (i : S1x1.Idx) :
    multiReduction (F := Ideal) .add [0] S1x1
      (shapeCast S8x1x1
        (multiReduction (F := Ideal) .add [1] S8x1
          (shapeCast S8x192x1
            (multiReduction (F := Ideal) .add [2] S8x192 v 0x00000000#32 reduces_S8x192x192_S8x192 (.inl rfl) rfl)
            shapeCasts_S8x192_S8x192x1)
          0x00000000#32 reduces_S8x192x1_S8x1 (.inl rfl) rfl)
        shapeCasts_S8x1_S8x1x1)
      0x00000000#32 reduces_S8x1x1_S1x1 (.inl rfl) rfl i
    = ∑ d : Fin 8, ∑ h : Fin 192, ∑ w : Fin 192, v (ix3 d h w) := by
  obtain ⟨z, z', rfl⟩ : ∃ (z z' : Fin 1), i = ix2 z z' := ⟨i 0, i 1, eq_ix2 i⟩
  refine (Ideal.multiReduction_add_single _ _ reduces_S8x1x1_S1x1 _ _ _).trans ?_
  refine Finset.sum_congr rfl (fun d _ => ?_)
  refine (congrArg _ (lift_d reduces_S8x1x1_S1x1 z z' d)).trans ?_
  refine (cast_col1 _ _ d z z').trans ?_
  refine (Ideal.multiReduction_add_single _ _ reduces_S8x192x1_S8x1 _ _ _).trans ?_
  refine Finset.sum_congr rfl (fun h _ => ?_)
  refine (congrArg _ (lift_h reduces_S8x192x1_S8x1 d z h)).trans ?_
  refine (cast_col _ _ d h z).trans ?_
  refine (Ideal.multiReduction_add_single _ _ reduces_S8x192x192_S8x192 _ _ _).trans ?_
  refine Finset.sum_congr rfl (fun w _ => ?_)
  exact congrArg v (lift_w reduces_S8x192x192_S8x192 d h w)

/-- The accumulator's new value: its old value plus the tile's total. -/
theorem acc_step (v : FVec Ideal S8x192x192 .f32) (acc : Vec Ideal S1x1 .f32) :
    k0_pay1 (F := Ideal)
      (shapeCast S8x1x1
        (multiReduction (F := Ideal) .add [1] S8x1
          (shapeCast S8x192x1
            (multiReduction (F := Ideal) .add [2] S8x192 v 0x00000000#32 reduces_S8x192x192_S8x192 (.inl rfl) rfl)
            shapeCasts_S8x192_S8x192x1)
          0x00000000#32 reduces_S8x192x1_S8x1 (.inl rfl) rfl)
        shapeCasts_S8x1_S8x1x1) acc
    = fun _ => acc (ix2 (0 : Fin 1) (0 : Fin 1)) + ∑ d : Fin 8, ∑ h : Fin 192, ∑ w : Fin 192, v (ix3 d h w) := by
  funext i
  unfold k0_pay1
  dsimp only
  rw [addf_apply, shapeCast_self, shapeCast_shapeCast, tile_total]
  obtain ⟨z, z', rfl⟩ : ∃ (z z' : Fin 1), i = ix2 z z' := ⟨i 0, i 1, eq_ix2 i⟩
  obtain rfl : z = 0 := Subsingleton.elim _ _
  obtain rfl : z' = 0 := Subsingleton.elim _ _
  rfl

/-! ## The zero payloads -/

theorem pay3_zero : k0_pay3 (F := Ideal) = fun _ => 0 := by
  funext i
  show Ideal.ofBits .f32 0x00000000#32 = 0
  exact Ideal.ofBits_zero_f32

theorem pay4_zero : k0_pay4 (F := Ideal) = fun _ => 0 := by
  funext i
  show Ideal.ofBits .f32 0x00000000#32 = 0
  exact Ideal.ofBits_zero_f32

/-! ## The initial-condition accumulator at a grid point -/

/-- With the two blocks the arrays' tile (batch `b`, planes 8·j … 8·j + 7), the accumulator gains the tile's sum of the
    squared initial-condition errors. -/
theorem ic_step (u0 t0 : Spec.S5.Idx → EReal) (b : Fin 2) (j : Fin 24)
    (x6 x7 : Vec Ideal S1x1x8x192x192 .f32) (acc : Vec Ideal S1x1 .f32)
    (h6 : ∀ (d : Fin 8) (h w : Fin 192), x6 (ix5 (0 : Fin 1) (0 : Fin 1) d h w)
      = u0 (ix5 b (0 : Fin 1) (⟨8 * j.val + d.val, by have := j.isLt; have := d.isLt; omega⟩ : Fin 192) h w))
    (h7 : ∀ (d : Fin 8) (h w : Fin 192), x7 (ix5 (0 : Fin 1) (0 : Fin 1) d h w)
      = t0 (ix5 b (0 : Fin 1) (⟨8 * j.val + d.val, by have := j.isLt; have := d.isLt; omega⟩ : Fin 192) h w)) :
    k0_pay2 (F := Ideal) x6 x7 acc
      = fun _ => acc (ix2 (0 : Fin 1) (0 : Fin 1)) + ∑ d : Fin 8, ∑ h : Fin 192, ∑ w : Fin 192,
          Spec.ic u0 t0 (ix5 b (0 : Fin 1) (⟨8 * j.val + d.val, by have := j.isLt; have := d.isLt; omega⟩ : Fin 192) h w) := by
  funext i
  unfold k0_pay2
  dsimp only
  rw [addf_apply, shapeCast_self, shapeCast_shapeCast, tile_total]
  obtain ⟨z, z', rfl⟩ : ∃ (z z' : Fin 1), i = ix2 z z' := ⟨i 0, i 1, eq_ix2 i⟩
  obtain rfl : z = 0 := Subsingleton.elim _ _
  obtain rfl : z' = 0 := Subsingleton.elim _ _
  refine congrArg (acc (ix2 (0 : Fin 1) (0 : Fin 1)) + ·) ?_
  refine Finset.sum_congr rfl (fun d _ => Finset.sum_congr rfl (fun h _ => Finset.sum_congr rfl (fun w _ => ?_)))
  rw [mulf_apply, subf_apply, cast_block, cast_block, h6, h7]
  rfl

end Cert.KernelValue

end
-- ==== Proof.KernelPhys.lean ====
/-
  The physics accumulator at one grid point. The tile of u is an 8 × 192 × 192 block; its six shifted copies — along the
  rows and columns filled with zero at the end the shift leaves open, along the planes fed by the neighbouring tile's
  plane or by zero at the array's two faces — are the six neighbours of the zero-boundary stencil, so the body's
  pointwise arithmetic is the specification's squared residual and the accumulator gains the tile's sum of it.
-/
import proofs.«151788_j37855841747580_1_alg».proof.Proof.KernelTile

noncomputable section

open scoped BigOperators

namespace Cert.KernelValue

open Cert.KernelIdeal Cert.KernelIdeal.Gen Idealize.ShloMosaic Idealize.ShloMosaic.ValueIdx

/-! ## The tile and its zero fills, at an index -/

theorem pay5_at (x0 : Vec Ideal S1x1x8x192x192 .f32) (d : Fin 8) (h w : Fin 192) :
    k0_pay5 (F := Ideal) x0 (ix3 d h w) = x0 (ix5 (0 : Fin 1) (0 : Fin 1) d h w) := by
  unfold k0_pay5
  exact cast_block _ _ d h w

theorem pay6_at (i : S8x1x192.Idx) : k0_pay6 (F := Ideal) i = 0 := by
  show Ideal.ofBits .f32 0x00000000#32 = 0
  exact Ideal.ofBits_zero_f32

theorem pay7_at (i : S8x192x1.Idx) : k0_pay7 (F := Ideal) i = 0 := by
  show Ideal.ofBits .f32 0x00000000#32 = 0
  exact Ideal.ofBits_zero_f32

/-! ## The shifts along the rows and the columns -/

/-- The tile moved one step back along axis 1, zero in the last position. -/
theorem pay10_at (x0 : Vec Ideal S1x1x8x192x192 .f32) (d : Fin 8) (h w : Fin 192) :
    k0_pay10 (F := Ideal) x0 (ix3 d h w)
      = if hh : h.val = 191 then 0 else x0 (ix5 (0 : Fin 1) (0 : Fin 1) d (⟨h.val + 1, by have := h.isLt; omega⟩ : Fin 192) w) := by
  unfold k0_pay10
  try dsimp only
  by_cases hh : h.val = 191
  · rw [dif_pos hh]
    refine (concatenate_pair_apply_right (1 : Fin S8x192x192.rank) _ _ concatenates_S8x191x192_S8x1x192_S8x192x192_d1 (ix3 d h w) rfl rfl
      (ix3 d (0 : Fin 1) w) (fun c hc => ?_) ?_).trans (pay6_at _)
    · match c with
      | ⟨0, _⟩ => rfl
      | ⟨1, _⟩ => exact absurd rfl hc
      | ⟨2, _⟩ => rfl
    · show 0 + 191 = h.val; omega
  · rw [dif_neg hh]
    refine (concatenate_pair_apply_left (1 : Fin S8x192x192.rank) _ _ concatenates_S8x191x192_S8x1x192_S8x192x192_d1 (ix3 d h w) rfl
      (ix3 d (⟨h.val, by have := h.isLt; omega⟩ : Fin 191) w) (fun c => ?_)).trans ?_
    · match c with
      | ⟨0, _⟩ => rfl
      | ⟨1, _⟩ => rfl
      | ⟨2, _⟩ => rfl
    · refine (extractStridedSlice_apply ![0, 1, 0] _ slices_S8x192x192_o0_1_0_S8x191x192 (ix3 d (⟨h.val, by have := h.isLt; omega⟩ : Fin 191) w)
        (ix3 d (⟨h.val + 1, by have := h.isLt; omega⟩ : Fin 192) w) (fun a => ?_)).trans (pay5_at x0 _ _ _)
      exact match a with
      | ⟨0, _⟩ => by show d.val = 0 + d.val; omega
      | ⟨1, _⟩ => by show h.val + 1 = 1 + h.val; omega
      | ⟨2, _⟩ => by show w.val = 0 + w.val; omega

/-- The tile moved one step forward along axis 1, zero in the first position. -/
theorem pay11_at (x0 : Vec Ideal S1x1x8x192x192 .f32) (d : Fin 8) (h w : Fin 192) :
    k0_pay11 (F := Ideal) x0 (ix3 d h w)
      = if h.val = 0 then 0 else x0 (ix5 (0 : Fin 1) (0 : Fin 1) d (⟨h.val - 1, by have := h.isLt; omega⟩ : Fin 192) w) := by
  unfold k0_pay11
  try dsimp only
  by_cases hh : h.val = 0
  · rw [if_pos hh]
    refine (concatenate_pair_apply_left (1 : Fin S8x192x192.rank) _ _ concatenates_S8x1x192_S8x191x192_S8x192x192_d1 (ix3 d h w) rfl
      (ix3 d (0 : Fin 1) w) (fun c => ?_)).trans (pay6_at _)
    · match c with
      | ⟨0, _⟩ => rfl
      | ⟨1, _⟩ => exact show 0 = h.val by omega
      | ⟨2, _⟩ => rfl
  · rw [if_neg hh]
    refine (concatenate_pair_apply_right (1 : Fin S8x192x192.rank) _ _ concatenates_S8x1x192_S8x191x192_S8x192x192_d1 (ix3 d h w) rfl rfl
      (ix3 d (⟨h.val - 1, by have := h.isLt; omega⟩ : Fin 191) w) (fun c hc => ?_) ?_).trans ?_
    · match c with
      | ⟨0, _⟩ => rfl
      | ⟨1, _⟩ => exact absurd rfl hc
      | ⟨2, _⟩ => rfl
    · show (h.val - 1) + 1 = h.val; omega
    · refine (extractStridedSlice_apply ![0, 0, 0] _ slices_S8x192x192_o0_0_0_S8x191x192 (ix3 d (⟨h.val - 1, by have := h.isLt; omega⟩ : Fin 191) w)
        (ix3 d (⟨h.val - 1, by have := h.isLt; omega⟩ : Fin 192) w) (fun a => ?_)).trans (pay5_at x0 _ _ _)
      exact match a with
      | ⟨0, _⟩ => by show d.val = 0 + d.val; omega
      | ⟨1, _⟩ => by show h.val - 1 = 0 + (h.val - 1); omega
      | ⟨2, _⟩ => by show w.val = 0 + w.val; omega

/-- The tile moved one step back along axis 2, zero in the last position. -/
theorem pay12_at (x0 : Vec Ideal S1x1x8x192x192 .f32) (d : Fin 8) (h w : Fin 192) :
    k0_pay12 (F := Ideal) x0 (ix3 d h w)
      = if hh : w.val = 191 then 0 else x0 (ix5 (0 : Fin 1) (0 : Fin 1) d h (⟨w.val + 1, by have := w.isLt; omega⟩ : Fin 192)) := by
  unfold k0_pay12
  try dsimp only
  by_cases hh : w.val = 191
  · rw [dif_pos hh]
    refine (concatenate_pair_apply_right (2 : Fin S8x192x192.rank) _ _ concatenates_S8x192x191_S8x192x1_S8x192x192_d2 (ix3 d h w) rfl rfl
      (ix3 d h (0 : Fin 1)) (fun c hc => ?_) ?_).trans (pay7_at _)
    · match c with
      | ⟨0, _⟩ => rfl
      | ⟨1, _⟩ => rfl
      | ⟨2, _⟩ => exact absurd rfl hc
    · show 0 + 191 = w.val; omega
  · rw [dif_neg hh]
    refine (concatenate_pair_apply_left (2 : Fin S8x192x192.rank) _ _ concatenates_S8x192x191_S8x192x1_S8x192x192_d2 (ix3 d h w) rfl
      (ix3 d h (⟨w.val, by have := w.isLt; omega⟩ : Fin 191)) (fun c => ?_)).trans ?_
    · match c with
      | ⟨0, _⟩ => rfl
      | ⟨1, _⟩ => rfl
      | ⟨2, _⟩ => rfl
    · refine (extractStridedSlice_apply ![0, 0, 1] _ slices_S8x192x192_o0_0_1_S8x192x191 (ix3 d h (⟨w.val, by have := w.isLt; omega⟩ : Fin 191))
        (ix3 d h (⟨w.val + 1, by have := w.isLt; omega⟩ : Fin 192)) (fun a => ?_)).trans (pay5_at x0 _ _ _)
      exact match a with
      | ⟨0, _⟩ => by show d.val = 0 + d.val; omega
      | ⟨1, _⟩ => by show h.val = 0 + h.val; omega
      | ⟨2, _⟩ => by show w.val + 1 = 1 + w.val; omega

/-- The tile moved one step forward along axis 2, zero in the first position. -/
theorem pay13_at (x0 : Vec Ideal S1x1x8x192x192 .f32) (d : Fin 8) (h w : Fin 192) :
    k0_pay13 (F := Ideal) x0 (ix3 d h w)
      = if w.val = 0 then 0 else x0 (ix5 (0 : Fin 1) (0 : Fin 1) d h (⟨w.val - 1, by have := w.isLt; omega⟩ : Fin 192)) := by
  unfold k0_pay13
  try dsimp only
  by_cases hh : w.val = 0
  · rw [if_pos hh]
    refine (concatenate_pair_apply_left (2 : Fin S8x192x192.rank) _ _ concatenates_S8x192x1_S8x192x191_S8x192x192_d2 (ix3 d h w) rfl
      (ix3 d h (0 : Fin 1)) (fun c => ?_)).trans (pay7_at _)
    · match c with
      | ⟨0, _⟩ => rfl
      | ⟨1, _⟩ => rfl
      | ⟨2, _⟩ => exact show 0 = w.val by omega
  · rw [if_neg hh]
    refine (concatenate_pair_apply_right (2 : Fin S8x192x192.rank) _ _ concatenates_S8x192x1_S8x192x191_S8x192x192_d2 (ix3 d h w) rfl rfl
      (ix3 d h (⟨w.val - 1, by have := w.isLt; omega⟩ : Fin 191)) (fun c hc => ?_) ?_).trans ?_
    · match c with
      | ⟨0, _⟩ => rfl
      | ⟨1, _⟩ => rfl
      | ⟨2, _⟩ => exact absurd rfl hc
    · show (w.val - 1) + 1 = w.val; omega
    · refine (extractStridedSlice_apply ![0, 0, 0] _ slices_S8x192x192_o0_0_0_S8x192x191 (ix3 d h (⟨w.val - 1, by have := w.isLt; omega⟩ : Fin 191))
        (ix3 d h (⟨w.val - 1, by have := w.isLt; omega⟩ : Fin 192)) (fun a => ?_)).trans (pay5_at x0 _ _ _)
      exact match a with
      | ⟨0, _⟩ => by show d.val = 0 + d.val; omega
      | ⟨1, _⟩ => by show h.val = 0 + h.val; omega
      | ⟨2, _⟩ => by show w.val - 1 = 0 + (w.val - 1); omega

/-! ## The shifts along the planes: the neighbouring tiles' planes, or zero at the array's faces -/

/-- A select on "the depth tile is the first". -/
theorem select_first {α : Type} (n : Nat) (hn : n < 24) (A B : α) :
    Scalar.select (Scalar.cmpi .eq (BitVec.ofNat 32 n) 0#32) A B = if n = 0 then A else B := by
  interval_cases n <;> rfl

/-- A select on "the depth tile is the last". -/
theorem select_last {α : Type} (n : Nat) (hn : n < 24) (A B : α) :
    Scalar.select (Scalar.cmpi .eq (BitVec.ofNat 32 n) 23#32) A B = if n = 23 then A else B := by
  interval_cases n <;> rfl

/-- The tile moved one plane forward; its first plane is the plane before the tile, zero at the first tile. -/
theorem pay8_at (ic : grid0.Coords) (x0 : Vec Ideal S1x1x8x192x192 .f32) (x1 : Vec Ideal S1x1x1x192x192 .f32)
    (d : Fin 8) (h w : Fin 192) :
    k0_pay8 (F := Ideal) ic x0 x1 (ix3 d h w)
      = if d.val = 0 then (if (ic 1).val = 0 then 0 else x1 (ix5 (0 : Fin 1) (0 : Fin 1) (0 : Fin 1) h w))
        else x0 (ix5 (0 : Fin 1) (0 : Fin 1) (⟨d.val - 1, by have := d.isLt; omega⟩ : Fin 8) h w) := by
  have hlt : (ic 1).val < 24 := (ic 1).isLt
  unfold k0_pay8
  try dsimp only
  by_cases hd : d.val = 0
  · rw [if_pos hd]
    refine (concatenate_pair_apply_left (0 : Fin S8x192x192.rank) _ _ concatenates_S1x192x192_S7x192x192_S8x192x192_d0 (ix3 d h w) rfl
      (ix3 (0 : Fin 1) h w) (fun c => ?_)).trans ?_
    · match c with
      | ⟨0, _⟩ => exact show 0 = d.val by omega
      | ⟨1, _⟩ => rfl
      | ⟨2, _⟩ => rfl
    · refine (shapeCast_ab_1ab_apply _ _ (0 : Fin 1) h w).trans ?_
      rw [select_first _ hlt]
      by_cases hj : (ic 1).val = 0
      · rw [if_pos hj, if_pos hj]
        show Ideal.ofBits .f32 0x00000000#32 = 0
        exact Ideal.ofBits_zero_f32
      · rw [if_neg hj, if_neg hj]
        exact cast_plane _ _ h w
  · rw [if_neg hd]
    refine (concatenate_pair_apply_right (0 : Fin S8x192x192.rank) _ _ concatenates_S1x192x192_S7x192x192_S8x192x192_d0 (ix3 d h w) rfl rfl
      (ix3 (⟨d.val - 1, by have := d.isLt; omega⟩ : Fin 7) h w) (fun c hc => ?_) ?_).trans ?_
    · match c with
      | ⟨0, _⟩ => exact absurd rfl hc
      | ⟨1, _⟩ => rfl
      | ⟨2, _⟩ => rfl
    · show (d.val - 1) + 1 = d.val; omega
    · refine (extractStridedSlice_apply ![0, 0, 0] _ slices_S8x192x192_o0_0_0_S7x192x192
        (ix3 (⟨d.val - 1, by have := d.isLt; omega⟩ : Fin 7) h w) (ix3 (⟨d.val - 1, by have := d.isLt; omega⟩ : Fin 8) h w)
        (fun a => ?_)).trans (pay5_at x0 _ _ _)
      exact match a with
      | ⟨0, _⟩ => by show d.val - 1 = 0 + (d.val - 1); omega
      | ⟨1, _⟩ => by show h.val = 0 + h.val; omega
      | ⟨2, _⟩ => by show w.val = 0 + w.val; omega

/-- The tile moved one plane back; its last plane is the plane after the tile, zero at the last tile. -/
theorem pay9_at (ic : grid0.Coords) (x0 : Vec Ideal S1x1x8x192x192 .f32) (x2 : Vec Ideal S1x1x1x192x192 .f32)
    (d : Fin 8) (h w : Fin 192) :
    k0_pay9 (F := Ideal) ic x0 x2 (ix3 d h w)
      = if hd : d.val = 7 then (if (ic 1).val = 23 then 0 else x2 (ix5 (0 : Fin 1) (0 : Fin 1) (0 : Fin 1) h w))
        else x0 (ix5 (0 : Fin 1) (0 : Fin 1) (⟨d.val + 1, by have := d.isLt; omega⟩ : Fin 8) h w) := by
  have hlt : (ic 1).val < 24 := (ic 1).isLt
  unfold k0_pay9
  try dsimp only
  by_cases hd : d.val = 7
  · rw [dif_pos hd]
    refine (concatenate_pair_apply_right (0 : Fin S8x192x192.rank) _ _ concatenates_S7x192x192_S1x192x192_S8x192x192_d0 (ix3 d h w) rfl rfl
      (ix3 (0 : Fin 1) h w) (fun c hc => ?_) ?_).trans ?_
    · match c with
      | ⟨0, _⟩ => exact absurd rfl hc
      | ⟨1, _⟩ => rfl
      | ⟨2, _⟩ => rfl
    · show 0 + 7 = d.val; omega
    · refine (shapeCast_ab_1ab_apply _ _ (0 : Fin 1) h w).trans ?_
      rw [select_last _ hlt]
      by_cases hj : (ic 1).val = 23
      · rw [if_pos hj, if_pos hj]
        show Ideal.ofBits .f32 0x00000000#32 = 0
        exact Ideal.ofBits_zero_f32
      · rw [if_neg hj, if_neg hj]
        exact cast_plane _ _ h w
  · rw [dif_neg hd]
    refine (concatenate_pair_apply_left (0 : Fin S8x192x192.rank) _ _ concatenates_S7x192x192_S1x192x192_S8x192x192_d0 (ix3 d h w) rfl
      (ix3 (⟨d.val, by have := d.isLt; omega⟩ : Fin 7) h w) (fun c => ?_)).trans ?_
    · match c with
      | ⟨0, _⟩ => rfl
      | ⟨1, _⟩ => rfl
      | ⟨2, _⟩ => rfl
    · refine (extractStridedSlice_apply ![1, 0, 0] _ slices_S8x192x192_o1_0_0_S7x192x192
        (ix3 (⟨d.val, by have := d.isLt; omega⟩ : Fin 7) h w) (ix3 (⟨d.val + 1, by have := d.isLt; omega⟩ : Fin 8) h w)
        (fun a => ?_)).trans (pay5_at x0 _ _ _)
      exact match a with
      | ⟨0, _⟩ => by show d.val + 1 = 1 + d.val; omega
      | ⟨1, _⟩ => by show h.val = 0 + h.val; omega
      | ⟨2, _⟩ => by show w.val = 0 + w.val; omega

/-! ## The six shifted copies are the six neighbours -/

theorem arr_dep (u : Spec.S5.Idx → EReal) (b : Fin 2) (D D' : Fin 192) (h w : Fin 192) (e : D.val = D'.val) :
    u (ix5 b (0 : Fin 1) D h w) = u (ix5 b (0 : Fin 1) D' h w) := by
  rw [Fin.ext e]

section InTile
variable (u : Spec.S5.Idx → EReal) (b : Fin 2) (j : Fin 24) (x0 : Vec Ideal S1x1x8x192x192 .f32)
  (h0 : ∀ (d : Fin 8) (h w : Fin 192), x0 (ix5 (0 : Fin 1) (0 : Fin 1) d h w) = u (ix5 b (0 : Fin 1) (⟨8 * j.val + d.val, by have := j.isLt; have := d.isLt; omega⟩ : Fin 192) h w))
  (d : Fin 8) (h w : Fin 192)

include h0 in
theorem centre_eq : k0_pay5 (F := Ideal) x0 (ix3 d h w) = u (ix5 b (0 : Fin 1) (⟨8 * j.val + d.val, by have := j.isLt; have := d.isLt; omega⟩ : Fin 192) h w) := by
  rw [pay5_at, h0]

include h0 in
theorem hNext_eq : k0_pay10 (F := Ideal) x0 (ix3 d h w) = Spec.hNext u b (⟨8 * j.val + d.val, by have := j.isLt; have := d.isLt; omega⟩ : Fin 192) h w := by
  rw [pay10_at]
  unfold Spec.hNext
  by_cases hh : h.val = 191
  · rw [dif_pos hh, dif_pos hh]
  · rw [dif_neg hh, dif_neg hh, h0]

include h0 in
theorem hPrev_eq : k0_pay11 (F := Ideal) x0 (ix3 d h w) = Spec.hPrev u b (⟨8 * j.val + d.val, by have := j.isLt; have := d.isLt; omega⟩ : Fin 192) h w := by
  rw [pay11_at]
  unfold Spec.hPrev
  by_cases hh : h.val = 0
  · rw [if_pos hh, if_pos hh]
  · rw [if_neg hh, if_neg hh, h0]

include h0 in
theorem wNext_eq : k0_pay12 (F := Ideal) x0 (ix3 d h w) = Spec.wNext u b (⟨8 * j.val + d.val, by have := j.isLt; have := d.isLt; omega⟩ : Fin 192) h w := by
  rw [pay12_at]
  unfold Spec.wNext
  by_cases hw : w.val = 191
  · rw [dif_pos hw, dif_pos hw]
  · rw [dif_neg hw, dif_neg hw, h0]

include h0 in
theorem wPrev_eq : k0_pay13 (F := Ideal) x0 (ix3 d h w) = Spec.wPrev u b (⟨8 * j.val + d.val, by have := j.isLt; have := d.isLt; omega⟩ : Fin 192) h w := by
  rw [pay13_at]
  unfold Spec.wPrev
  by_cases hw : w.val = 0
  · rw [if_pos hw, if_pos hw]
  · rw [if_neg hw, if_neg hw, h0]

end InTile

section AcrossTiles
variable (u : Spec.S5.Idx → EReal) (b : Fin 2) (j : Fin 24) (ic : grid0.Coords) (hj : (ic 1).val = j.val)
  (x0 : Vec Ideal S1x1x8x192x192 .f32) (x1 x2 : Vec Ideal S1x1x1x192x192 .f32)
  (h0 : ∀ (d : Fin 8) (h w : Fin 192), x0 (ix5 (0 : Fin 1) (0 : Fin 1) d h w) = u (ix5 b (0 : Fin 1) (⟨8 * j.val + d.val, by have := j.isLt; have := d.isLt; omega⟩ : Fin 192) h w))
  (h1 : j.val ≠ 0 → ∀ (h w : Fin 192), x1 (ix5 (0 : Fin 1) (0 : Fin 1) (0 : Fin 1) h w) = u (ix5 b (0 : Fin 1) (⟨8 * j.val - 1, by have := j.isLt; omega⟩ : Fin 192) h w))
  (h2 : ∀ (hne : j.val ≠ 23) (h w : Fin 192), x2 (ix5 (0 : Fin 1) (0 : Fin 1) (0 : Fin 1) h w)
    = u (ix5 b (0 : Fin 1) (⟨8 * j.val + 8, by have := j.isLt; omega⟩ : Fin 192) h w))
  (d : Fin 8) (h w : Fin 192)

include hj h0 h1 in
theorem dPrev_eq : k0_pay8 (F := Ideal) ic x0 x1 (ix3 d h w) = Spec.dPrev u b (⟨8 * j.val + d.val, by have := j.isLt; have := d.isLt; omega⟩ : Fin 192) h w := by
  have hjlt := j.isLt
  have hdlt := d.isLt
  rw [pay8_at]
  unfold Spec.dPrev
  by_cases hd : d.val = 0
  · rw [if_pos hd]
    by_cases hj0 : j.val = 0
    · rw [if_pos (by rw [hj]; exact hj0), if_pos (show 8 * j.val + d.val = 0 by omega)]
    · rw [if_neg (by rw [hj]; exact hj0), if_neg (show ¬(8 * j.val + d.val = 0) by omega), h1 hj0 h w]
      exact arr_dep u b _ _ h w (by show 8 * j.val - 1 = 8 * j.val + d.val - 1; omega)
  · rw [if_neg hd, if_neg (show ¬(8 * j.val + d.val = 0) by omega), h0]
    exact arr_dep u b _ _ h w (by show 8 * j.val + (d.val - 1) = 8 * j.val + d.val - 1; omega)

include hj h0 h2 in
theorem dNext_eq : k0_pay9 (F := Ideal) ic x0 x2 (ix3 d h w) = Spec.dNext u b (⟨8 * j.val + d.val, by have := j.isLt; have := d.isLt; omega⟩ : Fin 192) h w := by
  have hjlt := j.isLt
  have hdlt := d.isLt
  rw [pay9_at]
  unfold Spec.dNext
  by_cases hd : d.val = 7
  · rw [dif_pos hd]
    by_cases hj23 : j.val = 23
    · rw [if_pos (by rw [hj]; exact hj23), dif_pos (show 8 * j.val + d.val = 191 by omega)]
    · rw [if_neg (by rw [hj]; exact hj23), dif_neg (show ¬(8 * j.val + d.val = 191) by omega), h2 hj23 h w]
      exact arr_dep u b _ _ h w (by show 8 * j.val + 8 = 8 * j.val + d.val + 1; omega)
  · rw [dif_neg hd, dif_neg (show ¬(8 * j.val + d.val = 191) by omega), h0]
    exact arr_dep u b _ _ h w (by show 8 * j.val + (d.val + 1) = 8 * j.val + d.val + 1; omega)

end AcrossTiles

/-! ## The physics accumulator at a grid point -/

theorem logistic_at {s : Shape} (v : FVec Ideal s .f32) (i : s.Idx) : logistic v i = Ideal.logistic (v i) := rfl

/-- At grid point `ic` on depth tile `j`, with the blocks the arrays' tile (batch `b`, planes 8·j … 8·j + 7) and the two
    extra planes the planes before and after the tile (whatever they hold at the array's two faces), the accumulator
    gains the tile's sum of the squared residuals. -/
theorem phys_step (u dudt rawD rawrho : Spec.S5.Idx → EReal) (ic : grid0.Coords) (b : Fin 2) (j : Fin 24)
    (hj : (ic 1).val = j.val)
    (x0 x3 x4 x5 : Vec Ideal S1x1x8x192x192 .f32) (x1 x2 : Vec Ideal S1x1x1x192x192 .f32) (acc : Vec Ideal S1x1 .f32)
    (h0 : ∀ (d : Fin 8) (h w : Fin 192), x0 (ix5 (0 : Fin 1) (0 : Fin 1) d h w) = u (ix5 b (0 : Fin 1) (⟨8 * j.val + d.val, by have := j.isLt; have := d.isLt; omega⟩ : Fin 192) h w))
    (h3 : ∀ (d : Fin 8) (h w : Fin 192), x3 (ix5 (0 : Fin 1) (0 : Fin 1) d h w) = dudt (ix5 b (0 : Fin 1) (⟨8 * j.val + d.val, by have := j.isLt; have := d.isLt; omega⟩ : Fin 192) h w))
    (h4 : ∀ (d : Fin 8) (h w : Fin 192), x4 (ix5 (0 : Fin 1) (0 : Fin 1) d h w) = rawD (ix5 b (0 : Fin 1) (⟨8 * j.val + d.val, by have := j.isLt; have := d.isLt; omega⟩ : Fin 192) h w))
    (h5 : ∀ (d : Fin 8) (h w : Fin 192), x5 (ix5 (0 : Fin 1) (0 : Fin 1) d h w) = rawrho (ix5 b (0 : Fin 1) (⟨8 * j.val + d.val, by have := j.isLt; have := d.isLt; omega⟩ : Fin 192) h w))
    (h1 : j.val ≠ 0 → ∀ (h w : Fin 192), x1 (ix5 (0 : Fin 1) (0 : Fin 1) (0 : Fin 1) h w) = u (ix5 b (0 : Fin 1) (⟨8 * j.val - 1, by have := j.isLt; omega⟩ : Fin 192) h w))
    (h2 : ∀ (hne : j.val ≠ 23) (h w : Fin 192), x2 (ix5 (0 : Fin 1) (0 : Fin 1) (0 : Fin 1) h w)
      = u (ix5 b (0 : Fin 1) (⟨8 * j.val + 8, by have := j.isLt; omega⟩ : Fin 192) h w)) :
    k0_pay1 (F := Ideal)
        (k0_pay14 (F := Ideal) (k0_pay5 x0) (k0_pay8 ic x0 x1) (k0_pay9 ic x0 x2) (k0_pay10 x0) (k0_pay11 x0) (k0_pay12 x0)
          (k0_pay13 x0) x4 x5 x3) acc
      = fun _ => acc (ix2 (0 : Fin 1) (0 : Fin 1)) + ∑ d : Fin 8, ∑ h : Fin 192, ∑ w : Fin 192,
          Spec.resid u dudt rawD rawrho (ix5 b (0 : Fin 1) (⟨8 * j.val + d.val, by have := j.isLt; have := d.isLt; omega⟩ : Fin 192) h w) := by
  refine (acc_step _ acc).trans ?_
  funext _
  refine congrArg (acc (ix2 (0 : Fin 1) (0 : Fin 1)) + ·) ?_
  refine Finset.sum_congr rfl (fun d _ => Finset.sum_congr rfl (fun h _ => Finset.sum_congr rfl (fun w _ => ?_)))
  simp only [mulf_apply, subf_apply, addf_apply, broadcast_apply, logistic_at, cast_block, Ideal.ofBits_def,
    centre_eq u b j x0 h0, dPrev_eq u b j ic hj x0 x1 h0 h1, dNext_eq u b j ic hj x0 x2 h0 h2, hNext_eq u b j x0 h0,
    hPrev_eq u b j x0 h0, wNext_eq u b j x0 h0, wPrev_eq u b j x0 h0, h3, h4, h5]
  rfl

end Cert.KernelValue

end
-- ==== Proof.KernelSums.lean ====
/-
  Two facts about finite sums, over any commutative additive monoid: the sum over every index of f32[2, 1, 192, 192, 192]
  regrouped as the sum over the 48 tiles (batch × 24 runs of 8 planes along the depth axis) of the sums over a tile; and
  a total accumulated one term at a time from zero is the sum of the terms.
-/
import proofs.«151788_j37855841747580_1_alg».proof.Proof.Spec

noncomputable section

open scoped BigOperators

namespace Cert.KernelValue

open Idealize.ShloMosaic Idealize.ShloMosaic.ValueIdx

/-! ## The 48 tiles cover the index set once -/

/-- Tile `t` (batch `t / 24`, depth run `t % 24`), plane `d` of its 8, row `h`, column `w`  ↔  the index
    (t / 24, 0, 8·(t % 24) + d, h, w). -/
def tileEquiv : (Fin 48 × Fin 8 × Fin 192 × Fin 192) ≃ Spec.S5.Idx where
  toFun p := ix5 (⟨p.1.val / 24, by have := p.1.isLt; omega⟩ : Fin 2) (0 : Fin 1)
    (⟨8 * (p.1.val % 24) + p.2.1.val, by have := p.2.1.isLt; omega⟩ : Fin 192) p.2.2.1 p.2.2.2
  invFun i := (⟨24 * (i 0).val + (i 2).val / 8, by
      have h0 : (i 0).val < 2 := (i 0).isLt
      have h2 : (i 2).val < 192 := (i 2).isLt
      omega⟩, ⟨(i 2).val % 8, by omega⟩, i 3, i 4)
  left_inv := by
    rintro ⟨t, d, h, w⟩
    refine Prod.ext (Fin.ext ?_) (Prod.ext (Fin.ext ?_) (Prod.ext rfl rfl))
    · show 24 * (t.val / 24) + (8 * (t.val % 24) + d.val) / 8 = t.val
      have := d.isLt; omega
    · show (8 * (t.val % 24) + d.val) % 8 = d.val
      have := d.isLt; omega
  right_inv := by
    intro i
    have h0 : (i 0).val < 2 := (i 0).isLt
    have h1 : (i 1).val < 1 := (i 1).isLt
    have h2 : (i 2).val < 192 := (i 2).isLt
    funext a
    match a with
    | ⟨0, _⟩ => exact Fin.ext (by show (24 * (i 0).val + (i 2).val / 8) / 24 = (i 0).val; omega)
    | ⟨1, _⟩ => exact Fin.ext (by show 0 = (i 1).val; omega)
    | ⟨2, _⟩ => exact Fin.ext (by show 8 * ((24 * (i 0).val + (i 2).val / 8) % 24) + (i 2).val % 8 = (i 2).val; omega)
    | ⟨3, _⟩ => rfl
    | ⟨4, _⟩ => rfl

/-- The sum over every index is the sum over the tiles of the sums over a tile. -/
theorem sum_tiles {M : Type*} [AddCommMonoid M] (f : Spec.S5.Idx → M) :
    ∑ t : Fin 48, ∑ d : Fin 8, ∑ h : Fin 192, ∑ w : Fin 192,
        f (ix5 (⟨t.val / 24, by have := t.isLt; omega⟩ : Fin 2) (0 : Fin 1)
          (⟨8 * (t.val % 24) + d.val, by have := d.isLt; omega⟩ : Fin 192) h w)
      = ∑ i : Spec.S5.Idx, f i := by
  rw [← Equiv.sum_comp tileEquiv f]
  simp only [Fintype.sum_prod_type]
  rfl

/-! ## A total accumulated from zero -/

/-- A total that starts as 0 + s 0 and gains s (n + 1) at each step is, after step n, the sum of s 0 … s n. -/
theorem running_total {M : Type*} [AddCommMonoid M] (s r : ℕ → M) (h0 : r 0 = 0 + s 0)
    (hs : ∀ n, r (n + 1) = r n + s (n + 1)) (n : ℕ) : r n = ∑ k ∈ Finset.range (n + 1), s k := by
  induction n with
  | zero => rw [h0, zero_add, Finset.sum_range_one]
  | succ n ih => rw [hs, ih, Finset.sum_range_succ _ (n + 1)]

/-- The sum over the first 48 naturals is the sum over `Fin 48`. -/
theorem sum_range_48 {M : Type*} [AddCommMonoid M] (s : ℕ → M) :
    ∑ k ∈ Finset.range 48, s k = ∑ t : Fin 48, s t.val :=
  (Fin.sum_univ_eq_sum_range s 48).symm

/-- So the total after the last of 48 steps is the sum over `Fin 48`. -/
theorem running_total_48 {M : Type*} [AddCommMonoid M] (s r : ℕ → M) (h0 : r 0 = 0 + s 0)
    (hs : ∀ n, r (n + 1) = r n + s (n + 1)) : r 47 = ∑ t : Fin 48, s t.val := by
  rw [running_total s r h0 hs 47, sum_range_48]

end Cert.KernelValue

end
-- ==== Proof.KernelIdeal.Value.lean ====
/-
  The idealized kernel's three results, read on the extended reals, are the specification's.

  At every grid point the first running sum gains the point's block sum of the squared residual, the second the
  block sum of the squared initial-condition mismatch; after the last point the sums are the sums over the 48
  blocks, which tile the arrays, hence the sums over all entries. The host operations after the region divide
  each by the entry count and combine the two quotients with the weights 10 and 1.
-/
import proofs.«151788_j37855841747580_1_alg».proof.Proof.KernelIdeal.Final
import proofs.«151788_j37855841747580_1_alg».proof.Proof.KernelIdeal.Blocks
import proofs.«151788_j37855841747580_1_alg».proof.Proof.KernelPhys
import proofs.«151788_j37855841747580_1_alg».proof.Proof.KernelSums

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

theorem lt48 (t : Fin cfg0.N) : t.val < 48 := lt_of_lt_of_eq t.isLt N48

/-- The block sums of point k (zero past the grid). -/
def sP (c : Dev nD) (k : ℕ) : EReal :=
  if hk : k < 48 then ∑ d : Fin 8, ∑ h : Fin 192, ∑ w : Fin 192,
    Spec.resid (V m c main_arg0) (V m c main_arg1) (V m c main_arg2) (V m c main_arg3)
      (ix5 (⟨k / 24, by omega⟩ : Fin 2) (0 : Fin 1) (⟨8 * (k % 24) + d.val, by have := d.isLt; omega⟩ : Fin 192) h w)
  else 0
def sI (c : Dev nD) (k : ℕ) : EReal :=
  if hk : k < 48 then ∑ d : Fin 8, ∑ h : Fin 192, ∑ w : Fin 192,
    Spec.ic (V m c main_arg4) (V m c main_arg5)
      (ix5 (⟨k / 24, by omega⟩ : Fin 2) (0 : Fin 1) (⟨8 * (k % 24) + d.val, by have := d.isLt; omega⟩ : Fin 192) h w)
  else 0

/-- One point's update of the first running sum adds the point's block sum. -/
theorem phys_at (c : Dev nD) (t : Fin cfg0.N) (acc : Vec Ideal S1x1 .f32) :
    physStep (grid0.coords t) (iblk m c 0 t) (iblk m c 1 t) (iblk m c 2 t) (iblk m c 3 t) (iblk m c 4 t) (iblk m c 5 t) acc
      = fun _ => acc (ix2 (0 : Fin 1) (0 : Fin 1)) + sP m c t.val := by
  unfold physStep sP
  rw [dif_pos (lt48 t)]
  exact Cert.KernelValue.phys_step (V m c main_arg0) (V m c main_arg1) (V m c main_arg2) (V m c main_arg3) (grid0.coords t)
    (⟨t.val / 24, tdiv t⟩ : Fin 2) (⟨t.val % 24, Nat.mod_lt _ (by decide)⟩ : Fin 24) (coords_eq t).2
    (iblk m c 0 t) (iblk m c 3 t) (iblk m c 4 t) (iblk m c 5 t) (iblk m c 1 t) (iblk m c 2 t) acc
    (iblk0_apply m c t) (iblk3_apply m c t) (iblk4_apply m c t) (iblk5_apply m c t)
    (fun hne => iblk1_apply m c t hne) (fun hne => iblk2_apply m c t hne)

/-- and of the second. -/
theorem ic_at (c : Dev nD) (t : Fin cfg0.N) (acc : Vec Ideal S1x1 .f32) :
    icStep (iblk m c 6 t) (iblk m c 7 t) acc = fun _ => acc (ix2 (0 : Fin 1) (0 : Fin 1)) + sI m c t.val := by
  unfold icStep sI
  rw [dif_pos (lt48 t)]
  exact Cert.KernelValue.ic_step (V m c main_arg4) (V m c main_arg5)
    (⟨t.val / 24, tdiv t⟩ : Fin 2) (⟨t.val % 24, Nat.mod_lt _ (by decide)⟩ : Fin 24)
    (iblk m c 6 t) (iblk m c 7 t) acc (iblk6_apply m c t) (iblk7_apply m c t)

/-- The running sums after point n are the sums of the block sums of points 0 … n. -/
theorem sums_eq (c : Dev nD) : ∀ (n : ℕ) (h : n < cfg0.N),
    sums m c n h = (fun _ => ∑ k ∈ Finset.range (n + 1), sP m c k, fun _ => ∑ k ∈ Finset.range (n + 1), sI m c k)
  | 0, h => by
    show (physStep (grid0.coords ⟨0, h⟩) (iblk m c 0 ⟨0, h⟩) (iblk m c 1 ⟨0, h⟩) (iblk m c 2 ⟨0, h⟩) (iblk m c 3 ⟨0, h⟩) (iblk m c 4 ⟨0, h⟩) (iblk m c 5 ⟨0, h⟩) (k0_pay3 (F := Ideal)),
          icStep (iblk m c 6 ⟨0, h⟩) (iblk m c 7 ⟨0, h⟩) (k0_pay4 (F := Ideal))) = _
    rw [phys_at, ic_at, Cert.KernelValue.pay3_zero, Cert.KernelValue.pay4_zero]
    simp only [zero_add, Finset.sum_range_one]
  | n + 1, h => by
    show (physStep (grid0.coords ⟨n + 1, h⟩) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (sums m c n (Nat.lt_of_succ_lt h)).1,
          icStep (iblk m c 6 ⟨n + 1, h⟩) (iblk m c 7 ⟨n + 1, h⟩) (sums m c n (Nat.lt_of_succ_lt h)).2) = _
    rw [phys_at, ic_at, sums_eq c n]
    simp only [Finset.sum_range_succ (fun k => sP m c k) (n + 1), Finset.sum_range_succ (fun k => sI m c k) (n + 1)]

/-- The sum of the 48 block sums is the sum over all entries. -/
theorem total_phys (c : Dev nD) : ∑ k ∈ Finset.range 48, sP m c k
    = Spec.sumPhys (V m c main_arg0) (V m c main_arg1) (V m c main_arg2) (V m c main_arg3) := by
  rw [Cert.KernelValue.sum_range_48, Spec.sumPhys, ← Cert.KernelValue.sum_tiles]
  exact Finset.sum_congr rfl fun t _ => by unfold sP; rw [dif_pos t.isLt]
theorem total_ic (c : Dev nD) : ∑ k ∈ Finset.range 48, sI m c k = Spec.sumIc (V m c main_arg4) (V m c main_arg5) := by
  rw [Cert.KernelValue.sum_range_48, Spec.sumIc, ← Cert.KernelValue.sum_tiles]
  exact Finset.sum_congr rfl fun t _ => by unfold sI; rw [dif_pos t.isLt]

theorem result8_eq (c : Dev nD) : result8 m c = fun _ => Spec.sumPhys (V m c main_arg0) (V m c main_arg1) (V m c main_arg2) (V m c main_arg3) := by
  show (sums m c 47 h47).1 = _
  rw [sums_eq, total_phys]
  rfl
theorem result9_eq (c : Dev nD) : result9 m c = fun _ => Spec.sumIc (V m c main_arg4) (V m c main_arg5) := by
  show (sums m c 47 h47).2 = _
  rw [sums_eq, total_ic]
  rfl

/-! ## The host operations after the region -/

/-- A one-entry array viewed as a scalar. -/
theorem cast_scalar {α : Type} (x : S1x1.Idx → α) (hc : S1x1.ShapeCasts S_) (j : S_.Idx) :
    shapeCast S_ x hc j = x (ix2 (0 : Fin 1) (0 : Fin 1)) := by
  obtain rfl := eq_ix0 j
  exact shapeCast_apply x hc _ _ (by decide)

theorem after_v2 (W : Valuation τ sig (Elt Ideal)) :
    StableHlo.after hostOps1 W (Proc.devRef .tc main_v2) = fun _ => Ideal.div (W (Proc.devRef .tc main_v0_1) (ix2 (0 : Fin 1) (0 : Fin 1))) Spec.cN := by
  unfold hostOps1
  after_results
  funext i
  show Ideal.div (shapeCast S_ (W (Proc.devRef .tc main_v0_1)) shapeCasts_S1x1_S_ i) (Ideal.ofBits .f32 0x4B580000#32) = _
  rw [cast_scalar]; rfl
theorem after_v4 (W : Valuation τ sig (Elt Ideal)) :
    StableHlo.after hostOps1 W (Proc.devRef .tc main_v4) = fun _ => Ideal.div (W (Proc.devRef .tc main_v0_0) (ix2 (0 : Fin 1) (0 : Fin 1))) Spec.cN := by
  unfold hostOps1
  after_results
  funext i
  show Ideal.div (shapeCast S_ (W (Proc.devRef .tc main_v0_0)) shapeCasts_S1x1_S_ i) (Ideal.ofBits .f32 0x4B580000#32) = _
  rw [cast_scalar]; rfl
theorem after_v7 (W : Valuation τ sig (Elt Ideal)) :
    StableHlo.after hostOps1 W (Proc.devRef .tc main_v7) = fun _ =>
      Spec.c10 * Ideal.div (W (Proc.devRef .tc main_v0_1) (ix2 (0 : Fin 1) (0 : Fin 1))) Spec.cN
        + Spec.c1 * Ideal.div (W (Proc.devRef .tc main_v0_0) (ix2 (0 : Fin 1) (0 : Fin 1))) Spec.cN := by
  unfold hostOps1
  after_results
  funext i
  show Ideal.ofBits .f32 0x41200000#32 * Ideal.div (shapeCast S_ (W (Proc.devRef .tc main_v0_1)) shapeCasts_S1x1_S_ i) (Ideal.ofBits .f32 0x4B580000#32)
      + Ideal.ofBits .f32 0x3F800000#32 * Ideal.div (shapeCast S_ (W (Proc.devRef .tc main_v0_0)) shapeCasts_S1x1_S_ i) (Ideal.ofBits .f32 0x4B580000#32) = _
  rw [cast_scalar, cast_scalar]; rfl

/-- The three results at the program's end. -/
theorem Vend_v2 (c : Dev nD) : Vend m c (Proc.devRef .tc main_v2) = fun _ => Spec.lossIc (V m c main_arg4) (V m c main_arg5) := by
  unfold Vend
  rw [after_v2, Vexit_v01, final_9, result9_eq]; rfl
theorem Vend_v4 (c : Dev nD) : Vend m c (Proc.devRef .tc main_v4)
    = fun _ => Spec.lossPhys (V m c main_arg0) (V m c main_arg1) (V m c main_arg2) (V m c main_arg3) := by
  unfold Vend
  rw [after_v4, Vexit_v00, final_8, result8_eq]; rfl
theorem Vend_v7 (c : Dev nD) : Vend m c (Proc.devRef .tc main_v7)
    = fun _ => Spec.total (V m c main_arg0) (V m c main_arg1) (V m c main_arg2) (V m c main_arg3) (V m c main_arg4) (V m c main_arg5) := by
  unfold Vend
  rw [after_v7, Vexit_v00, Vexit_v01, final_8, final_9, result8_eq, result9_eq]; rfl

/-- THE VALUE: at the program's end the three results are the specification's weighted total, its
    initial-condition loss and its physics loss, and the six arguments are as launched. -/
theorem run_value : θ_run defs (onTc (τ := τ) (main (F := Ideal))) ⟨m, fun _ => 0, ρ⟩ (fun r => ∀ c : Dev nD,
      r.2.mem ((c.tc : Thread nD τ).loc main_v7) = (fun _ => Spec.total (V m c main_arg0) (V m c main_arg1) (V m c main_arg2) (V m c main_arg3) (V m c main_arg4) (V m c main_arg5))
      ∧ r.2.mem ((c.tc : Thread nD τ).loc main_v2) = (fun _ => Spec.lossIc (V m c main_arg4) (V m c main_arg5))
      ∧ r.2.mem ((c.tc : Thread nD τ).loc main_v4) = (fun _ => Spec.lossPhys (V m c main_arg0) (V m c main_arg1) (V m c main_arg2) (V m c main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v7 (by decide)).trans (Vend_v7 m c), ((h c).2 main_v2 (by decide)).trans (Vend_v2 m c),
     ((h c).2 main_v4 (by decide)).trans (Vend_v4 m c),
     ((h c).1 0).trans ((dats m 0 c).arrAt_in 0 rfl _), ((h c).1 3).trans ((dats m 0 c).arrAt_in 3 rfl _),
     ((h c).1 4).trans ((dats m 0 c).arrAt_in 4 rfl _), ((h c).1 5).trans ((dats m 0 c).arrAt_in 5 rfl _),
     ((h c).1 6).trans ((dats m 0 c).arrAt_in 6 rfl _), ((h c).1 7).trans ((dats m 0 c).arrAt_in 7 rfl _)⟩) (run_main m ρ)

end Cert.KernelIdeal.Hand

end
-- ==== Proof.RefValue.lean ====
/-
  The reference's three results are the specification (Spec.lean), index by index on the extended reals: the host's
  expansion of the logistic function (negate, exponential, add, divide) is `Ideal.logistic`; the zero-padded array read
  through the six shifted windows is the neighbour with the zero boundary; the two float sums start from the zero word.
  Then the reference's run with its results named by the specification, and its frame.
-/
import proofs.«151788_j37855841747580_1_alg».proof.Defs
import proofs.«151788_j37855841747580_1_alg».proof.Proof.Gen.ReferenceIdeal
import proofs.«151788_j37855841747580_1_alg».proof.Proof.Gen.Pre_finite_inputs
import proofs.«151788_j37855841747580_1_alg».proof.Proof.Gen.ReferenceIdeal.Read
import proofs.«151788_j37855841747580_1_alg».proof.Proof.Spec
import Idealize.ShloMosaic.Lib.KernelVsHost

noncomputable section

open scoped BigOperators

namespace Cert.RefValue

open Cert.ReferenceIdeal Cert.ReferenceIdeal.Gen Cert.ReferenceIdeal.Read Idealize.ShloMosaic Idealize.ShloMosaic.ValueIdx
  Idealize.ShloMosaic.TcCoe Idealize.SL.Sem

/-- An argument array: the extended reals over f32[2, 1, 192, 192, 192]. -/
abbrev Arr : Type := FVec Ideal S2x1x192x192x192 .f32

/-! ## The logistic function and the two coefficient maps -/

/-- 1 / (1 + exp (−x)) in the host's operations is the logistic function. -/
theorem sig_rawD (x2 : Arr) (i : S2x1x192x192x192.Idx) : val_main_v5 (F := Ideal) x2 i = Spec.sig (x2 i) := by
  rw [val_main_v5_apply, val_main_v4_apply, val_main_cst_0_apply, val_main_v3_apply, val_main_v2_apply, val_main_cst_apply,
    val_main_v1_apply, val_main_v0_apply]
  simp only [Ideal.hostDivf_def, Ideal.hostUnary_exp_def, Ideal.hostNegf_def, Ideal.negf_def, Ideal.addf_def, Ideal.ofBits_def,
    Spec.ofBits_one_f32]
  rfl

theorem sig_rawrho (x3 : Arr) (i : S2x1x192x192x192.Idx) : val_main_v15 (F := Ideal) x3 i = Spec.sig (x3 i) := by
  rw [val_main_v15_apply, val_main_v14_apply, val_main_cst_4_apply, val_main_v13_apply, val_main_v12_apply, val_main_cst_3_apply,
    val_main_v11_apply, val_main_v10_apply]
  simp only [Ideal.hostDivf_def, Ideal.hostUnary_exp_def, Ideal.hostNegf_def, Ideal.negf_def, Ideal.addf_def, Ideal.ofBits_def,
    Spec.ofBits_one_f32]
  rfl

/-- D = 0.001 + σ(rawD)·0.019. -/
theorem dmap (x2 : Arr) (i : S2x1x192x192x192.Idx) :
    val_main_v9 (F := Ideal) x2 i = Spec.c001 + Spec.sig (x2 i) * Spec.c019 := by
  rw [val_main_v9_apply, val_main_v8_apply, val_main_cst_2_apply, val_main_v7_apply, val_main_v6_apply, val_main_cst_1_apply,
    sig_rawD]
  rfl

/-- ρ = 0.012 + σ(rawρ)·0.022. -/
theorem rhomap (x3 : Arr) (i : S2x1x192x192x192.Idx) :
    val_main_v19 (F := Ideal) x3 i = Spec.c012 + Spec.sig (x3 i) * Spec.c022 := by
  rw [val_main_v19_apply, val_main_v18_apply, val_main_cst_6_apply, val_main_v17_apply, val_main_v16_apply, val_main_cst_5_apply,
    sig_rawrho]
  rfl

/-! ## The zero-padded array at an index -/

/-- The padding value, the integer 0 converted, is zero. -/
theorem padval (i : S_.Idx) : val_main_call0_v0 (F := Ideal) i = 0 := by
  rw [val_main_call0_v0_apply, val_main_c_apply]
  show (((0#32 : BitVec 32).toInt : ℝ) : EReal) = 0
  simp

/-- One step inside the border on the three padded axes, the padded array is the operand. -/
theorem pad_inside (x0 : Arr) (j : S2x1x194x194x194.Idx) (k : S2x1x192x192x192.Idx)
    (h0 : (j 0).val = (k 0).val) (h1 : (j 1).val = (k 1).val) (h2 : (j 2).val = (k 2).val + 1)
    (h3 : (j 3).val = (k 3).val + 1) (h4 : (j 4).val = (k 4).val + 1) :
    val_main_v24 (F := Ideal) x0 j = x0 k := by
  unfold val_main_v24
  exact pad_apply_of_inside _ _ _ x0 _ _ h_S_ j k (fun a => match a with
    | ⟨0, _⟩ => by show (j 0).val = 0 + (k 0).val * (0 + 1); omega
    | ⟨1, _⟩ => by show (j 1).val = 0 + (k 1).val * (0 + 1); omega
    | ⟨2, _⟩ => by show (j 2).val = 1 + (k 2).val * (0 + 1); omega
    | ⟨3, _⟩ => by show (j 3).val = 1 + (k 3).val * (0 + 1); omega
    | ⟨4, _⟩ => by show (j 4).val = 1 + (k 4).val * (0 + 1); omega)

/-- On the border of a padded axis, the padded array is zero. -/
theorem pad_border (x0 : Arr) (j : S2x1x194x194x194.Idx)
    (h : (j 2).val = 0 ∨ (j 2).val = 193 ∨ (j 3).val = 0 ∨ (j 3).val = 193 ∨ (j 4).val = 0 ∨ (j 4).val = 193) :
    val_main_v24 (F := Ideal) x0 j = 0 := by
  unfold val_main_v24
  rcases h with h | h | h | h | h | h
  · rw [pad_apply_of_not_inside _ _ _ x0 _ _ h_S_ j (2 : Fin 5) (by
      show ¬(1 ≤ (j 2).val ∧ ((j 2).val - 1) % (0 + 1) = 0 ∧ ((j 2).val - 1) / (0 + 1) < 192); omega)]
    exact padval _
  · rw [pad_apply_of_not_inside _ _ _ x0 _ _ h_S_ j (2 : Fin 5) (by
      show ¬(1 ≤ (j 2).val ∧ ((j 2).val - 1) % (0 + 1) = 0 ∧ ((j 2).val - 1) / (0 + 1) < 192); omega)]
    exact padval _
  · rw [pad_apply_of_not_inside _ _ _ x0 _ _ h_S_ j (3 : Fin 5) (by
      show ¬(1 ≤ (j 3).val ∧ ((j 3).val - 1) % (0 + 1) = 0 ∧ ((j 3).val - 1) / (0 + 1) < 192); omega)]
    exact padval _
  · rw [pad_apply_of_not_inside _ _ _ x0 _ _ h_S_ j (3 : Fin 5) (by
      show ¬(1 ≤ (j 3).val ∧ ((j 3).val - 1) % (0 + 1) = 0 ∧ ((j 3).val - 1) / (0 + 1) < 192); omega)]
    exact padval _
  · rw [pad_apply_of_not_inside _ _ _ x0 _ _ h_S_ j (4 : Fin 5) (by
      show ¬(1 ≤ (j 4).val ∧ ((j 4).val - 1) % (0 + 1) = 0 ∧ ((j 4).val - 1) / (0 + 1) < 192); omega)]
    exact padval _
  · rw [pad_apply_of_not_inside _ _ _ x0 _ _ h_S_ j (4 : Fin 5) (by
      show ¬(1 ≤ (j 4).val ∧ ((j 4).val - 1) % (0 + 1) = 0 ∧ ((j 4).val - 1) / (0 + 1) < 192); omega)]
    exact padval _

/-! ## The six windows are the six neighbours -/

section Windows
variable (x0 : Arr) (b : Fin 2) (d h w : Fin 192)

theorem win_dNext : val_main_v25 (F := Ideal) x0 (ix5 b (0 : Fin 1) d h w) = Spec.dNext x0 b d h w := by
  rw [val_main_v25_apply]
  unfold Spec.dNext
  split_ifs with hd
  · exact pad_border x0 _ (Or.inr (Or.inl (by show 2 + d.val = 193; omega)))
  · exact pad_inside x0 _ _ rfl rfl (by show 2 + d.val = (d.val + 1) + 1; omega) (by show 1 + h.val = h.val + 1; omega)
      (by show 1 + w.val = w.val + 1; omega)

theorem win_dPrev : val_main_v26 (F := Ideal) x0 (ix5 b (0 : Fin 1) d h w) = Spec.dPrev x0 b d h w := by
  rw [val_main_v26_apply]
  unfold Spec.dPrev
  split_ifs with hd
  · exact pad_border x0 _ (Or.inl (by show d.val = 0; omega))
  · exact pad_inside x0 _ _ rfl rfl (by show d.val = (d.val - 1) + 1; omega) (by show 1 + h.val = h.val + 1; omega)
      (by show 1 + w.val = w.val + 1; omega)

theorem win_hNext : val_main_v28 (F := Ideal) x0 (ix5 b (0 : Fin 1) d h w) = Spec.hNext x0 b d h w := by
  rw [val_main_v28_apply]
  unfold Spec.hNext
  split_ifs with hh
  · exact pad_border x0 _ (Or.inr (Or.inr (Or.inr (Or.inl (by show 2 + h.val = 193; omega)))))
  · exact pad_inside x0 _ _ rfl rfl (by show 1 + d.val = d.val + 1; omega) (by show 2 + h.val = (h.val + 1) + 1; omega)
      (by show 1 + w.val = w.val + 1; omega)

theorem win_hPrev : val_main_v30 (F := Ideal) x0 (ix5 b (0 : Fin 1) d h w) = Spec.hPrev x0 b d h w := by
  rw [val_main_v30_apply]
  unfold Spec.hPrev
  split_ifs with hh
  · exact pad_border x0 _ (Or.inr (Or.inr (Or.inl (by show h.val = 0; omega))))
  · exact pad_inside x0 _ _ rfl rfl (by show 1 + d.val = d.val + 1; omega) (by show h.val = (h.val - 1) + 1; omega)
      (by show 1 + w.val = w.val + 1; omega)

theorem win_wNext : val_main_v32 (F := Ideal) x0 (ix5 b (0 : Fin 1) d h w) = Spec.wNext x0 b d h w := by
  rw [val_main_v32_apply]
  unfold Spec.wNext
  split_ifs with hw
  · exact pad_border x0 _ (Or.inr (Or.inr (Or.inr (Or.inr (Or.inr (by show 2 + w.val = 193; omega))))))
  · exact pad_inside x0 _ _ rfl rfl (by show 1 + d.val = d.val + 1; omega) (by show 1 + h.val = h.val + 1; omega)
      (by show 2 + w.val = (w.val + 1) + 1; omega)

theorem win_wPrev : val_main_v34 (F := Ideal) x0 (ix5 b (0 : Fin 1) d h w) = Spec.wPrev x0 b d h w := by
  rw [val_main_v34_apply]
  unfold Spec.wPrev
  split_ifs with hw
  · exact pad_border x0 _ (Or.inr (Or.inr (Or.inr (Or.inr (Or.inl (by show w.val = 0; omega))))))
  · exact pad_inside x0 _ _ rfl rfl (by show 1 + d.val = d.val + 1; omega) (by show 1 + h.val = h.val + 1; omega)
      (by show w.val = (w.val - 1) + 1; omega)

/-- The reference's stencil is the specification's: its first two summands are in the other order. -/
theorem lap_eq : val_main_v38 (F := Ideal) x0 (ix5 b (0 : Fin 1) d h w) = Spec.lap x0 b d h w := by
  rw [val_main_v38_apply, val_main_v35_apply, val_main_v33_apply, val_main_v31_apply, val_main_v29_apply, val_main_v27_apply,
    val_main_v37_apply, val_main_v36_apply, val_main_cst_9_apply, win_dNext, win_dPrev, win_hNext, win_hPrev, win_wNext, win_wPrev]
  simp only [Ideal.addf_def, Ideal.subf_def, Ideal.mulf_def, Ideal.ofBits_def]
  rw [add_comm (Spec.dNext x0 b d h w) (Spec.dPrev x0 b d h w)]
  rfl

end Windows

/-! ## The two summands -/

/-- The squared residual. -/
theorem resid_eq (x0 x1 x2 x3 : Arr) (i : S2x1x192x192x192.Idx) :
    val_main_v46 (F := Ideal) x0 x1 x2 x3 i = Spec.resid x0 x1 x2 x3 i := by
  obtain ⟨b, z, d, h, w, rfl⟩ : ∃ (b : Fin 2) (z : Fin 1) (d h w : Fin 192), i = ix5 b z d h w :=
    ⟨i 0, i 1, i 2, i 3, i 4, eq_ix5 i⟩
  obtain rfl : z = 0 := Subsingleton.elim _ _
  rw [val_main_v46_apply, val_main_v45_apply, val_main_v40_apply, val_main_v39_apply, val_main_v44_apply, val_main_v41_apply,
    val_main_v43_apply, val_main_v42_apply, val_main_cst_10_apply, dmap, rhomap, lap_eq]
  rfl

/-- The squared initial-condition error. -/
theorem ic_eq (x4 x5 : Arr) (i : S2x1x192x192x192.Idx) : val_main_v21 (F := Ideal) x4 x5 i = Spec.ic x4 x5 i := by
  rw [val_main_v21_apply, val_main_v20_apply]
  rfl

/-! ## The three results -/

/-- loss_ic. The result is a scalar (shape `S_`, the one index `ix0`): the constant function. -/
theorem lossIc_eq (x4 x5 : Arr) : val_main_v23 (F := Ideal) x4 x5 = fun _ => Spec.lossIc x4 x5 := by
  funext i
  rw [val_main_v23_apply, val_main_v22_apply, val_main_cst_7_apply, val_main_cst_8_apply]
  simp only [Ideal.hostDivf_def, Ideal.ofBits_def, Ideal.ofBits_zero_f32, zero_add, ic_eq]
  rfl

/-- loss_physics. -/
theorem lossPhys_eq (x0 x1 x2 x3 : Arr) : val_main_v48 (F := Ideal) x0 x1 x2 x3 = fun _ => Spec.lossPhys x0 x1 x2 x3 := by
  funext i
  rw [val_main_v48_apply, val_main_v47_apply, val_main_cst_11_apply, val_main_cst_12_apply]
  simp only [Ideal.hostDivf_def, Ideal.ofBits_def, Ideal.ofBits_zero_f32, zero_add, resid_eq]
  rfl

/-- total = 10·loss_ic + 1·loss_physics. -/
theorem total_eq (x0 x1 x2 x3 x4 x5 : Arr) :
    val_main_v51 (F := Ideal) x0 x1 x2 x3 x4 x5 = fun _ => Spec.total x0 x1 x2 x3 x4 x5 := by
  funext i
  rw [val_main_v51_apply, val_main_v49_apply, val_main_v50_apply, val_main_cst_13_apply, val_main_cst_14_apply, lossIc_eq,
    lossPhys_eq]
  rfl

/-! ## The reference's run, its results named by the specification; its frame -/

/-- Every weakly fair execution of the reference terminates with its three results the specification's total, loss_ic and
    loss_physics of the argument arrays (each a scalar: the constant function on the one index of shape `S_`), and the
    six arguments unchanged. -/
theorem run_spec (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v51) = (fun _ => Spec.total (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v23) = (fun _ => Spec.lossIc (m ((c.tc : Thread nD τ).loc main_arg4)) (m ((c.tc : Thread nD τ).loc main_arg5)))
      ∧ r.2.mem ((c.tc : Thread nD τ).loc main_v48) = (fun _ => Spec.lossPhys (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run Cert.ReferenceIdeal.defs _ _).mono (fun _ h c =>
      ⟨(h c).1.trans ((val_main_v51_eq m c).trans (total_eq _ _ _ _ _ _)),
        (h c).2.1.trans ((val_main_v23_eq _ _).trans (lossIc_eq _ _)),
        (h c).2.2.1.trans ((val_main_v48_eq m c).trans (lossPhys_eq _ _ _ _)),
        (h c).2.2.2⟩)
    (Cert.ReferenceIdeal.Value.run (F := Ideal) m ρ)

/-- The same run from a memory `m'` that agrees on the six arguments with a memory `m` of the kernel's program: the three
    results are the specification's of `m`'s argument arrays. -/
theorem run_spec_of_agree
    (m : (ℓ : Loc Cert.KernelIdeal.nD Cert.KernelIdeal.τ Cert.KernelIdeal.sig) → Buf (Elt Ideal) ℓ)
    (m' : (ℓ : Loc nD τ sig) → Buf (Elt Ideal) ℓ) (ρ' : Dev nD → PrngReg)
    (hagree : ∀ c : Dev Cert.KernelIdeal.nD,
      m' ((c.tc : Thread nD τ).loc main_arg0) = m ((c.tc : Thread Cert.KernelIdeal.nD Cert.KernelIdeal.τ).loc Cert.KernelIdeal.main_arg0)
      ∧       m' ((c.tc : Thread nD τ).loc main_arg1) = m ((c.tc : Thread Cert.KernelIdeal.nD Cert.KernelIdeal.τ).loc Cert.KernelIdeal.main_arg1)
      ∧       m' ((c.tc : Thread nD τ).loc main_arg2) = m ((c.tc : Thread Cert.KernelIdeal.nD Cert.KernelIdeal.τ).loc Cert.KernelIdeal.main_arg2)
      ∧       m' ((c.tc : Thread nD τ).loc main_arg3) = m ((c.tc : Thread Cert.KernelIdeal.nD Cert.KernelIdeal.τ).loc Cert.KernelIdeal.main_arg3)
      ∧       m' ((c.tc : Thread nD τ).loc main_arg4) = m ((c.tc : Thread Cert.KernelIdeal.nD Cert.KernelIdeal.τ).loc Cert.KernelIdeal.main_arg4)
      ∧       m' ((c.tc : Thread nD τ).loc main_arg5) = m ((c.tc : Thread Cert.KernelIdeal.nD Cert.KernelIdeal.τ).loc Cert.KernelIdeal.main_arg5)) :
    θ_run (Cert.ReferenceIdeal.defs (F := Ideal)) (onTc (τ := τ) (main (F := Ideal))) ⟨m', fun _ => 0, ρ'⟩ fun r => ∀ c : Dev nD,
      r.2.mem ((c.tc : Thread nD τ).loc main_v51) = (fun _ => Spec.total (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      ∧ r.2.mem ((c.tc : Thread nD τ).loc main_v23) = (fun _ => Spec.lossIc (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
      ∧ r.2.mem ((c.tc : Thread nD τ).loc main_v48) = (fun _ => Spec.lossPhys (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5) :=
  (θ_run Cert.ReferenceIdeal.defs _ _).mono (fun _ h c => by
      obtain ⟨a0, a1, a2, a3, a4, a5⟩ := hagree c
      rw [← a0, ← a1, ← a2, ← a3, ← a4, ← a5]
      exact h c)
    (run_spec m' ρ')

/-- The reference runs and leaves its arguments unchanged: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

end Cert.RefValue

end
-- ==== Proof.lean ====
/-
  The certificate's five claims.

  The kernel is one pipelined region over a 2 x 24 grid followed by eleven scalar host operations. At each grid
  point the body adds to two one-cell running sums the block sums, over eight planes of one batch, of the squared
  residual of the reaction-diffusion equation (a seven-point stencil with zero boundary, the planes next to the
  block fetched through two one-plane windows on the same array) and of the squared initial-condition mismatch;
  the host operations divide each sum by the entry count and weight the two quotients by 10 and 1. The reference
  computes the same three numbers with whole-array operations.

  The frames of the two kernel programs are the launch of the region with the first array's share cut in three for
  the three windows that name it (the same text at the two instances); the reference's frame is its run. The
  idealization rewrote nothing. On the extended reals the two programs' results are equal: both are the
  specification's sums, the kernel's by accumulation over the 48 blocks, which tile the arrays.
-/
import proofs.«151788_j37855841747580_1_alg».proof.Proof.Kernel.Launch
import proofs.«151788_j37855841747580_1_alg».proof.Proof.KernelIdeal.Value
import proofs.«151788_j37855841747580_1_alg».proof.Proof.RefValue
import proofs.«151788_j37855841747580_1_alg».proof.Defs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := Cert.RefValue.frame_ri

theorem preserves : Cert.preserves_Kernel_KernelIdeal := trivial

/-- Both programs end at the specification's three numbers of the (agreeing) argument arrays. -/
theorem algebraic : Cert.algebraic_KernelIdeal_ReferenceIdeal := by
  intro m ρ m' ρ' _ hagree
  exact ⟨_, _, _, Cert.KernelIdeal.Hand.run_value m ρ, Cert.RefValue.run_spec_of_agree m m' ρ' hagree⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
